-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x512 : Shape := ⟨3, ![512, 512, 512]⟩
abbrev S512x1 : Shape := ⟨2, ![512, 1]⟩
abbrev S_ : Shape := ⟨0, ![]⟩

class Facts : Prop where
  bcast_S_S512x512x512 : S_.BroadcastsInDim S512x512x512 (![] : Fin 0 → Fin S512x512x512.rank)
  reducesTo_S512x512x512_S_d0_1_2 : S512x512x512.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x512x512 .f32) (main_arg1 : FVec F S512x1 .f32) : IVec S_ 1 :=
  let main_v0 : FVec F S512x512x512 .f32 := Host.absf main_arg0
  let main_cst : FVec F S_ .f32 := constant S_ .f32 0x7F800000#32
  let main_v1 : FVec F S512x512x512 .f32 := broadcastInDim S512x512x512 ![] bcast_S_S512x512x512 main_cst
  let main_v2 : IVec S512x512x512 1 := cmpf .olt main_v0 main_v1
  let main_c : IVec S_ 1 := constantI S_ 1 1#1
  let main_v3 : IVec S_ 1 := (fun x v => Host.reduce IntOp.andi x v reducesTo_S512x512x512_S_d0_1_2 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S512x512x512 : Shape := ⟨3, ![512, 512, 512]⟩
abbrev S512x1 : Shape := ⟨2, ![512, 1]⟩
abbrev S512 : Shape := ⟨1, ![512]⟩
abbrev S_ : Shape := ⟨0, ![]⟩
abbrev S512x1x1 : Shape := ⟨3, ![512, 1, 1]⟩
abbrev S1x512x1 : Shape := ⟨3, ![1, 512, 1]⟩
abbrev S1x1x512 : Shape := ⟨3, ![1, 1, 512]⟩
abbrev S512x512 : Shape := ⟨2, ![512, 512]⟩
abbrev S8x512x512 : Shape := ⟨3, ![8, 512, 512]⟩
abbrev S64x128x128 : Shape := ⟨3, ![64, 128, 128]⟩
abbrev S64x1x1 : Shape := ⟨3, ![64, 1, 1]⟩
abbrev S1x128x1 : Shape := ⟨3, ![1, 128, 1]⟩
abbrev S1x1x128 : Shape := ⟨3, ![1, 1, 128]⟩
abbrev S64x512 : Shape := ⟨2, ![64, 512]⟩
abbrev S64x128 : Shape := ⟨2, ![64, 128]⟩
abbrev S1x128x128 : Shape := ⟨3, ![1, 128, 128]⟩
abbrev S128x128 : Shape := ⟨2, ![128, 128]⟩
abbrev S1x512 : Shape := ⟨2, ![1, 512]⟩

abbrev nBuf : Space → Nat
  | .hbm => 89
  | .vmem => 26
  | .smem => 0
  | _ => 0

abbrev bufTy : (tb : Table) → Fin (tcTables nBuf tb) → BufTy
  | .hbm, ⟨0, _⟩ => ⟨S512x512x512, .f32⟩
  | .hbm, ⟨1, _⟩ => ⟨S512x1, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .i1⟩
  | .hbm, ⟨7, _⟩ => ⟨S_, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x1x1, .f32⟩
  | .hbm, ⟨14, _⟩ => ⟨S1x512x1, .f32⟩
  | .hbm, ⟨15, _⟩ => ⟨S1x1x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S8x512x512, .f32⟩
  | .hbm, ⟨23, _⟩ => ⟨S8x512x512, .f32⟩
  | .hbm, ⟨24, _⟩ => ⟨S8x512x512, .f32⟩
  | .hbm, ⟨25, _⟩ => ⟨S_, .f32⟩
  | .hbm, ⟨26, _⟩ => ⟨S512x512, .f32⟩
  | .hbm, ⟨27, _⟩ => ⟨S_, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512x1, .f32⟩
  | .hbm, ⟨36, _⟩ => ⟨S1x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512x1, .f32⟩
  | .hbm, ⟨47, _⟩ => ⟨S1x512, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S512x512, .f32⟩
  | .hbm, ⟨73, _⟩ => ⟨S512x512, .f32⟩
  | .hbm, ⟨74, _⟩ => ⟨S512x512, .f32⟩
  | .hbm, ⟨75, _⟩ => ⟨S512x512, .f32⟩
  | .hbm, ⟨76, _⟩ => ⟨S512x512, .f32⟩
  | .hbm, ⟨77, _⟩ => ⟨S512x512, .f32⟩
  | .hbm, ⟨78, _⟩ => ⟨S512x512, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S512x512, .f32⟩
  | .hbm, ⟨84, _⟩ => ⟨S512x512, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S64x128x128, .f32⟩
  | .local _ .vmem, ⟨1, _⟩ => ⟨S64x128x128, .f32⟩
  | .local _ .vmem, ⟨2, _⟩ => ⟨S64x1x1, .f32⟩
  | .local _ .vmem, ⟨3, _⟩ => ⟨S64x1x1, .f32⟩
  | .local _ .vmem, ⟨4, _⟩ => ⟨S1x128x1, .f32⟩
  | .local _ .vmem, ⟨5, _⟩ => ⟨S1x128x1, .f32⟩
  | .local _ .vmem, ⟨6, _⟩ => ⟨S1x1x128, .f32⟩
  | .local _ .vmem, ⟨7, _⟩ => ⟨S1x1x128, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | _, _ => ⟨S512x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_v9_7 : Ref sig .tc := ⟨.hbm, 23, rfl⟩
abbrev main_v9_8 : Ref sig .tc := ⟨.hbm, 24, rfl⟩
abbrev main_cst_2 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 2 → Nat :=
  let c0_21 : Index := 0#32
  let arg2 : BitVec 32 := BitVec.ofNat 32 (i 2).val
  let c128_i32 : BitVec 32 := 128#32
  let v0 : BitVec 32 := Scalar.muli arg2 c128_i32
  let v1 : BitVec 32 := v0
  let v30 : Index := Scalar.indexCast v1
  ![0, v30.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

class Facts₀ : Prop where
  shapeCasts_S512x1_S512 : S512x1.ShapeCasts S512
  bcast_S_S512 : S_.BroadcastsInDim S512 (![] : Fin 0 → Fin S512.rank)
  shapeCasts_S512_S512x1x1 : S512.ShapeCasts S512x1x1
  shapeCasts_S512_S1x512x1 : S512.ShapeCasts S1x512x1
  shapeCasts_S512_S1x1x512 : S512.ShapeCasts S1x1x512
  inb_S64x128x128_S64x128x128_0_0_0 : ∀ a, (![0, 0, 0] : Fin 3 → Nat) a + S64x128x128.size a ≤ S64x128x128.size a
  h_S64x128x128 : 0 < S64x128x128.numel
  reduces_S64x128x128_S64x128 : S64x128x128.Reduces [1] S64x128
  reduces_S64x128x128_S64x128_2 : S64x128x128.Reduces [2] S64x128
  reduces_S64x128x128_S128x128 : S64x128x128.Reduces [0] S128x128
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S64x128x128 : S1x128x1.Broadcasts S64x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S1x1x128_S64x128x128 : S1x1x128.Broadcasts S64x128x128
  inb_S64x1x1_S64x1x1_0_0_0 : ∀ a, (![0, 0, 0] : Fin 3 → Nat) a + S64x1x1.size a ≤ S64x1x1.size a
  h_S64x1x1 : 0 < S64x1x1.numel
  shapeCasts_S64x1x1_S64x1x1 : S64x1x1.ShapeCasts S64x1x1
  broadcasts_S64x1x1_S64x128x128 : S64x1x1.Broadcasts S64x128x128
  inb_S64x512_S64x512_0_0 : ∀ a, (![0, 0] : Fin 2 → Nat) a + S64x512.size a ≤ S64x512.size a
  h_S64x512 : 0 < S64x512.numel
  h_S64x128 : 0 < S64x128.numel
  shapeCasts_S64x128_S64x128 : S64x128.ShapeCasts S64x128
  inb_S64x128_S64x128_0_0 : ∀ a, (![0, 0] : Fin 2 → Nat) a + S64x128.size a ≤ S64x128.size a
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  reducesTo_S8x512x512_S512x512_d0 : S8x512x512.ReducesTo [0] S512x512
  h_S_ : 0 < S_.numel
  reducesTo_S512_S_d0 : S512.ReducesTo [0] S_
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S_d0_1 : S512x512.ReducesTo [0, 1] S_
  hrank0 : 0 < grid0.rank
  k0_mult1_dvd : ∀ i : grid0.Coords, 128 ∣ (k0_mult1 i).toNat
  k0_off1_inb : ∀ i : grid0.Coords, ∀ a, (k0_off1 i) a + S64x128.size a ≤ S64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S512x512x512.size a
  hwx0_0 : ∀ i : grid0.Coords, EltTy.bits .f32 = 32 ∨ (Rect.block (s := S512x512x512) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x1.size a ≤ S512x1x1.size a
  hwx0_1 : ∀ i : grid0.Coords, EltTy.bits .f32 = 32 ∨ (Rect.block (s := S512x1x1) S64x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S1x512x1.size a
  hwx0_2 : ∀ i : grid0.Coords, EltTy.bits .f32 = 32 ∨ (Rect.block (s := S1x512x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S1x1x512.size a
  hwx0_3 : ∀ i : grid0.Coords, EltTy.bits .f32 = 32 ∨ (Rect.block (s := S1x1x512) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S512x512.size a
  hwx0_4 : ∀ i : grid0.Coords, EltTy.bits .f32 = 32 ∨ (Rect.block (s := S512x512) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S512x512.size a
  hwx0_5 : ∀ i : grid0.Coords, EltTy.bits .f32 = 32 ∨ (Rect.block (s := S512x512) S64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S512x512.size a
  hwx0_6 : ∀ i : grid0.Coords, EltTy.bits .f32 = 32 ∨ (Rect.block (s := S512x512) S64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S512x512.size a
  hwx0_7 : ∀ i : grid0.Coords, EltTy.bits .f32 = 32 ∨ (Rect.block (s := S512x512) S64x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S512x512.size a
  hwx0_8 : ∀ i : grid0.Coords, EltTy.bits .f32 = 32 ∨ (Rect.block (s := S512x512) S64x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S512x512.size a
  hwx0_9 : ∀ i : grid0.Coords, EltTy.bits .f32 = 32 ∨ (Rect.block (s := S512x512) S64x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x128.size a ≤ S8x512x512.size a
  hwx0_10 : ∀ i : grid0.Coords, EltTy.bits .f32 = 32 ∨ (Rect.block (s := S8x512x512) S1x128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128.size a ≤ S8x512x512.size a
  hwx0_11 : ∀ i : grid0.Coords, EltTy.bits .f32 = 32 ∨ (Rect.block (s := S8x512x512) S1x128x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x128.size a ≤ S8x512x512.size a
  hwx0_12 : ∀ i : grid0.Coords, EltTy.bits .f32 = 32 ∨ (Rect.block (s := S8x512x512) S1x128x128.size (cc0_transform_12 i) (hinb0_12 i)).WholeWords (EltTy.packing .f32)

variable [Facts₀]

abbrev win0_0 : Pipeline.Window sig grid0 :=
  Pipeline.Window.ofSpec (Memref.whole main_arg0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S64x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S64x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_3) S64x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_4) S64x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_5) S64x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_6) S1x128x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_7) S1x128x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_8) S1x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S512x512x512 : Shape := ⟨3, ![512, 512, 512]⟩
abbrev S512x1 : Shape := ⟨2, ![512, 1]⟩
abbrev S512 : Shape := ⟨1, ![512]⟩
abbrev S_ : Shape := ⟨0, ![]⟩
abbrev S1x512x1 : Shape := ⟨3, ![1, 512, 1]⟩
abbrev S1x1x512 : Shape := ⟨3, ![1, 1, 512]⟩
abbrev S1x512x512 : Shape := ⟨3, ![1, 512, 512]⟩
abbrev S512x1x1 : Shape := ⟨3, ![512, 1, 1]⟩
abbrev S512x512x1 : Shape := ⟨3, ![512, 512, 1]⟩
abbrev S512x512 : Shape := ⟨2, ![512, 512]⟩
abbrev S512x1x512 : Shape := ⟨3, ![512, 1, 512]⟩

abbrev nBuf : Space → Nat
  | .hbm => 124
  | .vmem => 0
  | .smem => 0
  | _ => 0

abbrev bufTy : (tb : Table) → Fin (tcTables nBuf tb) → BufTy
  | .hbm, ⟨0, _⟩ => ⟨S512x512x512, .f32⟩
  | .hbm, ⟨1, _⟩ => ⟨S512x1, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .i1⟩
  | .hbm, ⟨7, _⟩ => ⟨S_, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1x512x1, .f32⟩
  | .hbm, ⟨13, _⟩ => ⟨S1x1x512, .f32⟩
  | .hbm, ⟨14, _⟩ => ⟨S1x512x512, .f32⟩
  | .hbm, ⟨15, _⟩ => ⟨S1x512x512, .f32⟩
  | .hbm, ⟨16, _⟩ => ⟨S1x512x512, .i1⟩
  | .hbm, ⟨17, _⟩ => ⟨S1x512x1, .f32⟩
  | .hbm, ⟨18, _⟩ => ⟨S512x1x1, .f32⟩
  | .hbm, ⟨19, _⟩ => ⟨S512x512x1, .f32⟩
  | .hbm, ⟨20, _⟩ => ⟨S512x512x1, .f32⟩
  | .hbm, ⟨21, _⟩ => ⟨S512x512x1, .i1⟩
  | .hbm, ⟨22, _⟩ => ⟨S_, .i1⟩
  | .hbm, ⟨23, _⟩ => ⟨S1x512x512, .i1⟩
  | .hbm, ⟨24, _⟩ => ⟨S1x512x512, .i1⟩
  | .hbm, ⟨25, _⟩ => ⟨S1x512x512, .i1⟩
  | .hbm, ⟨26, _⟩ => ⟨S_, .i1⟩
  | .hbm, ⟨27, _⟩ => ⟨S512x512x1, .i1⟩
  | .hbm, ⟨28, _⟩ => ⟨S512x512x1, .i1⟩
  | .hbm, ⟨29, _⟩ => ⟨S512x512x1, .i1⟩
  | .hbm, ⟨30, _⟩ => ⟨S512x512x512, .i1⟩
  | .hbm, ⟨31, _⟩ => ⟨S512x512x512, .i1⟩
  | .hbm, ⟨32, _⟩ => ⟨S512x512x512, .i1⟩
  | .hbm, ⟨33, _⟩ => ⟨S512x512x512, .f32⟩
  | .hbm, ⟨34, _⟩ => ⟨S_, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x1x512, .f32⟩
  | .hbm, ⟨40, _⟩ => ⟨S512x512x512, .f32⟩
  | .hbm, ⟨41, _⟩ => ⟨S512x512x512, .f32⟩
  | .hbm, ⟨42, _⟩ => ⟨S512x512x512, .f32⟩
  | .hbm, ⟨43, _⟩ => ⟨S_, .f32⟩
  | .hbm, ⟨44, _⟩ => ⟨S512x512, .f32⟩
  | .hbm, ⟨45, _⟩ => ⟨S512x1x512, .f32⟩
  | .hbm, ⟨46, _⟩ => ⟨S512x1x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x512, .f32⟩
  | .hbm, ⟨55, _⟩ => ⟨S_, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S_, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512x1, .f32⟩
  | .hbm, ⟨68, _⟩ => ⟨S512x512x512, .f32⟩
  | .hbm, ⟨69, _⟩ => ⟨S512x512x512, .f32⟩
  | .hbm, ⟨70, _⟩ => ⟨S512x512x512, .f32⟩
  | .hbm, ⟨71, _⟩ => ⟨S_, .f32⟩
  | .hbm, ⟨72, _⟩ => ⟨S512x512, .f32⟩
  | .hbm, ⟨73, _⟩ => ⟨S512x512x1, .f32⟩
  | .hbm, ⟨74, _⟩ => ⟨S512x512x1, .f32⟩
  | .hbm, ⟨75, _⟩ => ⟨S512x512x512, .f32⟩
  | .hbm, ⟨76, _⟩ => ⟨S512x512x512, .f32⟩
  | .hbm, ⟨77, _⟩ => ⟨S512x512x512, .f32⟩
  | .hbm, ⟨78, _⟩ => ⟨S_, .f32⟩
  | .hbm, ⟨79, _⟩ => ⟨S512x512, .f32⟩
  | .hbm, ⟨80, _⟩ => ⟨S512x512, .f32⟩
  | .hbm, ⟨81, _⟩ => ⟨S_, .f32⟩
  | .hbm, ⟨82, _⟩ => ⟨S512x512, .f32⟩
  | .hbm, ⟨83, _⟩ => ⟨S_, .f32⟩
  | .hbm, ⟨84, _⟩ => ⟨S512x512, .f32⟩
  | .hbm, ⟨85, _⟩ => ⟨S512x512, .f32⟩
  | .hbm, ⟨86, _⟩ => ⟨S512x512, .f32⟩
  | .hbm, ⟨87, _⟩ => ⟨S_, .f32⟩
  | .hbm, ⟨88, _⟩ => ⟨S512x512, .f32⟩
  | .hbm, ⟨89, _⟩ => ⟨S512x512, .f32⟩
  | .hbm, ⟨90, _⟩ => ⟨S512x512, .f32⟩
  | .hbm, ⟨91, _⟩ => ⟨S_, .f32⟩
  | .hbm, ⟨92, _⟩ => ⟨S512x512, .f32⟩
  | .hbm, ⟨93, _⟩ => ⟨S_, .f32⟩
  | .hbm, ⟨94, _⟩ => ⟨S512x512, .f32⟩
  | .hbm, ⟨95, _⟩ => ⟨S512x512, .f32⟩
  | .hbm, ⟨96, _⟩ => ⟨S1x512x512, .f32⟩
  | .hbm, ⟨97, _⟩ => ⟨S512x512x512, .f32⟩
  | .hbm, ⟨98, _⟩ => ⟨S512x512x512, .f32⟩
  | .hbm, ⟨99, _⟩ => ⟨S512x512x512, .f32⟩
  | .hbm, ⟨100, _⟩ => ⟨S_, .f32⟩
  | .hbm, ⟨101, _⟩ => ⟨S512x512, .f32⟩
  | .hbm, ⟨102, _⟩ => ⟨S1x512x512, .f32⟩
  | .hbm, ⟨103, _⟩ => ⟨S1x512x512, .f32⟩
  | .hbm, ⟨104, _⟩ => ⟨S512x512x512, .f32⟩
  | .hbm, ⟨105, _⟩ => ⟨S512x512x512, .f32⟩
  | .hbm, ⟨106, _⟩ => ⟨S512x512x512, .f32⟩
  | .hbm, ⟨107, _⟩ => ⟨S_, .f32⟩
  | .hbm, ⟨108, _⟩ => ⟨S512x512, .f32⟩
  | .hbm, ⟨109, _⟩ => ⟨S512x512, .f32⟩
  | .hbm, ⟨110, _⟩ => ⟨S_, .f32⟩
  | .hbm, ⟨111, _⟩ => ⟨S512x512, .f32⟩
  | .hbm, ⟨112, _⟩ => ⟨S_, .f32⟩
  | .hbm, ⟨113, _⟩ => ⟨S512x512, .f32⟩
  | .hbm, ⟨114, _⟩ => ⟨S512x512, .f32⟩
  | .hbm, ⟨115, _⟩ => ⟨S512x512, .f32⟩
  | .hbm, ⟨116, _⟩ => ⟨S_, .f32⟩
  | .hbm, ⟨117, _⟩ => ⟨S512x512, .f32⟩
  | .hbm, ⟨118, _⟩ => ⟨S512x512, .f32⟩
  | .hbm, ⟨119, _⟩ => ⟨S512x512, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S512x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call2_cst : Ref sig .tc := ⟨.hbm, 34, rfl⟩
abbrev main_call2_v0 : Ref sig .tc := ⟨.hbm, 35, rfl⟩
abbrev main_call2_cst_0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_cst_1 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_call3_cst : Ref sig .tc := ⟨.hbm, 62, rfl⟩
abbrev main_call3_v0 : Ref sig .tc := ⟨.hbm, 63, rfl⟩
abbrev main_call3_cst_0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_cst_1 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_v35 : Ref sig .tc := ⟨.hbm, 76, rfl⟩
abbrev main_v36 : Ref sig .tc := ⟨.hbm, 77, rfl⟩
abbrev main_cst_7 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_v39 : Ref sig .tc := ⟨.hbm, 82, rfl⟩
abbrev main_cst_9 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_10 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_call4_cst : Ref sig .tc := ⟨.hbm, 91, rfl⟩
abbrev main_call4_v0 : Ref sig .tc := ⟨.hbm, 92, rfl⟩
abbrev main_call4_cst_0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_cst_1 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_v46 : Ref sig .tc := ⟨.hbm, 105, rfl⟩
abbrev main_v47 : Ref sig .tc := ⟨.hbm, 106, rfl⟩
abbrev main_cst_11 : Ref sig .tc := ⟨.hbm, 107, rfl⟩
abbrev main_v48 : Ref sig .tc := ⟨.hbm, 108, rfl⟩
abbrev main_v49 : Ref sig .tc := ⟨.hbm, 109, rfl⟩
abbrev main_cst_12 : Ref sig .tc := ⟨.hbm, 110, rfl⟩
abbrev main_v50 : Ref sig .tc := ⟨.hbm, 111, rfl⟩
abbrev main_cst_13 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_14 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_15 : Ref sig .tc := ⟨.hbm, 120, rfl⟩
abbrev main_v57 : Ref sig .tc := ⟨.hbm, 121, rfl⟩
abbrev main_cst_16 : Ref sig .tc := ⟨.hbm, 122, rfl⟩
abbrev main_v58 : Ref sig .tc := ⟨.hbm, 123, rfl⟩

abbrev nD : Nat := 1
abbrev τ : Topo := Topo.v7x

variable {F : FTy → Type} [FloatOps F]

class Facts₀ : Prop where
  shapeCasts_S512x1_S512 : S512x1.ShapeCasts S512
  bcast_S_S512 : S_.BroadcastsInDim S512 (![] : Fin 0 → Fin S512.rank)
  bcast_S512_S1x512x1_1 : S512.BroadcastsInDim S1x512x1 (![1] : Fin 1 → Fin S1x512x1.rank)
  bcast_S512_S1x1x512_2 : S512.BroadcastsInDim S1x1x512 (![2] : Fin 1 → Fin S1x1x512.rank)
  bcast_S1x512x1_S1x512x512_0_1_2 : S1x512x1.BroadcastsInDim S1x512x512 (![0, 1, 2] : Fin 3 → Fin S1x512x512.rank)
  bcast_S1x1x512_S1x512x512_0_1_2 : S1x1x512.BroadcastsInDim S1x512x512 (![0, 1, 2] : Fin 3 → Fin S1x512x512.rank)
  bcast_S512_S512x1x1_0 : S512.BroadcastsInDim S512x1x1 (![0] : Fin 1 → Fin S512x1x1.rank)
  bcast_S1x512x1_S512x512x1_0_1_2 : S1x512x1.BroadcastsInDim S512x512x1 (![0, 1, 2] : Fin 3 → Fin S512x512x1.rank)
  bcast_S512x1x1_S512x512x1_0_1_2 : S512x1x1.BroadcastsInDim S512x512x1 (![0, 1, 2] : Fin 3 → Fin S512x512x1.rank)
  bcast_S_S1x512x512 : S_.BroadcastsInDim S1x512x512 (![] : Fin 0 → Fin S1x512x512.rank)
  bcast_S_S512x512x1 : S_.BroadcastsInDim S512x512x1 (![] : Fin 0 → Fin S512x512x1.rank)
  bcast_S1x512x512_S512x512x512_0_1_2 : S1x512x512.BroadcastsInDim S512x512x512 (![0, 1, 2] : Fin 3 → Fin S512x512x512.rank)
  bcast_S512x512x1_S512x512x512_0_1_2 : S512x512x1.BroadcastsInDim S512x512x512 (![0, 1, 2] : Fin 3 → Fin S512x512x512.rank)
  reducesTo_S512x512x512_S512x512_d1 : S512x512x512.ReducesTo [1] S512x512
  h_S_ : 0 < S_.numel
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S512x1x512_S512x512x512_0_1_2 : S512x1x512.BroadcastsInDim S512x512x512 (![0, 1, 2] : Fin 3 → Fin S512x512x512.rank)
  reducesTo_S512x512x512_S512x512_d2 : S512x512x512.ReducesTo [2] S512x512
  bcast_S512x512_S512x512x1_0_1 : S512x512.BroadcastsInDim S512x512x1 (![0, 1] : Fin 2 → Fin S512x512x1.rank)
  reducesTo_S512x512x512_S512x512_d0 : S512x512x512.ReducesTo [0] S512x512
  bcast_S512x512_S1x512x512_1_2 : S512x512.BroadcastsInDim S1x512x512 (![1, 2] : Fin 2 → Fin S1x512x512.rank)
  reducesTo_S512x512_S_d0_1 : S512x512.ReducesTo [0, 1] S_

variable [Facts₀]

class Facts : Prop extends Facts₀ where

variable [Facts]
-- ==== Proof.K.Outs.lean ====
/-
  What one grid point's body leaves in each of the nine output blocks, as pure functions of the point's input blocks
  and of what the block held before the body ran.

  The grid is (i, j, k) = (8, 4, 4) over a [512, 512, 512] cube cut into [64, 128, 128] tiles. Per tile the body forms
  nine partial sums: of exp(x), of x and of a flag-weighted x, each along j, along k and along i.
  * the three sums along j live in a [64, 512] block kept for all sixteen (j, k) points of one i: the tile's [64, 128]
    partial sum is added into the 128 columns the coordinate k selects, the other columns are left as they were
    (`addCols`); the block is cleared at the first of the sixteen points;
  * the three sums along k live in a [64, 128] block kept for the four k points of one (i, j): the partial sum is added
    to the whole block, cleared when k = 0;
  * the three sums along i are stored whole into a [1, 128, 128] slab of their own at every point.
-/
import proofs.«124184_j88390426951927_2_alg».proof.Proof.Gen.Kernel.Launch
import proofs.«124184_j88390426951927_2_alg».proof.Proof.Gen.Kernel.Points
import proofs.«124184_j88390426951927_2_alg».proof.Proof.Gen.Kernel.Skeleton
import Idealize.ShloMosaic.Lib.Pipeline.Frame
import Idealize.ShloMosaic.Lib.Pipeline.FrameBody
import Idealize.ShloMosaic.Lib.WritesUnit
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "j = 0 and k = 0": the first of the sixteen points that share one i. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points that are multiples of 16 in row-major order. -/
theorem hcond0_0 : ∀ t : Fin cfg0.N, cond0_0 (grid0.coords t) ↔ t.val % 16 = 0 :=
  (by decide +kernel : ∀ t : Fin grid0.N, cond0_0 (grid0.coords t) ↔ t.val % 16 = 0)

/-- "k = 0": the first of the four points that share one (i, j). -/
abbrev cond0_1 (i : grid0.Coords) : Prop := (Scalar.cmpi .ne (Scalar.extui (Scalar.cmpi .eq (BitVec.ofNat 32 (i 2).val) 0#32)) 0#32) = 1#1
/-- It holds exactly at the multiples of 4. -/
theorem hcond0_1 : ∀ t : Fin cfg0.N, cond0_1 (grid0.coords t) ↔ t.val % 4 = 0 :=
  (by decide +kernel : ∀ t : Fin grid0.N, cond0_1 (grid0.coords t) ↔ t.val % 4 = 0)

/-! ## The columns a point adds into -/

/-- Columns [128 k, 128 k + 128) of a [64, 512] block, all 64 rows. -/
abbrev colRect (i : grid0.Coords) : Rect S64x512 := Rect.unit (s := S64x512) (k0_off1 i) S64x128.size (k0_off1_inb i)

/-- A single store through a rectangle replaces the block's values there and keeps the others. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext j
  by_cases hj : j ∈ r.set
  · obtain ⟨x, rfl⟩ := r.exists_idx_of_mem hj
    exact (View.read_writes_cons_emb v f r w [] x).trans (Rect.overlay_emb r (v.read Val f) w x).symm
  · rw [Rect.overlay_of_not_mem _ _ _ hj]
    exact View.read_writes_apply_of_forall_not_mem v f j [⟨r, w⟩] (fun p hp => by
      rw [List.mem_singleton] at hp; subst hp; exact hj)

/-- All-zero offsets, however they are spelt. -/
theorem hz2 : (![0, 0] : Fin 2 → ℕ) = fun _ => 0 := by funext a; fin_cases a <;> rfl
theorem hz3 : (![0, 0, 0] : Fin 3 → ℕ) = fun _ => 0 := by funext a; fin_cases a <;> rfl

/-- A store through the whole rectangle, last, leaves its payload whatever was stored before. -/
theorem read_store_whole {sig' : RefSig} {κ : Kind} {sp : Space} {S : Shape} {e : EltTy} {Val : EltTy → Type}
    (v : View sig' κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  subst hz; funext y
  have h := View.read_writes_cons_emb v f (Rect.whole S) w L y
  rw [Rect.emb_whole_apply] at h
  exact h

/-- A load through the whole rectangle reads the contents. -/
theorem readAt_whole {sig' : RefSig} {κ : Kind} {sp : Space} {S : Shape} {e : EltTy} {Val : EltTy → Type}
    (v : View sig' κ sp S e) {off : Fin S.rank → ℕ} (hz : off = fun _ => 0)
    (inb : ∀ a, off a + S.size a ≤ S.size a) (g : v.ty.Contents Val) :
    v.readAt Val (Rect.unit off S.size inb).toLoadRect g = v.read Val g := by
  rw [View.readAt_eq_ld]; exact View.ld_unit_zero hz inb _

/-- A load through the whole rectangle of a whole buffer that reads `X` is `X`. -/
theorem readAt_whole_unread {sig' : RefSig} {κ : Kind} {sp : Space} {S : Shape} {e : EltTy} {Val : EltTy → Type}
    (m : Memref sig' κ sp S e) (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread]; exact View.ld_unit_zero hz inb X

/-- The block `p` with `pay (the block's columns at k)` stored over those columns. -/
def addCols (i : grid0.Coords) (pay : Vec F S64x128 .f32 → FVec F S64x128 .f32) (p : Vec F S64x512 .f32) : Vec F S64x512 .f32 :=
  (colRect i).overlay p (pay (View.ld p (colRect i)))

/-- Reading the columns at k, transforming them and storing them back over a buffer that reads `p` leaves `addCols`. -/
theorem read_addCols {sig' : RefSig} {κ : Kind} {sp : Space} (m : Memref sig' κ sp S64x512 .f32) (h : m.IsWhole) (i : grid0.Coords)
    (pay : Vec F S64x128 .f32 → FVec F S64x128 .f32) (p : Vec F S64x512 .f32) :
    m.view.read (Elt F) (m.view.writes (Elt F) (h.unread p)
      [⟨colRect i, pay (m.view.readAt (Elt F) (colRect i).toLoadRect (h.unread p))⟩]) = addCols i pay p := by
  rw [read_writes_single, View.readAt_eq_ld, h.read_unread]; rfl

/-- The same after earlier stores `L`: the columns at k of what those left, transformed and stored back. -/
theorem read_addCols_cons {sig' : RefSig} {κ : Kind} {sp : Space} (v : View sig' κ sp S64x512 .f32) (f : v.ty.Contents (Elt F))
    (i : grid0.Coords) (pay : Vec F S64x128 .f32 → FVec F S64x128 .f32) (L : List (View.Piece (Elt F) S64x512 .f32)) :
    v.read (Elt F) (v.writes (Elt F) f
      (⟨colRect i, pay (v.readAt (Elt F) (colRect i).toLoadRect (v.writes (Elt F) f L))⟩ :: L))
      = addCols i pay (v.read (Elt F) (v.writes (Elt F) f L)) := by
  show v.read (Elt F) (v.writes (Elt F) (v.writes (Elt F) f L) [⟨colRect i, _⟩]) = _
  rw [read_writes_single, View.readAt_eq_ld]; rfl

/-- Reading a whole [64, 128] block, transforming it and storing it back whole leaves the transformed block. -/
theorem read_addWhole {sig' : RefSig} {κ : Kind} {sp : Space} (m : Memref sig' κ sp S64x128 .f32) (h : m.IsWhole)
    (pay : Vec F S64x128 .f32 → FVec F S64x128 .f32) (p : Vec F S64x128 .f32) :
    m.view.read (Elt F) (m.view.writes (Elt F) (h.unread p)
      [⟨Rect.unit (s := S64x128) ![0, 0] S64x128.size inb_S64x128_S64x128_0_0,
        pay (m.view.readAt (Elt F) (Rect.unit (s := S64x128) ![0, 0] S64x128.size inb_S64x128_S64x128_0_0).toLoadRect (h.unread p))⟩]) = pay p := by
  rw [read_store_whole _ _ hz2, readAt_whole_unread m h hz2]

/-! ## What the body leaves, output by output -/

/-- Σ_j exp x, Σ_j x, Σ_j s_j x added into the columns at k. -/
def o4 (i : grid0.Coords) (x0 : Vec F S64x128x128 .f32) (p : Vec F S64x512 .f32) : Vec F S64x512 .f32 :=
  addCols i (k0_pay17 (k0_pay5 x0)) p
def o5 (i : grid0.Coords) (x0 : Vec F S64x128x128 .f32) (p : Vec F S64x512 .f32) : Vec F S64x512 .f32 :=
  addCols i (k0_pay18 (k0_pay8 x0)) p
def o6 (i : grid0.Coords) (x0 : Vec F S64x128x128 .f32) (x2 : Vec F S1x128x1 .f32) (p : Vec F S64x512 .f32) : Vec F S64x512 .f32 :=
  addCols i (k0_pay19 (k0_pay11 x0 x2)) p
/-- Σ_k exp x, Σ_k x, Σ_k s_k x added to the whole [64, 128] block. -/
def o7 (x0 : Vec F S64x128x128 .f32) (p : Vec F S64x128 .f32) : Vec F S64x128 .f32 := k0_pay23 (k0_pay6 x0) p
def o8 (x0 : Vec F S64x128x128 .f32) (p : Vec F S64x128 .f32) : Vec F S64x128 .f32 := k0_pay24 (k0_pay9 x0) p
def o9 (x0 : Vec F S64x128x128 .f32) (x3 : Vec F S1x1x128 .f32) (p : Vec F S64x128 .f32) : Vec F S64x128 .f32 :=
  k0_pay25 (k0_pay12 x0 x3) p
/-- Σ_i exp x, Σ_i x, Σ_i s_i x over the tile's 64 rows, as a [1, 128, 128] slab. -/
def o10 (x0 : Vec F S64x128x128 .f32) : Vec F S1x128x128 .f32 := k0_pay1 (k0_pay7 x0)
def o11 (x0 : Vec F S64x128x128 .f32) : Vec F S1x128x128 .f32 := k0_pay2 (k0_pay10 x0)
def o12 (x0 : Vec F S64x128x128 .f32) (x1 : Vec F S64x1x1 .f32) : Vec F S1x128x128 .f32 := k0_pay3 (k0_pay13 x0 x1)

/-! ## The staging memrefs at a point -/

abbrev ms0_0 (t : Fin cfg0.N) : Memref sig .tc .vmem S64x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x128 .f32 := win0_12.stage (cfg0.slots t 12)
abbrev hs0_12 (t : Fin cfg0.N) : (ms0_12 t).IsWhole := hstage0_12 ((cfg0.slots t 12).cast nbuf0_12)

end Cert.Kernel.Body

end
-- ==== Proof.K.RunA.lean ====
/-
  The body at the first of the sixteen points that share one i (j = 0 and k = 0): all six accumulator blocks are cleared
  before they are added to, so nothing of what they held before matters.
-/
import proofs.«124184_j88390426951927_2_alg».proof.Proof.K.Outs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Whatever the six accumulator blocks held, the body leaves `o4 … o9` of the cleared blocks, and `o10 … o12`. -/
theorem run_A (c : Dev nD) (i : grid0.Coords) (arg3 : Memref sig .tc .vmem S64x128x128 .f32) (harg3 : arg3.IsWhole) (arg4 : Memref sig .tc .vmem S64x1x1 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (hc0 : cond0_0 i) (hc1 : cond0_1 i)
    (x0 : Vec F S64x128x128 .f32) (x1 : Vec F S64x1x1 .f32) (x2 : Vec F S1x128x1 .f32) (x3 : Vec F S1x1x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o4 i x0 k0_pay14) ∗ owns (c : Thread nD τ) arg8 fullShare (o5 i x0 k0_pay15) ∗ owns (c : Thread nD τ) arg9 fullShare (o6 i x0 x2 k0_pay16) ∗ owns (c : Thread nD τ) arg10 fullShare (o7 x0 k0_pay20) ∗ owns (c : Thread nD τ) arg11 fullShare (o8 x0 k0_pay21) ∗ owns (c : Thread nD τ) arg12 fullShare (o9 x0 x3 k0_pay22) ∗ owns (c : Thread nD τ) arg13 fullShare (o10 x0) ∗ owns (c : Thread nD τ) arg14 fullShare (o11 x0) ∗ owns (c : Thread nD τ) arg15 fullShare (o12 x0 x1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [readAt_whole_unread arg3 harg3 hz3]
      refine (read_addCols_cons arg7.view _ i (k0_pay17 (k0_pay5 x0)) _).trans ?_
      rw [read_store_whole _ _ hz2]; rfl
    isplitl [H5]
    · iexists _; isplitr; swap; · iexact H5
      ipureintro
      sl_unfold_run_names
      rw [readAt_whole_unread arg3 harg3 hz3]
      refine (read_addCols_cons arg8.view _ i (k0_pay18 (k0_pay8 x0)) _).trans ?_
      rw [read_store_whole _ _ hz2]; rfl
    isplitl [H6]
    · iexists _; isplitr; swap; · iexact H6
      ipureintro
      sl_unfold_run_names
      rw [readAt_whole_unread arg3 harg3 hz3, readAt_whole_unread arg5 harg5 hz3]
      refine (read_addCols_cons arg9.view _ i (k0_pay19 (k0_pay11 x0 x2)) _).trans ?_
      rw [read_store_whole _ _ hz2]; rfl
    isplitl [H7]
    · iexists _; isplitr; swap; · iexact H7
      ipureintro
      sl_unfold_run_names
      rw [readAt_whole_unread arg3 harg3 hz3]
      refine (read_store_whole _ _ hz2 _ _ _).trans ?_
      rw [View.readCov_unit_zero (S := S64x128) _ hz2]; rfl
    isplitl [H8]
    · iexists _; isplitr; swap; · iexact H8
      ipureintro
      sl_unfold_run_names
      rw [readAt_whole_unread arg3 harg3 hz3]
      refine (read_store_whole _ _ hz2 _ _ _).trans ?_
      rw [View.readCov_unit_zero (S := S64x128) _ hz2]; rfl
    isplitl [H9]
    · iexists _; isplitr; swap; · iexact H9
      ipureintro
      sl_unfold_run_names
      rw [readAt_whole_unread arg3 harg3 hz3, readAt_whole_unread arg6 harg6 hz3]
      refine (read_store_whole _ _ hz2 _ _ _).trans ?_
      rw [View.readCov_unit_zero (S := S64x128) _ hz2]; rfl
    isplitl [H10]
    · iexists _; isplitr; swap; · iexact H10
      ipureintro
      sl_unfold_run_names
      rw [readAt_whole_unread arg3 harg3 hz3]
      exact read_store_whole (S := S1x128x128) _ _ hz3 _ _ []
    isplitl [H11]
    · iexists _; isplitr; swap; · iexact H11
      ipureintro
      sl_unfold_run_names
      rw [readAt_whole_unread arg3 harg3 hz3]
      exact read_store_whole (S := S1x128x128) _ _ hz3 _ _ []
    iexists _; isplitr; swap; · iexact H12
    ipureintro
    sl_unfold_run_names
    rw [readAt_whole_unread arg3 harg3 hz3, readAt_whole_unread arg4 harg4 hz3]
    exact read_store_whole (S := S1x128x128) _ _ hz3 _ _ []

end Cert.Kernel.Body

end
-- ==== Proof.K.RunB.lean ====
/-
  The body at a point with k ≠ 0 (neither clearing branch taken): every accumulator block is read and added to.
  Twelve of every sixteen points.
-/
import proofs.«124184_j88390426951927_2_alg».proof.Proof.K.Outs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three [64, 512] blocks at `p4 p5 p6` and the three [64, 128] blocks at `p7 p8 p9`, the body leaves
    `o4 … o12` of them and of the tile's inputs; the inputs' buffers are left as found. -/
theorem run_B (c : Dev nD) (i : grid0.Coords) (arg3 : Memref sig .tc .vmem S64x128x128 .f32) (harg3 : arg3.IsWhole) (arg4 : Memref sig .tc .vmem S64x1x1 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (hc0 : ¬cond0_0 i) (hc1 : ¬cond0_1 i)
    (x0 : Vec F S64x128x128 .f32) (x1 : Vec F S64x1x1 .f32) (x2 : Vec F S1x128x1 .f32) (x3 : Vec F S1x1x128 .f32) (p4 p5 p6 : Vec F S64x512 .f32) (p7 p8 p9 : Vec F S64x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare p4 ∗ owns (c : Thread nD τ) arg8 fullShare p5 ∗ owns (c : Thread nD τ) arg9 fullShare p6 ∗ owns (c : Thread nD τ) arg10 fullShare p7 ∗ owns (c : Thread nD τ) arg11 fullShare p8 ∗ owns (c : Thread nD τ) arg12 fullShare p9 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o4 i x0 p4) ∗ owns (c : Thread nD τ) arg8 fullShare (o5 i x0 p5) ∗ owns (c : Thread nD τ) arg9 fullShare (o6 i x0 x2 p6) ∗ owns (c : Thread nD τ) arg10 fullShare (o7 x0 p7) ∗ owns (c : Thread nD τ) arg11 fullShare (o8 x0 p8) ∗ owns (c : Thread nD τ) arg12 fullShare (o9 x0 x3 p9) ∗ owns (c : Thread nD τ) arg13 fullShare (o10 x0) ∗ owns (c : Thread nD τ) arg14 fullShare (o11 x0) ∗ owns (c : Thread nD τ) arg15 fullShare (o12 x0 x1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg10.eq_unread hf7; obtain rfl := harg11.eq_unread hf8; obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [readAt_whole_unread arg3 harg3 hz3]
      exact read_addCols arg7 harg7 i _ p4
    isplitl [H5]
    · iexists _; isplitr; swap; · iexact H5
      ipureintro
      sl_unfold_run_names
      rw [readAt_whole_unread arg3 harg3 hz3]
      exact read_addCols arg8 harg8 i _ p5
    isplitl [H6]
    · iexists _; isplitr; swap; · iexact H6
      ipureintro
      sl_unfold_run_names
      rw [readAt_whole_unread arg3 harg3 hz3, readAt_whole_unread arg5 harg5 hz3]
      exact read_addCols arg9 harg9 i _ p6
    isplitl [H7]
    · iexists _; isplitr; swap; · iexact H7
      ipureintro
      sl_unfold_run_names
      rw [readAt_whole_unread arg3 harg3 hz3]
      exact read_addWhole arg10 harg10 _ p7
    isplitl [H8]
    · iexists _; isplitr; swap; · iexact H8
      ipureintro
      sl_unfold_run_names
      rw [readAt_whole_unread arg3 harg3 hz3]
      exact read_addWhole arg11 harg11 _ p8
    isplitl [H9]
    · iexists _; isplitr; swap; · iexact H9
      ipureintro
      sl_unfold_run_names
      rw [readAt_whole_unread arg3 harg3 hz3, readAt_whole_unread arg6 harg6 hz3]
      exact read_addWhole arg12 harg12 _ p9
    isplitl [H10]
    · iexists _; isplitr; swap; · iexact H10
      ipureintro
      sl_unfold_run_names
      rw [readAt_whole_unread arg3 harg3 hz3]
      exact read_store_whole (S := S1x128x128) _ _ hz3 _ _ []
    isplitl [H11]
    · iexists _; isplitr; swap; · iexact H11
      ipureintro
      sl_unfold_run_names
      rw [readAt_whole_unread arg3 harg3 hz3]
      exact read_store_whole (S := S1x128x128) _ _ hz3 _ _ []
    iexists _; isplitr; swap; · iexact H12
    ipureintro
    sl_unfold_run_names
    rw [readAt_whole_unread arg3 harg3 hz3, readAt_whole_unread arg4 harg4 hz3]
    exact read_store_whole (S := S1x128x128) _ _ hz3 _ _ []

end Cert.Kernel.Body

end
-- ==== Proof.K.RunC.lean ====
/-
  The body at a point with k = 0 and j ≠ 0: the three [64, 128] blocks of the sums along k are cleared before they are
  added to, the three [64, 512] blocks of the sums along j are read and added to.
-/
import proofs.«124184_j88390426951927_2_alg».proof.Proof.K.Outs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three [64, 512] blocks at `p4 p5 p6`, the body leaves `o4 … o6` of them, `o7 … o9` of cleared blocks, and
    `o10 … o12`. -/
theorem run_C (c : Dev nD) (i : grid0.Coords) (arg3 : Memref sig .tc .vmem S64x128x128 .f32) (harg3 : arg3.IsWhole) (arg4 : Memref sig .tc .vmem S64x1x1 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (hc0 : ¬cond0_0 i) (hc1 : cond0_1 i)
    (x0 : Vec F S64x128x128 .f32) (x1 : Vec F S64x1x1 .f32) (x2 : Vec F S1x128x1 .f32) (x3 : Vec F S1x1x128 .f32) (p4 p5 p6 : Vec F S64x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare p4 ∗ owns (c : Thread nD τ) arg8 fullShare p5 ∗ owns (c : Thread nD τ) arg9 fullShare p6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o4 i x0 p4) ∗ owns (c : Thread nD τ) arg8 fullShare (o5 i x0 p5) ∗ owns (c : Thread nD τ) arg9 fullShare (o6 i x0 x2 p6) ∗ owns (c : Thread nD τ) arg10 fullShare (o7 x0 k0_pay20) ∗ owns (c : Thread nD τ) arg11 fullShare (o8 x0 k0_pay21) ∗ owns (c : Thread nD τ) arg12 fullShare (o9 x0 x3 k0_pay22) ∗ owns (c : Thread nD τ) arg13 fullShare (o10 x0) ∗ owns (c : Thread nD τ) arg14 fullShare (o11 x0) ∗ owns (c : Thread nD τ) arg15 fullShare (o12 x0 x1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [readAt_whole_unread arg3 harg3 hz3]
      exact read_addCols arg7 harg7 i _ p4
    isplitl [H5]
    · iexists _; isplitr; swap; · iexact H5
      ipureintro
      sl_unfold_run_names
      rw [readAt_whole_unread arg3 harg3 hz3]
      exact read_addCols arg8 harg8 i _ p5
    isplitl [H6]
    · iexists _; isplitr; swap; · iexact H6
      ipureintro
      sl_unfold_run_names
      rw [readAt_whole_unread arg3 harg3 hz3, readAt_whole_unread arg5 harg5 hz3]
      exact read_addCols arg9 harg9 i _ p6
    isplitl [H7]
    · iexists _; isplitr; swap; · iexact H7
      ipureintro
      sl_unfold_run_names
      rw [readAt_whole_unread arg3 harg3 hz3]
      refine (read_store_whole _ _ hz2 _ _ _).trans ?_
      rw [View.readCov_unit_zero (S := S64x128) _ hz2]; rfl
    isplitl [H8]
    · iexists _; isplitr; swap; · iexact H8
      ipureintro
      sl_unfold_run_names
      rw [readAt_whole_unread arg3 harg3 hz3]
      refine (read_store_whole _ _ hz2 _ _ _).trans ?_
      rw [View.readCov_unit_zero (S := S64x128) _ hz2]; rfl
    isplitl [H9]
    · iexists _; isplitr; swap; · iexact H9
      ipureintro
      sl_unfold_run_names
      rw [readAt_whole_unread arg3 harg3 hz3, readAt_whole_unread arg6 harg6 hz3]
      refine (read_store_whole _ _ hz2 _ _ _).trans ?_
      rw [View.readCov_unit_zero (S := S64x128) _ hz2]; rfl
    isplitl [H10]
    · iexists _; isplitr; swap; · iexact H10
      ipureintro
      sl_unfold_run_names
      rw [readAt_whole_unread arg3 harg3 hz3]
      exact read_store_whole (S := S1x128x128) _ _ hz3 _ _ []
    isplitl [H11]
    · iexists _; isplitr; swap; · iexact H11
      ipureintro
      sl_unfold_run_names
      rw [readAt_whole_unread arg3 harg3 hz3]
      exact read_store_whole (S := S1x128x128) _ _ hz3 _ _ []
    iexists _; isplitr; swap; · iexact H12
    ipureintro
    sl_unfold_run_names
    rw [readAt_whole_unread arg3 harg3 hz3, readAt_whole_unread arg4 harg4 hz3]
    exact read_store_whole (S := S1x128x128) _ _ hz3 _ _ []

end Cert.Kernel.Body

end
-- ==== Proof.K.Data.lean ====
/-
  The proof data of the one pipelined region and its run.

  After the body at grid point t (row-major over (i, j, k) = (8, 4, 4)):
  * each input's buffer still holds the input's block at t;
  * the three [64, 512] blocks hold the sums along j accumulated since the last multiple of 16 (the first point of the
    current i): `acc4 acc5 acc6`, each a recursion over the points that restarts from the cleared block;
  * the three [64, 128] blocks hold the sums along k accumulated since the last multiple of 4: `acc7 acc8 acc9`;
  * the three [1, 128, 128] slabs hold the tile's sums along i.
  A block is written back exactly at the last point before its recursion restarts, so between two restarts the body
  finds in the block what it left there at the point before.
-/
import proofs.«124184_j88390426951927_2_alg».proof.Proof.K.FrameKit
import proofs.«124184_j88390426951927_2_alg».proof.Proof.K.RunA
import proofs.«124184_j88390426951927_2_alg».proof.Proof.K.RunB
import proofs.«124184_j88390426951927_2_alg».proof.Proof.K.RunC
import Idealize.ShloMosaic.Lib.Pipeline.FrameSuffix

set_option maxRecDepth 16384

noncomputable section

namespace Cert.Kernel.Body

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A running value that restarts every `P` points -/

/-- `step` applied point after point to the value the point before left, restarting from `z` at every multiple of `P`. -/
def accRec {α : Type} (P : ℕ) (z : α) (step : (n : ℕ) → n < cfg0.N → α → α) : (n : ℕ) → n < cfg0.N → α
  | 0, hn => step 0 hn z
  | n + 1, hn => step (n + 1) hn (if (n + 1) % P = 0 then z else accRec P z step n (Nat.lt_of_succ_lt hn))

theorem accRec_restart {α : Type} (P : ℕ) (z : α) (step : (n : ℕ) → n < cfg0.N → α → α) (t : Fin cfg0.N)
    (h : t.val % P = 0) : accRec P z step t.val t.isLt = step t.val t.isLt z := by
  obtain ⟨n, hn⟩ := t
  cases n with
  | zero => rw [accRec]
  | succ n => rw [accRec, if_pos h]

theorem accRec_next {α : Type} (P : ℕ) (z : α) (step : (n : ℕ) → n < cfg0.N → α → α) (t : Fin cfg0.N)
    (h : ¬t.val % P = 0) :
    accRec P z step t.val t.isLt
      = step t.val t.isLt (accRec P z step (t.val - 1) (Nat.lt_of_le_of_lt (Nat.sub_le _ _) t.isLt)) := by
  obtain ⟨n, hn⟩ := t
  cases n with
  | zero => exact absurd (Nat.zero_mod _) h
  | succ n => rw [accRec, if_neg h]; rfl

/-! ## The six accumulators -/

def acc4 (c : Dev nD) : (n : ℕ) → n < cfg0.N → Vec F S64x512 .f32 :=
  accRec 16 k0_pay14 fun n hn p => o4 (grid0.coords ⟨n, hn⟩) (iblk m c 0 ⟨n, hn⟩) p
def acc5 (c : Dev nD) : (n : ℕ) → n < cfg0.N → Vec F S64x512 .f32 :=
  accRec 16 k0_pay15 fun n hn p => o5 (grid0.coords ⟨n, hn⟩) (iblk m c 0 ⟨n, hn⟩) p
def acc6 (c : Dev nD) : (n : ℕ) → n < cfg0.N → Vec F S64x512 .f32 :=
  accRec 16 k0_pay16 fun n hn p => o6 (grid0.coords ⟨n, hn⟩) (iblk m c 0 ⟨n, hn⟩) (iblk m c 2 ⟨n, hn⟩) p
def acc7 (c : Dev nD) : (n : ℕ) → n < cfg0.N → Vec F S64x128 .f32 :=
  accRec 4 k0_pay20 fun n hn p => o7 (iblk m c 0 ⟨n, hn⟩) p
def acc8 (c : Dev nD) : (n : ℕ) → n < cfg0.N → Vec F S64x128 .f32 :=
  accRec 4 k0_pay21 fun n hn p => o8 (iblk m c 0 ⟨n, hn⟩) p
def acc9 (c : Dev nD) : (n : ℕ) → n < cfg0.N → Vec F S64x128 .f32 :=
  accRec 4 k0_pay22 fun n hn p => o9 (iblk m c 0 ⟨n, hn⟩) (iblk m c 3 ⟨n, hn⟩) p

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc4 m c t.val t.isLt
    | ⟨5, _⟩ => acc5 m c t.val t.isLt
    | ⟨6, _⟩ => acc6 m c t.val t.isLt
    | ⟨7, _⟩ => acc7 m c t.val t.isLt
    | ⟨8, _⟩ => acc8 m c t.val t.isLt
    | ⟨9, _⟩ => acc9 m c t.val t.isLt
    | ⟨10, _⟩ => o10 (iblk m c 0 t)
    | ⟨11, _⟩ => o11 (iblk m c 0 t)
    | ⟨12, _⟩ => o12 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc4 m c t.val t.isLt := by dsimp only [dats]
theorem after0_5 (c : Dev nD) (t : Fin cfg0.N) : (dats m 0 c).after 5 t = acc5 m c t.val t.isLt := by dsimp only [dats]
theorem after0_6 (c : Dev nD) (t : Fin cfg0.N) : (dats m 0 c).after 6 t = acc6 m c t.val t.isLt := by dsimp only [dats]
theorem after0_7 (c : Dev nD) (t : Fin cfg0.N) : (dats m 0 c).after 7 t = acc7 m c t.val t.isLt := by dsimp only [dats]
theorem after0_8 (c : Dev nD) (t : Fin cfg0.N) : (dats m 0 c).after 8 t = acc8 m c t.val t.isLt := by dsimp only [dats]
theorem after0_9 (c : Dev nD) (t : Fin cfg0.N) : (dats m 0 c).after 9 t = acc9 m c t.val t.isLt := by dsimp only [dats]
theorem after0_10 (c : Dev nD) (t : Fin cfg0.N) : (dats m 0 c).after 10 t = o10 (iblk m c 0 t) := by dsimp only [dats]
theorem after0_11 (c : Dev nD) (t : Fin cfg0.N) : (dats m 0 c).after 11 t = o11 (iblk m c 0 t) := by dsimp only [dats]
theorem after0_12 (c : Dev nD) (t : Fin cfg0.N) : (dats m 0 c).after 12 t = o12 (iblk m c 0 t) (iblk m c 1 t) := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Between two restarts an accumulator's buffer holds what the body left at the point before: the point is not the
    first, and the block was not written back in between. -/
theorem before0_4_kept (c : Dev nD) (t : Fin cfg0.N) (h : ¬t.val % 16 = 0) (d) :
    (dats m 0 c).before 4 t d = acc4 m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun hf => by have := (flush0_4 _).mp hf; dsimp only at this; omega)
    (fun _ => rfl) (fun _ _ => rfl)]
  dsimp only [dats]
theorem before0_5_kept (c : Dev nD) (t : Fin cfg0.N) (h : ¬t.val % 16 = 0) (d) :
    (dats m 0 c).before 5 t d = acc5 m c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun hf => by have := (flush0_5 _).mp hf; dsimp only at this; omega)
    (fun _ => rfl) (fun _ _ => rfl)]
  dsimp only [dats]
theorem before0_6_kept (c : Dev nD) (t : Fin cfg0.N) (h : ¬t.val % 16 = 0) (d) :
    (dats m 0 c).before 6 t d = acc6 m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun hf => by have := (flush0_6 _).mp hf; dsimp only at this; omega)
    (fun _ => rfl) (fun _ _ => rfl)]
  dsimp only [dats]
theorem before0_7_kept (c : Dev nD) (t : Fin cfg0.N) (h : ¬t.val % 4 = 0) (d) :
    (dats m 0 c).before 7 t d = acc7 m c (t.val - 1) (Nat.lt_of_le_of_lt (Nat.sub_le _ _) t.isLt) := by
  have hN : t.val < 128 := lt_of_lt_of_eq t.isLt (show cfg0.N = 128 from N_0)
  rw [Dat.before_out_kept _ 7 rfl t (by omega) (Bool.eq_false_iff.mpr fun hf => by have := (flush0_7 _).mp hf; dsimp only at this; omega)
    (fun _ => rfl) (fun _ _ => rfl)]
  dsimp only [dats]
theorem before0_8_kept (c : Dev nD) (t : Fin cfg0.N) (h : ¬t.val % 4 = 0) (d) :
    (dats m 0 c).before 8 t d = acc8 m c (t.val - 1) (Nat.lt_of_le_of_lt (Nat.sub_le _ _) t.isLt) := by
  have hN : t.val < 128 := lt_of_lt_of_eq t.isLt (show cfg0.N = 128 from N_0)
  rw [Dat.before_out_kept _ 8 rfl t (by omega) (Bool.eq_false_iff.mpr fun hf => by have := (flush0_8 _).mp hf; dsimp only at this; omega)
    (fun _ => rfl) (fun _ _ => rfl)]
  dsimp only [dats]
theorem before0_9_kept (c : Dev nD) (t : Fin cfg0.N) (h : ¬t.val % 4 = 0) (d) :
    (dats m 0 c).before 9 t d = acc9 m c (t.val - 1) (Nat.lt_of_le_of_lt (Nat.sub_le _ _) t.isLt) := by
  have hN : t.val < 128 := lt_of_lt_of_eq t.isLt (show cfg0.N = 128 from N_0)
  rw [Dat.before_out_kept _ 9 rfl t (by omega) (Bool.eq_false_iff.mpr fun hf => by have := (flush0_9 _).mp hf; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
/-- The body at any point: which of the three cases it is in is read off the point's number; an accumulator the case
    does not clear holds what the point before left; the invariant and the core's duties pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  have hN : t.val < 128 := lt_of_lt_of_eq t.isLt (show cfg0.N = 128 from N_0)
  by_cases h0 : t.val % 16 = 0
  · have h1 : t.val % 4 = 0 := by omega
    rw [show acc4 m c t.val t.isLt = _ from accRec_restart 16 _ _ t h0, show acc5 m c t.val t.isLt = _ from accRec_restart 16 _ _ t h0,
      show acc6 m c t.val t.isLt = _ from accRec_restart 16 _ _ t h0, show acc7 m c t.val t.isLt = _ from accRec_restart 4 _ _ t h1,
      show acc8 m c t.val t.isLt = _ from accRec_restart 4 _ _ t h1, show acc9 m c t.val t.isLt = _ from accRec_restart 4 _ _ t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_A c (grid0.coords t) _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h1 : t.val % 4 = 0
    · rw [show acc4 m c t.val t.isLt = _ from accRec_next 16 _ _ t h0, show acc5 m c t.val t.isLt = _ from accRec_next 16 _ _ t h0,
        show acc6 m c t.val t.isLt = _ from accRec_next 16 _ _ t h0, show acc7 m c t.val t.isLt = _ from accRec_restart 4 _ _ t h1,
        show acc8 m c t.val t.isLt = _ from accRec_restart 4 _ _ t h1, show acc9 m c t.val t.isLt = _ from accRec_restart 4 _ _ t h1]
      simp only [before0_4_kept m c t h0, before0_5_kept m c t h0, before0_6_kept m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((run_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (acc4 m c (t.val - 1) (Nat.lt_of_le_of_lt (Nat.sub_le _ _) t.isLt)) (acc5 m c (t.val - 1) (Nat.lt_of_le_of_lt (Nat.sub_le _ _) t.isLt)) (acc6 m c (t.val - 1) (Nat.lt_of_le_of_lt (Nat.sub_le _ _) t.isLt))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [show acc4 m c t.val t.isLt = _ from accRec_next 16 _ _ t h0, show acc5 m c t.val t.isLt = _ from accRec_next 16 _ _ t h0,
        show acc6 m c t.val t.isLt = _ from accRec_next 16 _ _ t h0, show acc7 m c t.val t.isLt = _ from accRec_next 4 _ _ t h1,
        show acc8 m c t.val t.isLt = _ from accRec_next 4 _ _ t h1, show acc9 m c t.val t.isLt = _ from accRec_next 4 _ _ t h1]
      simp only [before0_4_kept m c t h0, before0_5_kept m c t h0, before0_6_kept m c t h0,
        before0_7_kept m c t h1, before0_8_kept m c t h1, before0_9_kept m c t h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((run_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (acc4 m c (t.val - 1) (Nat.lt_of_le_of_lt (Nat.sub_le _ _) t.isLt)) (acc5 m c (t.val - 1) (Nat.lt_of_le_of_lt (Nat.sub_le _ _) t.isLt)) (acc6 m c (t.val - 1) (Nat.lt_of_le_of_lt (Nat.sub_le _ _) t.isLt)) (acc7 m c (t.val - 1) (Nat.lt_of_le_of_lt (Nat.sub_le _ _) t.isLt)) (acc8 m c (t.val - 1) (Nat.lt_of_le_of_lt (Nat.sub_le _ _) t.isLt)) (acc9 m c (t.val - 1) (Nat.lt_of_le_of_lt (Nat.sub_le _ _) t.isLt))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates; each array of the pipeline ends at what the write-backs of the
    proof data leave in it, every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Outs.lean ====
/-
  What one grid point's body leaves in each of the nine output blocks, as pure functions of the point's input blocks
  and of what the block held before the body ran.

  The grid is (i, j, k) = (8, 4, 4) over a [512, 512, 512] cube cut into [64, 128, 128] tiles. Per tile the body forms
  nine partial sums: of exp(x), of x and of a flag-weighted x, each along j, along k and along i.
  * the three sums along j live in a [64, 512] block kept for all sixteen (j, k) points of one i: the tile's [64, 128]
    partial sum is added into the 128 columns the coordinate k selects, the other columns are left as they were
    (`addCols`); the block is cleared at the first of the sixteen points;
  * the three sums along k live in a [64, 128] block kept for the four k points of one (i, j): the partial sum is added
    to the whole block, cleared when k = 0;
  * the three sums along i are stored whole into a [1, 128, 128] slab of their own at every point.
-/
import proofs.«124184_j88390426951927_2_alg».proof.Proof.Gen.KernelIdeal.Launch
import proofs.«124184_j88390426951927_2_alg».proof.Proof.Gen.KernelIdeal.Points
import proofs.«124184_j88390426951927_2_alg».proof.Proof.Gen.KernelIdeal.Skeleton
import Idealize.ShloMosaic.Lib.Pipeline.Frame
import Idealize.ShloMosaic.Lib.Pipeline.FrameBody
import Idealize.ShloMosaic.Lib.WritesUnit
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "j = 0 and k = 0": the first of the sixteen points that share one i. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points that are multiples of 16 in row-major order. -/
theorem hcond0_0 : ∀ t : Fin cfg0.N, cond0_0 (grid0.coords t) ↔ t.val % 16 = 0 :=
  (by decide +kernel : ∀ t : Fin grid0.N, cond0_0 (grid0.coords t) ↔ t.val % 16 = 0)

/-- "k = 0": the first of the four points that share one (i, j). -/
abbrev cond0_1 (i : grid0.Coords) : Prop := (Scalar.cmpi .ne (Scalar.extui (Scalar.cmpi .eq (BitVec.ofNat 32 (i 2).val) 0#32)) 0#32) = 1#1
/-- It holds exactly at the multiples of 4. -/
theorem hcond0_1 : ∀ t : Fin cfg0.N, cond0_1 (grid0.coords t) ↔ t.val % 4 = 0 :=
  (by decide +kernel : ∀ t : Fin grid0.N, cond0_1 (grid0.coords t) ↔ t.val % 4 = 0)

/-! ## The columns a point adds into -/

/-- Columns [128 k, 128 k + 128) of a [64, 512] block, all 64 rows. -/
abbrev colRect (i : grid0.Coords) : Rect S64x512 := Rect.unit (s := S64x512) (k0_off1 i) S64x128.size (k0_off1_inb i)

/-- A single store through a rectangle replaces the block's values there and keeps the others. -/
theorem read_writes_single {sig' : RefSig} {κ : Kind} {sp : Space} {s : Shape} {e : EltTy} {Val : EltTy → Type}
    (v : View sig' κ sp s e) (f : v.ty.Contents Val) (r : Rect s) (w : r.shape.Idx → Val e) :
    v.read Val (v.writes Val f [⟨r, w⟩]) = r.overlay (v.read Val f) w := by
  funext j
  by_cases hj : j ∈ r.set
  · obtain ⟨x, rfl⟩ := r.exists_idx_of_mem hj
    exact (View.read_writes_cons_emb v f r w [] x).trans (Rect.overlay_emb r (v.read Val f) w x).symm
  · rw [Rect.overlay_of_not_mem _ _ _ hj]
    exact View.read_writes_apply_of_forall_not_mem v f j [⟨r, w⟩] (fun p hp => by
      rw [List.mem_singleton] at hp; subst hp; exact hj)

/-- All-zero offsets, however they are spelt. -/
theorem hz2 : (![0, 0] : Fin 2 → ℕ) = fun _ => 0 := by funext a; fin_cases a <;> rfl
theorem hz3 : (![0, 0, 0] : Fin 3 → ℕ) = fun _ => 0 := by funext a; fin_cases a <;> rfl

/-- A store through the whole rectangle, last, leaves its payload whatever was stored before. -/
theorem read_store_whole {sig' : RefSig} {κ : Kind} {sp : Space} {S : Shape} {e : EltTy} {Val : EltTy → Type}
    (v : View sig' κ sp S e) (f : v.ty.Contents Val) {off : Fin S.rank → ℕ} (hz : off = fun _ => 0)
    (inb : ∀ a, off a + S.size a ≤ S.size a) (w : S.Idx → Val e) (L : List (View.Piece Val S e)) :
    v.read Val (v.writes Val f (⟨Rect.unit off S.size inb, w⟩ :: L)) = w := by
  subst hz; funext y
  have h := View.read_writes_cons_emb v f (Rect.whole S) w L y
  rw [Rect.emb_whole_apply] at h
  exact h

/-- A load through the whole rectangle reads the contents. -/
theorem readAt_whole {sig' : RefSig} {κ : Kind} {sp : Space} {S : Shape} {e : EltTy} {Val : EltTy → Type}
    (v : View sig' κ sp S e) {off : Fin S.rank → ℕ} (hz : off = fun _ => 0)
    (inb : ∀ a, off a + S.size a ≤ S.size a) (g : v.ty.Contents Val) :
    v.readAt Val (Rect.unit off S.size inb).toLoadRect g = v.read Val g := by
  rw [View.readAt_eq_ld]; exact View.ld_unit_zero hz inb _

/-- A load through the whole rectangle of a whole buffer that reads `X` is `X`. -/
theorem readAt_whole_unread {sig' : RefSig} {κ : Kind} {sp : Space} {S : Shape} {e : EltTy} {Val : EltTy → Type}
    (m : Memref sig' κ sp S e) (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread]; exact View.ld_unit_zero hz inb X

/-- The block `p` with `pay (the block's columns at k)` stored over those columns. -/
def addCols (i : grid0.Coords) (pay : Vec F S64x128 .f32 → FVec F S64x128 .f32) (p : Vec F S64x512 .f32) : Vec F S64x512 .f32 :=
  (colRect i).overlay p (pay (View.ld p (colRect i)))

/-- Reading the columns at k, transforming them and storing them back over a buffer that reads `p` leaves `addCols`. -/
theorem read_addCols {sig' : RefSig} {κ : Kind} {sp : Space} (m : Memref sig' κ sp S64x512 .f32) (h : m.IsWhole) (i : grid0.Coords)
    (pay : Vec F S64x128 .f32 → FVec F S64x128 .f32) (p : Vec F S64x512 .f32) :
    m.view.read (Elt F) (m.view.writes (Elt F) (h.unread p)
      [⟨colRect i, pay (m.view.readAt (Elt F) (colRect i).toLoadRect (h.unread p))⟩]) = addCols i pay p := by
  rw [read_writes_single, View.readAt_eq_ld, h.read_unread]; rfl

/-- The same after earlier stores `L`: the columns at k of what those left, transformed and stored back. -/
theorem read_addCols_cons {sig' : RefSig} {κ : Kind} {sp : Space} (v : View sig' κ sp S64x512 .f32) (f : v.ty.Contents (Elt F))
    (i : grid0.Coords) (pay : Vec F S64x128 .f32 → FVec F S64x128 .f32) (L : List (View.Piece (Elt F) S64x512 .f32)) :
    v.read (Elt F) (v.writes (Elt F) f
      (⟨colRect i, pay (v.readAt (Elt F) (colRect i).toLoadRect (v.writes (Elt F) f L))⟩ :: L))
      = addCols i pay (v.read (Elt F) (v.writes (Elt F) f L)) := by
  show v.read (Elt F) (v.writes (Elt F) (v.writes (Elt F) f L) [⟨colRect i, _⟩]) = _
  rw [read_writes_single, View.readAt_eq_ld]; rfl

/-- Reading a whole [64, 128] block, transforming it and storing it back whole leaves the transformed block. -/
theorem read_addWhole {sig' : RefSig} {κ : Kind} {sp : Space} (m : Memref sig' κ sp S64x128 .f32) (h : m.IsWhole)
    (pay : Vec F S64x128 .f32 → FVec F S64x128 .f32) (p : Vec F S64x128 .f32) :
    m.view.read (Elt F) (m.view.writes (Elt F) (h.unread p)
      [⟨Rect.unit (s := S64x128) ![0, 0] S64x128.size inb_S64x128_S64x128_0_0,
        pay (m.view.readAt (Elt F) (Rect.unit (s := S64x128) ![0, 0] S64x128.size inb_S64x128_S64x128_0_0).toLoadRect (h.unread p))⟩]) = pay p := by
  rw [read_store_whole _ _ hz2, readAt_whole_unread m h hz2]

/-! ## What the body leaves, output by output -/

/-- Σ_j exp x, Σ_j x, Σ_j s_j x added into the columns at k. -/
def o4 (i : grid0.Coords) (x0 : Vec F S64x128x128 .f32) (p : Vec F S64x512 .f32) : Vec F S64x512 .f32 :=
  addCols i (k0_pay17 (k0_pay5 x0)) p
def o5 (i : grid0.Coords) (x0 : Vec F S64x128x128 .f32) (p : Vec F S64x512 .f32) : Vec F S64x512 .f32 :=
  addCols i (k0_pay18 (k0_pay8 x0)) p
def o6 (i : grid0.Coords) (x0 : Vec F S64x128x128 .f32) (x2 : Vec F S1x128x1 .f32) (p : Vec F S64x512 .f32) : Vec F S64x512 .f32 :=
  addCols i (k0_pay19 (k0_pay11 x0 x2)) p
/-- Σ_k exp x, Σ_k x, Σ_k s_k x added to the whole [64, 128] block. -/
def o7 (x0 : Vec F S64x128x128 .f32) (p : Vec F S64x128 .f32) : Vec F S64x128 .f32 := k0_pay23 (k0_pay6 x0) p
def o8 (x0 : Vec F S64x128x128 .f32) (p : Vec F S64x128 .f32) : Vec F S64x128 .f32 := k0_pay24 (k0_pay9 x0) p
def o9 (x0 : Vec F S64x128x128 .f32) (x3 : Vec F S1x1x128 .f32) (p : Vec F S64x128 .f32) : Vec F S64x128 .f32 :=
  k0_pay25 (k0_pay12 x0 x3) p
/-- Σ_i exp x, Σ_i x, Σ_i s_i x over the tile's 64 rows, as a [1, 128, 128] slab. -/
def o10 (x0 : Vec F S64x128x128 .f32) : Vec F S1x128x128 .f32 := k0_pay1 (k0_pay7 x0)
def o11 (x0 : Vec F S64x128x128 .f32) : Vec F S1x128x128 .f32 := k0_pay2 (k0_pay10 x0)
def o12 (x0 : Vec F S64x128x128 .f32) (x1 : Vec F S64x1x1 .f32) : Vec F S1x128x128 .f32 := k0_pay3 (k0_pay13 x0 x1)

/-! ## The staging memrefs at a point -/

abbrev ms0_0 (t : Fin cfg0.N) : Memref sig .tc .vmem S64x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x128 .f32 := win0_12.stage (cfg0.slots t 12)
abbrev hs0_12 (t : Fin cfg0.N) : (ms0_12 t).IsWhole := hstage0_12 ((cfg0.slots t 12).cast nbuf0_12)

end Cert.KernelIdeal.Body

end
-- ==== Proof.KI.RunA.lean ====
/-
  The body at the first of the sixteen points that share one i (j = 0 and k = 0): all six accumulator blocks are cleared
  before they are added to, so nothing of what they held before matters.
-/
import proofs.«124184_j88390426951927_2_alg».proof.Proof.KI.Outs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Whatever the six accumulator blocks held, the body leaves `o4 … o9` of the cleared blocks, and `o10 … o12`. -/
theorem run_A (c : Dev nD) (i : grid0.Coords) (arg3 : Memref sig .tc .vmem S64x128x128 .f32) (harg3 : arg3.IsWhole) (arg4 : Memref sig .tc .vmem S64x1x1 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (hc0 : cond0_0 i) (hc1 : cond0_1 i)
    (x0 : Vec F S64x128x128 .f32) (x1 : Vec F S64x1x1 .f32) (x2 : Vec F S1x128x1 .f32) (x3 : Vec F S1x1x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o4 i x0 k0_pay14) ∗ owns (c : Thread nD τ) arg8 fullShare (o5 i x0 k0_pay15) ∗ owns (c : Thread nD τ) arg9 fullShare (o6 i x0 x2 k0_pay16) ∗ owns (c : Thread nD τ) arg10 fullShare (o7 x0 k0_pay20) ∗ owns (c : Thread nD τ) arg11 fullShare (o8 x0 k0_pay21) ∗ owns (c : Thread nD τ) arg12 fullShare (o9 x0 x3 k0_pay22) ∗ owns (c : Thread nD τ) arg13 fullShare (o10 x0) ∗ owns (c : Thread nD τ) arg14 fullShare (o11 x0) ∗ owns (c : Thread nD τ) arg15 fullShare (o12 x0 x1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [readAt_whole_unread arg3 harg3 hz3]
      refine (read_addCols_cons arg7.view _ i (k0_pay17 (k0_pay5 x0)) _).trans ?_
      rw [read_store_whole _ _ hz2]; rfl
    isplitl [H5]
    · iexists _; isplitr; swap; · iexact H5
      ipureintro
      sl_unfold_run_names
      rw [readAt_whole_unread arg3 harg3 hz3]
      refine (read_addCols_cons arg8.view _ i (k0_pay18 (k0_pay8 x0)) _).trans ?_
      rw [read_store_whole _ _ hz2]; rfl
    isplitl [H6]
    · iexists _; isplitr; swap; · iexact H6
      ipureintro
      sl_unfold_run_names
      rw [readAt_whole_unread arg3 harg3 hz3, readAt_whole_unread arg5 harg5 hz3]
      refine (read_addCols_cons arg9.view _ i (k0_pay19 (k0_pay11 x0 x2)) _).trans ?_
      rw [read_store_whole _ _ hz2]; rfl
    isplitl [H7]
    · iexists _; isplitr; swap; · iexact H7
      ipureintro
      sl_unfold_run_names
      rw [readAt_whole_unread arg3 harg3 hz3]
      refine (read_store_whole _ _ hz2 _ _ _).trans ?_
      rw [View.readCov_unit_zero (S := S64x128) _ hz2]; rfl
    isplitl [H8]
    · iexists _; isplitr; swap; · iexact H8
      ipureintro
      sl_unfold_run_names
      rw [readAt_whole_unread arg3 harg3 hz3]
      refine (read_store_whole _ _ hz2 _ _ _).trans ?_
      rw [View.readCov_unit_zero (S := S64x128) _ hz2]; rfl
    isplitl [H9]
    · iexists _; isplitr; swap; · iexact H9
      ipureintro
      sl_unfold_run_names
      rw [readAt_whole_unread arg3 harg3 hz3, readAt_whole_unread arg6 harg6 hz3]
      refine (read_store_whole _ _ hz2 _ _ _).trans ?_
      rw [View.readCov_unit_zero (S := S64x128) _ hz2]; rfl
    isplitl [H10]
    · iexists _; isplitr; swap; · iexact H10
      ipureintro
      sl_unfold_run_names
      rw [readAt_whole_unread arg3 harg3 hz3]
      exact read_store_whole (S := S1x128x128) _ _ hz3 _ _ []
    isplitl [H11]
    · iexists _; isplitr; swap; · iexact H11
      ipureintro
      sl_unfold_run_names
      rw [readAt_whole_unread arg3 harg3 hz3]
      exact read_store_whole (S := S1x128x128) _ _ hz3 _ _ []
    iexists _; isplitr; swap; · iexact H12
    ipureintro
    sl_unfold_run_names
    rw [readAt_whole_unread arg3 harg3 hz3, readAt_whole_unread arg4 harg4 hz3]
    exact read_store_whole (S := S1x128x128) _ _ hz3 _ _ []

end Cert.KernelIdeal.Body

end
-- ==== Proof.KI.RunB.lean ====
/-
  The body at a point with k ≠ 0 (neither clearing branch taken): every accumulator block is read and added to.
  Twelve of every sixteen points.
-/
import proofs.«124184_j88390426951927_2_alg».proof.Proof.KI.Outs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three [64, 512] blocks at `p4 p5 p6` and the three [64, 128] blocks at `p7 p8 p9`, the body leaves
    `o4 … o12` of them and of the tile's inputs; the inputs' buffers are left as found. -/
theorem run_B (c : Dev nD) (i : grid0.Coords) (arg3 : Memref sig .tc .vmem S64x128x128 .f32) (harg3 : arg3.IsWhole) (arg4 : Memref sig .tc .vmem S64x1x1 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (hc0 : ¬cond0_0 i) (hc1 : ¬cond0_1 i)
    (x0 : Vec F S64x128x128 .f32) (x1 : Vec F S64x1x1 .f32) (x2 : Vec F S1x128x1 .f32) (x3 : Vec F S1x1x128 .f32) (p4 p5 p6 : Vec F S64x512 .f32) (p7 p8 p9 : Vec F S64x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare p4 ∗ owns (c : Thread nD τ) arg8 fullShare p5 ∗ owns (c : Thread nD τ) arg9 fullShare p6 ∗ owns (c : Thread nD τ) arg10 fullShare p7 ∗ owns (c : Thread nD τ) arg11 fullShare p8 ∗ owns (c : Thread nD τ) arg12 fullShare p9 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o4 i x0 p4) ∗ owns (c : Thread nD τ) arg8 fullShare (o5 i x0 p5) ∗ owns (c : Thread nD τ) arg9 fullShare (o6 i x0 x2 p6) ∗ owns (c : Thread nD τ) arg10 fullShare (o7 x0 p7) ∗ owns (c : Thread nD τ) arg11 fullShare (o8 x0 p8) ∗ owns (c : Thread nD τ) arg12 fullShare (o9 x0 x3 p9) ∗ owns (c : Thread nD τ) arg13 fullShare (o10 x0) ∗ owns (c : Thread nD τ) arg14 fullShare (o11 x0) ∗ owns (c : Thread nD τ) arg15 fullShare (o12 x0 x1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    obtain rfl := harg10.eq_unread hf7; obtain rfl := harg11.eq_unread hf8; obtain rfl := harg12.eq_unread hf9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [readAt_whole_unread arg3 harg3 hz3]
      exact read_addCols arg7 harg7 i _ p4
    isplitl [H5]
    · iexists _; isplitr; swap; · iexact H5
      ipureintro
      sl_unfold_run_names
      rw [readAt_whole_unread arg3 harg3 hz3]
      exact read_addCols arg8 harg8 i _ p5
    isplitl [H6]
    · iexists _; isplitr; swap; · iexact H6
      ipureintro
      sl_unfold_run_names
      rw [readAt_whole_unread arg3 harg3 hz3, readAt_whole_unread arg5 harg5 hz3]
      exact read_addCols arg9 harg9 i _ p6
    isplitl [H7]
    · iexists _; isplitr; swap; · iexact H7
      ipureintro
      sl_unfold_run_names
      rw [readAt_whole_unread arg3 harg3 hz3]
      exact read_addWhole arg10 harg10 _ p7
    isplitl [H8]
    · iexists _; isplitr; swap; · iexact H8
      ipureintro
      sl_unfold_run_names
      rw [readAt_whole_unread arg3 harg3 hz3]
      exact read_addWhole arg11 harg11 _ p8
    isplitl [H9]
    · iexists _; isplitr; swap; · iexact H9
      ipureintro
      sl_unfold_run_names
      rw [readAt_whole_unread arg3 harg3 hz3, readAt_whole_unread arg6 harg6 hz3]
      exact read_addWhole arg12 harg12 _ p9
    isplitl [H10]
    · iexists _; isplitr; swap; · iexact H10
      ipureintro
      sl_unfold_run_names
      rw [readAt_whole_unread arg3 harg3 hz3]
      exact read_store_whole (S := S1x128x128) _ _ hz3 _ _ []
    isplitl [H11]
    · iexists _; isplitr; swap; · iexact H11
      ipureintro
      sl_unfold_run_names
      rw [readAt_whole_unread arg3 harg3 hz3]
      exact read_store_whole (S := S1x128x128) _ _ hz3 _ _ []
    iexists _; isplitr; swap; · iexact H12
    ipureintro
    sl_unfold_run_names
    rw [readAt_whole_unread arg3 harg3 hz3, readAt_whole_unread arg4 harg4 hz3]
    exact read_store_whole (S := S1x128x128) _ _ hz3 _ _ []

end Cert.KernelIdeal.Body

end
-- ==== Proof.KI.RunC.lean ====
/-
  The body at a point with k = 0 and j ≠ 0: the three [64, 128] blocks of the sums along k are cleared before they are
  added to, the three [64, 512] blocks of the sums along j are read and added to.
-/
import proofs.«124184_j88390426951927_2_alg».proof.Proof.KI.Outs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- With the three [64, 512] blocks at `p4 p5 p6`, the body leaves `o4 … o6` of them, `o7 … o9` of cleared blocks, and
    `o10 … o12`. -/
theorem run_C (c : Dev nD) (i : grid0.Coords) (arg3 : Memref sig .tc .vmem S64x128x128 .f32) (harg3 : arg3.IsWhole) (arg4 : Memref sig .tc .vmem S64x1x1 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S64x512 .f32) (harg7 : arg7.IsWhole) (arg8 : Memref sig .tc .vmem S64x512 .f32) (harg8 : arg8.IsWhole) (arg9 : Memref sig .tc .vmem S64x512 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (hc0 : ¬cond0_0 i) (hc1 : cond0_1 i)
    (x0 : Vec F S64x128x128 .f32) (x1 : Vec F S64x1x1 .f32) (x2 : Vec F S1x128x1 .f32) (x3 : Vec F S1x1x128 .f32) (p4 p5 p6 : Vec F S64x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare p4 ∗ owns (c : Thread nD τ) arg8 fullShare p5 ∗ owns (c : Thread nD τ) arg9 fullShare p6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (o4 i x0 p4) ∗ owns (c : Thread nD τ) arg8 fullShare (o5 i x0 p5) ∗ owns (c : Thread nD τ) arg9 fullShare (o6 i x0 x2 p6) ∗ owns (c : Thread nD τ) arg10 fullShare (o7 x0 k0_pay20) ∗ owns (c : Thread nD τ) arg11 fullShare (o8 x0 k0_pay21) ∗ owns (c : Thread nD τ) arg12 fullShare (o9 x0 x3 k0_pay22) ∗ owns (c : Thread nD τ) arg13 fullShare (o10 x0) ∗ owns (c : Thread nD τ) arg14 fullShare (o11 x0) ∗ owns (c : Thread nD τ) arg15 fullShare (o12 x0 x1)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15) K := by
    intro E K
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [readAt_whole_unread arg3 harg3 hz3]
      exact read_addCols arg7 harg7 i _ p4
    isplitl [H5]
    · iexists _; isplitr; swap; · iexact H5
      ipureintro
      sl_unfold_run_names
      rw [readAt_whole_unread arg3 harg3 hz3]
      exact read_addCols arg8 harg8 i _ p5
    isplitl [H6]
    · iexists _; isplitr; swap; · iexact H6
      ipureintro
      sl_unfold_run_names
      rw [readAt_whole_unread arg3 harg3 hz3, readAt_whole_unread arg5 harg5 hz3]
      exact read_addCols arg9 harg9 i _ p6
    isplitl [H7]
    · iexists _; isplitr; swap; · iexact H7
      ipureintro
      sl_unfold_run_names
      rw [readAt_whole_unread arg3 harg3 hz3]
      refine (read_store_whole _ _ hz2 _ _ _).trans ?_
      rw [View.readCov_unit_zero (S := S64x128) _ hz2]; rfl
    isplitl [H8]
    · iexists _; isplitr; swap; · iexact H8
      ipureintro
      sl_unfold_run_names
      rw [readAt_whole_unread arg3 harg3 hz3]
      refine (read_store_whole _ _ hz2 _ _ _).trans ?_
      rw [View.readCov_unit_zero (S := S64x128) _ hz2]; rfl
    isplitl [H9]
    · iexists _; isplitr; swap; · iexact H9
      ipureintro
      sl_unfold_run_names
      rw [readAt_whole_unread arg3 harg3 hz3, readAt_whole_unread arg6 harg6 hz3]
      refine (read_store_whole _ _ hz2 _ _ _).trans ?_
      rw [View.readCov_unit_zero (S := S64x128) _ hz2]; rfl
    isplitl [H10]
    · iexists _; isplitr; swap; · iexact H10
      ipureintro
      sl_unfold_run_names
      rw [readAt_whole_unread arg3 harg3 hz3]
      exact read_store_whole (S := S1x128x128) _ _ hz3 _ _ []
    isplitl [H11]
    · iexists _; isplitr; swap; · iexact H11
      ipureintro
      sl_unfold_run_names
      rw [readAt_whole_unread arg3 harg3 hz3]
      exact read_store_whole (S := S1x128x128) _ _ hz3 _ _ []
    iexists _; isplitr; swap; · iexact H12
    ipureintro
    sl_unfold_run_names
    rw [readAt_whole_unread arg3 harg3 hz3, readAt_whole_unread arg4 harg4 hz3]
    exact read_store_whole (S := S1x128x128) _ _ hz3 _ _ []

end Cert.KernelIdeal.Body

end
-- ==== Proof.KI.Data.lean ====
/-
  The proof data of the one pipelined region and its run.

  After the body at grid point t (row-major over (i, j, k) = (8, 4, 4)):
  * each input's buffer still holds the input's block at t;
  * the three [64, 512] blocks hold the sums along j accumulated since the last multiple of 16 (the first point of the
    current i): `acc4 acc5 acc6`, each a recursion over the points that restarts from the cleared block;
  * the three [64, 128] blocks hold the sums along k accumulated since the last multiple of 4: `acc7 acc8 acc9`;
  * the three [1, 128, 128] slabs hold the tile's sums along i.
  A block is written back exactly at the last point before its recursion restarts, so between two restarts the body
  finds in the block what it left there at the point before.
-/
import proofs.«124184_j88390426951927_2_alg».proof.Proof.KI.FrameKit
import proofs.«124184_j88390426951927_2_alg».proof.Proof.KI.RunA
import proofs.«124184_j88390426951927_2_alg».proof.Proof.KI.RunB
import proofs.«124184_j88390426951927_2_alg».proof.Proof.KI.RunC
import Idealize.ShloMosaic.Lib.Pipeline.FrameSuffix

set_option maxRecDepth 16384

noncomputable section

namespace Cert.KernelIdeal.Body

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A running value that restarts every `P` points -/

/-- `step` applied point after point to the value the point before left, restarting from `z` at every multiple of `P`. -/
def accRec {α : Type} (P : ℕ) (z : α) (step : (n : ℕ) → n < cfg0.N → α → α) : (n : ℕ) → n < cfg0.N → α
  | 0, hn => step 0 hn z
  | n + 1, hn => step (n + 1) hn (if (n + 1) % P = 0 then z else accRec P z step n (Nat.lt_of_succ_lt hn))

theorem accRec_restart {α : Type} (P : ℕ) (z : α) (step : (n : ℕ) → n < cfg0.N → α → α) (t : Fin cfg0.N)
    (h : t.val % P = 0) : accRec P z step t.val t.isLt = step t.val t.isLt z := by
  obtain ⟨n, hn⟩ := t
  cases n with
  | zero => rw [accRec]
  | succ n => rw [accRec, if_pos h]

theorem accRec_next {α : Type} (P : ℕ) (z : α) (step : (n : ℕ) → n < cfg0.N → α → α) (t : Fin cfg0.N)
    (h : ¬t.val % P = 0) :
    accRec P z step t.val t.isLt
      = step t.val t.isLt (accRec P z step (t.val - 1) (Nat.lt_of_le_of_lt (Nat.sub_le _ _) t.isLt)) := by
  obtain ⟨n, hn⟩ := t
  cases n with
  | zero => exact absurd (Nat.zero_mod _) h
  | succ n => rw [accRec, if_neg h]; rfl

/-! ## The six accumulators -/

def acc4 (c : Dev nD) : (n : ℕ) → n < cfg0.N → Vec F S64x512 .f32 :=
  accRec 16 k0_pay14 fun n hn p => o4 (grid0.coords ⟨n, hn⟩) (iblk m c 0 ⟨n, hn⟩) p
def acc5 (c : Dev nD) : (n : ℕ) → n < cfg0.N → Vec F S64x512 .f32 :=
  accRec 16 k0_pay15 fun n hn p => o5 (grid0.coords ⟨n, hn⟩) (iblk m c 0 ⟨n, hn⟩) p
def acc6 (c : Dev nD) : (n : ℕ) → n < cfg0.N → Vec F S64x512 .f32 :=
  accRec 16 k0_pay16 fun n hn p => o6 (grid0.coords ⟨n, hn⟩) (iblk m c 0 ⟨n, hn⟩) (iblk m c 2 ⟨n, hn⟩) p
def acc7 (c : Dev nD) : (n : ℕ) → n < cfg0.N → Vec F S64x128 .f32 :=
  accRec 4 k0_pay20 fun n hn p => o7 (iblk m c 0 ⟨n, hn⟩) p
def acc8 (c : Dev nD) : (n : ℕ) → n < cfg0.N → Vec F S64x128 .f32 :=
  accRec 4 k0_pay21 fun n hn p => o8 (iblk m c 0 ⟨n, hn⟩) p
def acc9 (c : Dev nD) : (n : ℕ) → n < cfg0.N → Vec F S64x128 .f32 :=
  accRec 4 k0_pay22 fun n hn p => o9 (iblk m c 0 ⟨n, hn⟩) (iblk m c 3 ⟨n, hn⟩) p

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc4 m c t.val t.isLt
    | ⟨5, _⟩ => acc5 m c t.val t.isLt
    | ⟨6, _⟩ => acc6 m c t.val t.isLt
    | ⟨7, _⟩ => acc7 m c t.val t.isLt
    | ⟨8, _⟩ => acc8 m c t.val t.isLt
    | ⟨9, _⟩ => acc9 m c t.val t.isLt
    | ⟨10, _⟩ => o10 (iblk m c 0 t)
    | ⟨11, _⟩ => o11 (iblk m c 0 t)
    | ⟨12, _⟩ => o12 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc4 m c t.val t.isLt := by dsimp only [dats]
theorem after0_5 (c : Dev nD) (t : Fin cfg0.N) : (dats m 0 c).after 5 t = acc5 m c t.val t.isLt := by dsimp only [dats]
theorem after0_6 (c : Dev nD) (t : Fin cfg0.N) : (dats m 0 c).after 6 t = acc6 m c t.val t.isLt := by dsimp only [dats]
theorem after0_7 (c : Dev nD) (t : Fin cfg0.N) : (dats m 0 c).after 7 t = acc7 m c t.val t.isLt := by dsimp only [dats]
theorem after0_8 (c : Dev nD) (t : Fin cfg0.N) : (dats m 0 c).after 8 t = acc8 m c t.val t.isLt := by dsimp only [dats]
theorem after0_9 (c : Dev nD) (t : Fin cfg0.N) : (dats m 0 c).after 9 t = acc9 m c t.val t.isLt := by dsimp only [dats]
theorem after0_10 (c : Dev nD) (t : Fin cfg0.N) : (dats m 0 c).after 10 t = o10 (iblk m c 0 t) := by dsimp only [dats]
theorem after0_11 (c : Dev nD) (t : Fin cfg0.N) : (dats m 0 c).after 11 t = o11 (iblk m c 0 t) := by dsimp only [dats]
theorem after0_12 (c : Dev nD) (t : Fin cfg0.N) : (dats m 0 c).after 12 t = o12 (iblk m c 0 t) (iblk m c 1 t) := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Between two restarts an accumulator's buffer holds what the body left at the point before: the point is not the
    first, and the block was not written back in between. -/
theorem before0_4_kept (c : Dev nD) (t : Fin cfg0.N) (h : ¬t.val % 16 = 0) (d) :
    (dats m 0 c).before 4 t d = acc4 m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun hf => by have := (flush0_4 _).mp hf; dsimp only at this; omega)
    (fun _ => rfl) (fun _ _ => rfl)]
  dsimp only [dats]
theorem before0_5_kept (c : Dev nD) (t : Fin cfg0.N) (h : ¬t.val % 16 = 0) (d) :
    (dats m 0 c).before 5 t d = acc5 m c (t.val - 1) (Nat.lt_of_le_of_lt (Nat.sub_le _ _) t.isLt) := by
  have hN : t.val < 128 := lt_of_lt_of_eq t.isLt (show cfg0.N = 128 from N_0)
  rw [Dat.before_out_kept _ 5 rfl t (by omega) (Bool.eq_false_iff.mpr fun hf => by have := (flush0_5 _).mp hf; dsimp only at this; omega)
    (fun _ => rfl) (fun _ _ => rfl)]
  dsimp only [dats]
theorem before0_6_kept (c : Dev nD) (t : Fin cfg0.N) (h : ¬t.val % 16 = 0) (d) :
    (dats m 0 c).before 6 t d = acc6 m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun hf => by have := (flush0_6 _).mp hf; dsimp only at this; omega)
    (fun _ => rfl) (fun _ _ => rfl)]
  dsimp only [dats]
theorem before0_7_kept (c : Dev nD) (t : Fin cfg0.N) (h : ¬t.val % 4 = 0) (d) :
    (dats m 0 c).before 7 t d = acc7 m c (t.val - 1) (Nat.lt_of_le_of_lt (Nat.sub_le _ _) t.isLt) := by
  have hN : t.val < 128 := lt_of_lt_of_eq t.isLt (show cfg0.N = 128 from N_0)
  rw [Dat.before_out_kept _ 7 rfl t (by omega) (Bool.eq_false_iff.mpr fun hf => by have := (flush0_7 _).mp hf; dsimp only at this; omega)
    (fun _ => rfl) (fun _ _ => rfl)]
  dsimp only [dats]
theorem before0_8_kept (c : Dev nD) (t : Fin cfg0.N) (h : ¬t.val % 4 = 0) (d) :
    (dats m 0 c).before 8 t d = acc8 m c (t.val - 1) (Nat.lt_of_le_of_lt (Nat.sub_le _ _) t.isLt) := by
  have hN : t.val < 128 := lt_of_lt_of_eq t.isLt (show cfg0.N = 128 from N_0)
  rw [Dat.before_out_kept _ 8 rfl t (by omega) (Bool.eq_false_iff.mpr fun hf => by have := (flush0_8 _).mp hf; dsimp only at this; omega)
    (fun _ => rfl) (fun _ _ => rfl)]
  dsimp only [dats]
theorem before0_9_kept (c : Dev nD) (t : Fin cfg0.N) (h : ¬t.val % 4 = 0) (d) :
    (dats m 0 c).before 9 t d = acc9 m c (t.val - 1) (Nat.lt_of_le_of_lt (Nat.sub_le _ _) t.isLt) := by
  have hN : t.val < 128 := lt_of_lt_of_eq t.isLt (show cfg0.N = 128 from N_0)
  rw [Dat.before_out_kept _ 9 rfl t (by omega) (Bool.eq_false_iff.mpr fun hf => by have := (flush0_9 _).mp hf; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 4000000 in
/-- The body at any point: which of the three cases it is in is read off the point's number; an accumulator the case
    does not clear holds what the point before left; the invariant and the core's duties pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  have hN : t.val < 128 := lt_of_lt_of_eq t.isLt (show cfg0.N = 128 from N_0)
  by_cases h0 : t.val % 16 = 0
  · have h1 : t.val % 4 = 0 := by omega
    rw [show acc4 m c t.val t.isLt = _ from accRec_restart 16 _ _ t h0, show acc5 m c t.val t.isLt = _ from accRec_restart 16 _ _ t h0,
      show acc6 m c t.val t.isLt = _ from accRec_restart 16 _ _ t h0, show acc7 m c t.val t.isLt = _ from accRec_restart 4 _ _ t h1,
      show acc8 m c t.val t.isLt = _ from accRec_restart 4 _ _ t h1, show acc9 m c t.val t.isLt = _ from accRec_restart 4 _ _ t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_A c (grid0.coords t) _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · by_cases h1 : t.val % 4 = 0
    · rw [show acc4 m c t.val t.isLt = _ from accRec_next 16 _ _ t h0, show acc5 m c t.val t.isLt = _ from accRec_next 16 _ _ t h0,
        show acc6 m c t.val t.isLt = _ from accRec_next 16 _ _ t h0, show acc7 m c t.val t.isLt = _ from accRec_restart 4 _ _ t h1,
        show acc8 m c t.val t.isLt = _ from accRec_restart 4 _ _ t h1, show acc9 m c t.val t.isLt = _ from accRec_restart 4 _ _ t h1]
      simp only [before0_4_kept m c t h0, before0_5_kept m c t h0, before0_6_kept m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((run_C c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (acc4 m c (t.val - 1) (Nat.lt_of_le_of_lt (Nat.sub_le _ _) t.isLt)) (acc5 m c (t.val - 1) (Nat.lt_of_le_of_lt (Nat.sub_le _ _) t.isLt)) (acc6 m c (t.val - 1) (Nat.lt_of_le_of_lt (Nat.sub_le _ _) t.isLt))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [show acc4 m c t.val t.isLt = _ from accRec_next 16 _ _ t h0, show acc5 m c t.val t.isLt = _ from accRec_next 16 _ _ t h0,
        show acc6 m c t.val t.isLt = _ from accRec_next 16 _ _ t h0, show acc7 m c t.val t.isLt = _ from accRec_next 4 _ _ t h1,
        show acc8 m c t.val t.isLt = _ from accRec_next 4 _ _ t h1, show acc9 m c t.val t.isLt = _ from accRec_next 4 _ _ t h1]
      simp only [before0_4_kept m c t h0, before0_5_kept m c t h0, before0_6_kept m c t h0,
        before0_7_kept m c t h1, before0_8_kept m c t h1, before0_9_kept m c t h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((run_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (acc4 m c (t.val - 1) (Nat.lt_of_le_of_lt (Nat.sub_le _ _) t.isLt)) (acc5 m c (t.val - 1) (Nat.lt_of_le_of_lt (Nat.sub_le _ _) t.isLt)) (acc6 m c (t.val - 1) (Nat.lt_of_le_of_lt (Nat.sub_le _ _) t.isLt)) (acc7 m c (t.val - 1) (Nat.lt_of_le_of_lt (Nat.sub_le _ _) t.isLt)) (acc8 m c (t.val - 1) (Nat.lt_of_le_of_lt (Nat.sub_le _ _) t.isLt)) (acc9 m c (t.val - 1) (Nat.lt_of_le_of_lt (Nat.sub_le _ _) t.isLt))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      iintro ⟨H0, H1, H2, H3, H4, H5, H6, H7, H8, H9, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates; each array of the pipeline ends at what the write-backs of the
    proof data leave in it, every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Blocks.lean ====
/-
  Where the blocks of the pipelined region sit in their arrays, and what the region finds in the arrays the host wrote.

  Grid point t of the (8, 4, 4) grid, in row-major order, has coordinates i = t / 16, j = t / 4 % 4, k = t % 4. Its tile
  of the cube is rows 64 i …, columns 128 j …, depth 128 k …; its three flag windows are entries 64 i …, 128 j … and
  128 k … of the flag vector (re-laid as [512,1,1], [1,512,1], [1,1,512]); the block of the sums along j is rows 64 i …
  of a [512, 512] array, all columns; the block of the sums along k is rows 64 i …, columns 128 j …; the slab of the sums
  along i is entry (i, 128 j …, 128 k …) of an [8, 512, 512] array.
-/
import proofs.«124184_j88390426951927_2_alg».proof.Proof.KI.Data
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The index maps, decided once over the grid -/

theorem in_facts : ∀ t : Fin cfg0.N,
    win0_0.index t (0 : Fin 3) = t.val / 16 ∧ win0_0.index t (1 : Fin 3) = t.val / 4 % 4 ∧ win0_0.index t (2 : Fin 3) = t.val % 4
    ∧ win0_1.index t (0 : Fin 3) = t.val / 16 ∧ win0_1.index t (1 : Fin 3) = 0 ∧ win0_1.index t (2 : Fin 3) = 0
    ∧ win0_2.index t (0 : Fin 3) = 0 ∧ win0_2.index t (1 : Fin 3) = t.val / 4 % 4 ∧ win0_2.index t (2 : Fin 3) = 0
    ∧ win0_3.index t (0 : Fin 3) = 0 ∧ win0_3.index t (1 : Fin 3) = 0 ∧ win0_3.index t (2 : Fin 3) = t.val % 4 :=
  (by decide +kernel : ∀ t : Fin grid0.N, _)

theorem out_facts : ∀ t : Fin cfg0.N,
    win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0
    ∧ win0_7.index t (0 : Fin 2) = t.val / 16 ∧ win0_7.index t (1 : Fin 2) = t.val / 4 % 4
    ∧ win0_8.index t (0 : Fin 2) = t.val / 16 ∧ win0_8.index t (1 : Fin 2) = t.val / 4 % 4
    ∧ win0_9.index t (0 : Fin 2) = t.val / 16 ∧ win0_9.index t (1 : Fin 2) = t.val / 4 % 4
    ∧ win0_10.index t (0 : Fin 3) = t.val / 16 ∧ win0_10.index t (1 : Fin 3) = t.val / 4 % 4 ∧ win0_10.index t (2 : Fin 3) = t.val % 4
    ∧ win0_11.index t (0 : Fin 3) = t.val / 16 ∧ win0_11.index t (1 : Fin 3) = t.val / 4 % 4 ∧ win0_11.index t (2 : Fin 3) = t.val % 4
    ∧ win0_12.index t (0 : Fin 3) = t.val / 16 ∧ win0_12.index t (1 : Fin 3) = t.val / 4 % 4 ∧ win0_12.index t (2 : Fin 3) = t.val % 4 :=
  (by decide +kernel : ∀ t : Fin grid0.N, _)

/-- The columns a point adds into start at 128 k. -/
theorem off_facts : ∀ t : Fin cfg0.N, k0_off1 (grid0.coords t) (0 : Fin 2) = 0 ∧ k0_off1 (grid0.coords t) (1 : Fin 2) = 128 * (t.val % 4) :=
  (by decide +kernel : ∀ t : Fin grid0.N, _)

/-! ## The input blocks read at an index -/

/-- The cube's tile at point t, at a position y of the tile, is the cube at the position z whose coordinates are the
    tile's offsets plus y's. -/
theorem iblk0_at (c : Dev nD) (t : Fin cfg0.N) (y : S64x128x128.Idx) (z : S512x512x512.Idx)
    (h0 : (z 0).val = 64 * (t.val / 16) + (y 0).val) (h1 : (z 1).val = 128 * (t.val / 4 % 4) + (y 1).val)
    (h2 : (z 2).val = 128 * (t.val % 4) + (y 2).val) :
    iblk m c 0 t y = V m c main_arg0 z := by
  show V m c main_arg0 (((cfg0.win 0).blk t).view.emb y) = _
  refine congrArg _ ?_
  obtain ⟨e0, e1, e2, -⟩ := in_facts t
  funext a; apply Fin.ext
  match a with
  | ⟨0, _⟩ => show win0_0.index t (0 : Fin 3) * 64 + 1 * (y 0).val = (z 0).val; omega
  | ⟨1, _⟩ => show win0_0.index t (1 : Fin 3) * 128 + 1 * (y 1).val = (z 1).val; omega
  | ⟨2, _⟩ => show win0_0.index t (2 : Fin 3) * 128 + 1 * (y 2).val = (z 2).val; omega

/-- The row-flag window at point t is entries 64 i … of the [512, 1, 1] array. -/
theorem iblk1_at (c : Dev nD) (t : Fin cfg0.N) (y : S64x1x1.Idx) (z : S512x1x1.Idx)
    (h0 : (z 0).val = 64 * (t.val / 16) + (y 0).val) :
    iblk m c 1 t y = V m c main_v6 z := by
  show V m c main_v6 (((cfg0.win 1).blk t).view.emb y) = _
  refine congrArg _ ?_
  obtain ⟨-, -, -, e0, e1, e2, -⟩ := in_facts t
  funext a; apply Fin.ext
  match a with
  | ⟨0, _⟩ => show win0_1.index t (0 : Fin 3) * 64 + 1 * (y 0).val = (z 0).val; omega
  | ⟨1, _⟩ => show win0_1.index t (1 : Fin 3) * 1 + 1 * (y 1).val = (z 1).val; have hy : (y 1).val < 1 := (y 1).isLt; have hz : (z 1).val < 1 := (z 1).isLt; omega
  | ⟨2, _⟩ => show win0_1.index t (2 : Fin 3) * 1 + 1 * (y 2).val = (z 2).val; have hy : (y 2).val < 1 := (y 2).isLt; have hz : (z 2).val < 1 := (z 2).isLt; omega

/-- The column-flag window at point t is entries 128 j … of the [1, 512, 1] array. -/
theorem iblk2_at (c : Dev nD) (t : Fin cfg0.N) (y : S1x128x1.Idx) (z : S1x512x1.Idx)
    (h1 : (z 1).val = 128 * (t.val / 4 % 4) + (y 1).val) :
    iblk m c 2 t y = V m c main_v7 z := by
  show V m c main_v7 (((cfg0.win 2).blk t).view.emb y) = _
  refine congrArg _ ?_
  obtain ⟨-, -, -, -, -, -, e0, e1, e2, -⟩ := in_facts t
  funext a; apply Fin.ext
  match a with
  | ⟨0, _⟩ => show win0_2.index t (0 : Fin 3) * 1 + 1 * (y 0).val = (z 0).val; have hy : (y 0).val < 1 := (y 0).isLt; have hz : (z 0).val < 1 := (z 0).isLt; omega
  | ⟨1, _⟩ => show win0_2.index t (1 : Fin 3) * 128 + 1 * (y 1).val = (z 1).val; omega
  | ⟨2, _⟩ => show win0_2.index t (2 : Fin 3) * 1 + 1 * (y 2).val = (z 2).val; have hy : (y 2).val < 1 := (y 2).isLt; have hz : (z 2).val < 1 := (z 2).isLt; omega

/-- The depth-flag window at point t is entries 128 k … of the [1, 1, 512] array. -/
theorem iblk3_at (c : Dev nD) (t : Fin cfg0.N) (y : S1x1x128.Idx) (z : S1x1x512.Idx)
    (h2 : (z 2).val = 128 * (t.val % 4) + (y 2).val) :
    iblk m c 3 t y = V m c main_v8 z := by
  show V m c main_v8 (((cfg0.win 3).blk t).view.emb y) = _
  refine congrArg _ ?_
  obtain ⟨-, -, -, -, -, -, -, -, -, e0, e1, e2⟩ := in_facts t
  funext a; apply Fin.ext
  match a with
  | ⟨0, _⟩ => show win0_3.index t (0 : Fin 3) * 1 + 1 * (y 0).val = (z 0).val; have hy : (y 0).val < 1 := (y 0).isLt; have hz : (z 0).val < 1 := (z 0).isLt; omega
  | ⟨1, _⟩ => show win0_3.index t (1 : Fin 3) * 1 + 1 * (y 1).val = (z 1).val; have hy : (y 1).val < 1 := (y 1).isLt; have hz : (z 1).val < 1 := (z 1).isLt; omega
  | ⟨2, _⟩ => show win0_3.index t (2 : Fin 3) * 128 + 1 * (y 2).val = (z 2).val; omega

/-! ## What the host wrote before the region -/

/-- The comparison bit per index: round(target) ≥ 0. -/
def bitsK (x1 : (⟨S512x1, .f32⟩ : BufTy).Contents (Elt Ideal)) : (⟨S512, .i1⟩ : BufTy).Contents (Elt Ideal) :=
  cmpf .oge (Host.roundeven (shapeCast S512 x1 shapeCasts_S512x1_S512))
    (broadcastInDim S512 ![] bcast_S_S512 (constant (F := Ideal) S_ .f32 0x00000000#32))

/-- The flag vector: 1.0 where the bit is set, 0.0 elsewhere. -/
def flagsK (x1 : (⟨S512x1, .f32⟩ : BufTy).Contents (Elt Ideal)) : (⟨S512, .f32⟩ : BufTy).Contents (Elt Ideal) :=
  select (bitsK x1) (broadcastInDim S512 ![] bcast_S_S512 (constant (F := Ideal) S_ .f32 0x3F800000#32))
    (broadcastInDim S512 ![] bcast_S_S512 (constant (F := Ideal) S_ .f32 0x00000000#32))

theorem V_v5 (c : Dev nD) : (V m c main_v5 : S512.Idx → EReal) = flagsK (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

theorem V_v6 (c : Dev nD) : (V m c main_v6 : S512x1x1.Idx → EReal)
    = shapeCast S512x1x1 (flagsK (m ((c : Thread nD τ).loc main_arg1))) shapeCasts_S512_S512x1x1 := by
  dsimp only [V, V0]
  simp only [hostOps0, hostOps0_1, hostOps0_2, hostOps0_3, hostOps0_4, List.flatten_cons, List.flatten_nil, List.append_nil,
    List.cons_append, List.nil_append]
  after_results
  rfl

theorem V_v7 (c : Dev nD) : (V m c main_v7 : S1x512x1.Idx → EReal)
    = shapeCast S1x512x1 (flagsK (m ((c : Thread nD τ).loc main_arg1))) shapeCasts_S512_S1x512x1 := by
  dsimp only [V, V0]
  simp only [hostOps0, hostOps0_1, hostOps0_2, hostOps0_3, hostOps0_4, List.flatten_cons, List.flatten_nil, List.append_nil,
    List.cons_append, List.nil_append]
  after_results
  rfl

theorem V_v8 (c : Dev nD) : (V m c main_v8 : S1x1x512.Idx → EReal)
    = shapeCast S1x1x512 (flagsK (m ((c : Thread nD τ).loc main_arg1))) shapeCasts_S512_S1x1x512 := by
  dsimp only [V, V0]
  simp only [hostOps0, hostOps0_1, hostOps0_2, hostOps0_3, hostOps0_4, List.flatten_cons, List.flatten_nil, List.append_nil,
    List.cons_append, List.nil_append]
  after_results
  rfl

end Cert.KernelIdeal.Body

end
-- ==== Proof.LibSums.lean ====
/-
  Sums over the index set of a small array, written as iterated sums over the coordinates, and three reductions read
  at an index on the extended reals.

  * An index of a rank-1, rank-3 or rank-4 array is the tuple of its coordinates, so a sum over all indices is the
    iterated sum over the coordinate ranges (`sum_idx1`, `sum_idx3`, `sum_idx4`).
  * A host sum that removes the two adjacent axes 1 and 2 of a rank-6 array `[a, n, m, b, c, d]` is, at `(p, q, r, s)`,
    the initial value plus the double sum over the two removed coordinates (`hostSum_axes12_apply`).
  * A vector sum along the leading axis of a rank-3 array `[n, a, b]` is, at `(i, j)`, the sum over the leading
    coordinate (`leadSum3_apply`); along the leading axis of a column `[a, 1]` it is the sum of the column
    (`colSum_apply`).
  * A one-element vector `[1]` viewed as `[1, 1]`, and `[1, 1]` viewed as `[1, 1, 1]`, keep their one entry
    (`shapeCast_1_11_apply`, `shapeCast_11_111_apply`).
  * Unit axes dropped from a block: `[1, n, 1, a, b]` viewed as `[n, a, b]` and `[1, 1, a, b]` viewed as `[a, b]`, read at
    an index (`shapeCast_1n1ab_nab_apply`, `shapeCast_11ab_ab_apply`).
  * One matrix repeated along a new leading axis, `[1, a, b] → [n, a, b]` (`broadcastTo_1ab_nab_apply`), and the chain that
    takes member `k` of a stack `[n, a, b]`, drops and restores its unit axis and repeats it `n` times: at `(m, i, j)` it
    reads the stack at `(k, i, j)` (`memberSpread_apply`).
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Sums

open Idealize.ShloMosaic Idealize.ShloMosaic.ValueIdx

section IndexSums
variable {M : Type*} [AddCommMonoid M]

/-- A sum over the indices of a vector is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a rank-3 array is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- A sum over the indices of a rank-4 array is the fourfold sum over its coordinates. -/
theorem sum_idx4 {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    { toFun := fun i => (i 0, i 1, i 2, i 3), invFun := fun p => ix4 p.1 p.2.1 p.2.2.1 p.2.2.2,
      left_inv := fun i => (eq_ix4 i).symm, right_inv := fun _ => rfl }
  rw [← Equiv.sum_comp e.symm f, Fintype.sum_prod_type]
  refine Finset.sum_congr rfl fun a _ => ?_
  rw [Fintype.sum_prod_type]
  refine Finset.sum_congr rfl fun b _ => ?_
  rw [Fintype.sum_prod_type]
  rfl

end IndexSums

/-- On the extended reals a host sum over axes 1 and 2 of `[a, n, m, b, c, d]` is, at `(p, q, r, s)`, the initial value
    plus the sum over both removed coordinates of the entry at `(p, i, j, q, r, s)`. -/
theorem hostSum_axes12_apply {a n m b c d : ℕ}
    (h' : (⟨6, ![a, n, m, b, c, d]⟩ : Shape).ReducesTo [1, 2] ⟨4, ![a, b, c, d]⟩)
    (x : (⟨6, ![a, n, m, b, c, d]⟩ : Shape).Idx → EReal) (init : EReal) (p : Fin a) (q : Fin b) (r : Fin c) (s : Fin d) :
    Ideal.hostReduceAdd h' x init (ix4 p q r s) = init + ∑ i : Fin n, ∑ j : Fin m, x (ix6 p i j q r s) := by
  unfold Ideal.hostReduceAdd
  refine congrArg (init + ·) ?_
  rw [← Fintype.sum_prod_type' (fun (i : Fin n) (j : Fin m) => x (ix6 p i j q r s))]
  refine Finset.sum_nbij' (fun i => (i 1, i 2)) (fun k => ix6 p k.1 k.2 q r s) ?_ ?_ ?_ ?_ ?_
  · intro i _; exact Finset.mem_univ _
  · intro k _
    refine Finset.mem_filter.2 ⟨Finset.mem_univ _, funext fun e => Fin.ext ?_⟩
    match e with | ⟨0, _⟩ => rfl | ⟨1, _⟩ => rfl | ⟨2, _⟩ => rfl | ⟨3, _⟩ => rfl
  · intro i hi
    have hj := (Finset.mem_filter.1 hi).2
    have e0 : (i 0).val = p.val := congrArg (fun v : (⟨4, ![a, b, c, d]⟩ : Shape).Idx => (v 0).val) hj
    have e1 : (i 3).val = q.val := congrArg (fun v : (⟨4, ![a, b, c, d]⟩ : Shape).Idx => (v 1).val) hj
    have e2 : (i 4).val = r.val := congrArg (fun v : (⟨4, ![a, b, c, d]⟩ : Shape).Idx => (v 2).val) hj
    have e3 : (i 5).val = s.val := congrArg (fun v : (⟨4, ![a, b, c, d]⟩ : Shape).Idx => (v 3).val) hj
    funext e
    apply Fin.ext
    match e with
    | ⟨0, _⟩ => exact e0.symm
    | ⟨1, _⟩ => rfl
    | ⟨2, _⟩ => rfl
    | ⟨3, _⟩ => exact e1.symm
    | ⟨4, _⟩ => exact e2.symm
    | ⟨5, _⟩ => exact e3.symm
  · intro k _; rfl
  · intro i hi
    have hj := (Finset.mem_filter.1 hi).2
    have e0 : (i 0).val = p.val := congrArg (fun v : (⟨4, ![a, b, c, d]⟩ : Shape).Idx => (v 0).val) hj
    have e1 : (i 3).val = q.val := congrArg (fun v : (⟨4, ![a, b, c, d]⟩ : Shape).Idx => (v 1).val) hj
    have e2 : (i 4).val = r.val := congrArg (fun v : (⟨4, ![a, b, c, d]⟩ : Shape).Idx => (v 2).val) hj
    have e3 : (i 5).val = s.val := congrArg (fun v : (⟨4, ![a, b, c, d]⟩ : Shape).Idx => (v 3).val) hj
    refine congrArg x (funext fun e => Fin.ext ?_)
    match e with
    | ⟨0, _⟩ => exact e0
    | ⟨1, _⟩ => rfl
    | ⟨2, _⟩ => rfl
    | ⟨3, _⟩ => exact e1
    | ⟨4, _⟩ => exact e2
    | ⟨5, _⟩ => exact e3

section VectorSums
variable {φ : FTy}

/-- The index a sum along the leading axis of `[n, a, b]` inserts over `(i, j)` at coordinate `k` is `(k, i, j)`. -/
theorem lift_lead3 {n a b : ℕ} (h : Shape.Reduces ⟨3, ![n, a, b]⟩ [0] ⟨2, ![a, b]⟩) (i : Fin a) (j : Fin b) (k : Fin n) :
    h.lift (ix2 i j) k = ix3 k i j :=
  funext fun d => Fin.ext (by match d with | ⟨0, _⟩ => rfl | ⟨1, _⟩ => rfl | ⟨2, _⟩ => rfl)

/-- On the extended reals a vector sum along the leading axis of `[n, a, b]`, at `(i, j)`, is the sum over the leading
    coordinate. -/
theorem leadSum3_apply {n a b : ℕ} (v : FVec Ideal ⟨3, ![n, a, b]⟩ φ) (acc : BitVec φ.bits)
    (h : Shape.Reduces ⟨3, ![n, a, b]⟩ [0] ⟨2, ![a, b]⟩) (hφ : FKind.Formats φ) (hacc : acc = FKind.add.neutral φ hφ)
    (i : Fin a) (j : Fin b) :
    multiReduction .add [0] ⟨2, ![a, b]⟩ v acc h hφ hacc (ix2 i j) = ∑ k : Fin n, v (ix3 k i j) :=
  (Ideal.multiReduction_add_single v acc h hφ hacc (ix2 i j)).trans
    (Finset.sum_congr rfl fun k _ => congrArg v (lift_lead3 h i j k))

/-- The index a sum along the leading axis of a column `[a, 1]` inserts over its one result index is `(k, 0)`. -/
theorem lift_col {a : ℕ} (h : Shape.Reduces ⟨2, ![a, 1]⟩ [0] ⟨1, ![1]⟩) (u : Fin 1) (k : Fin a) :
    h.lift (ix1 u) k = ix2 k u :=
  funext fun d => Fin.ext (by match d with | ⟨0, _⟩ => rfl | ⟨1, _⟩ => rfl)

/-- On the extended reals a vector sum along the leading axis of a column `[a, 1]` is the sum of the column. -/
theorem colSum_apply {a : ℕ} (v : FVec Ideal ⟨2, ![a, 1]⟩ φ) (acc : BitVec φ.bits)
    (h : Shape.Reduces ⟨2, ![a, 1]⟩ [0] ⟨1, ![1]⟩) (hφ : FKind.Formats φ) (hacc : acc = FKind.add.neutral φ hφ) (u : Fin 1) :
    multiReduction .add [0] ⟨1, ![1]⟩ v acc h hφ hacc (ix1 u) = ∑ k : Fin a, v (ix2 k u) :=
  (Ideal.multiReduction_add_single v acc h hφ hacc (ix1 u)).trans
    (Finset.sum_congr rfl fun k _ => congrArg v (lift_col h u k))

end VectorSums

section Layout
variable {α : Type}

/-- A one-element vector `[1]` viewed as `[1, 1]` keeps its entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    rw [hu, hv])

/-- A `[1, 1]` array viewed as `[1, 1, 1]` keeps its entry. -/
theorem shapeCast_11_111_apply (x : (⟨2, ![1, 1]⟩ : Shape).Idx → α) (h : (⟨2, ![1, 1]⟩ : Shape).ShapeCasts ⟨3, ![1, 1, 1]⟩)
    (u v w : Fin 1) : shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- A block `[1, n, 1, a, b]` viewed as `[n, a, b]` reads, at `(k, i, j)`, the block at `(0, k, 0, i, j)`. -/
theorem shapeCast_1n1ab_nab_apply {n a b : ℕ} (x : (⟨5, ![1, n, 1, a, b]⟩ : Shape).Idx → α)
    (h : (⟨5, ![1, n, 1, a, b]⟩ : Shape).ShapeCasts ⟨3, ![n, a, b]⟩) (k : Fin n) (i : Fin a) (j : Fin b) :
    shapeCast ⟨3, ![n, a, b]⟩ x h (ix3 k i j) = x (ix5 (0 : Fin 1) k (0 : Fin 1) i j) :=
  shapeCast_apply x h _ _ (by
    rw [Shape.rowMajor_val_five, Shape.rowMajor_val_three]
    show (((0 * n + k.val) * 1 + 0) * a + i.val) * b + j.val = (k.val * a + i.val) * b + j.val
    simp only [Nat.zero_mul, Nat.zero_add, Nat.mul_one, Nat.add_zero])

/-- A block `[1, 1, a, b]` viewed as `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- One matrix `[1, a, b]` repeated `n` times along a new leading axis reads, at `(m, i, j)`, the matrix at `(i, j)`. -/
theorem broadcastTo_1ab_nab_apply {n a b : ℕ} (v : (⟨3, ![1, a, b]⟩ : Shape).Idx → α)
    (h : (⟨3, ![1, a, b]⟩ : Shape).Broadcasts ⟨3, ![n, a, b]⟩) (m : Fin n) (i : Fin a) (j : Fin b) :
    broadcastTo ⟨3, ![n, a, b]⟩ v h (ix3 m i j) = v (ix3 (0 : Fin 1) i j) := by
  refine broadcastTo_apply v h (ix3 m i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Member `k` of a stack `[n, a, b]` — sliced out as `[1, a, b]`, viewed as `[a, b]`, viewed as `[1, a, b]` again and
    repeated `n` times — reads, at `(m, i, j)`, the stack at `(k, i, j)`. -/
theorem memberSpread_apply {n a b : ℕ} (v : (⟨3, ![n, a, b]⟩ : Shape).Idx → α) (off : Fin 3 → ℕ) (k : Fin n)
    (hoff : off = ![k.val, 0, 0]) (hs : (⟨3, ![n, a, b]⟩ : Shape).Slices off ⟨3, ![1, a, b]⟩)
    (h1 : (⟨3, ![1, a, b]⟩ : Shape).ShapeCasts ⟨2, ![a, b]⟩) (h2 : (⟨2, ![a, b]⟩ : Shape).ShapeCasts ⟨3, ![1, a, b]⟩)
    (hb : (⟨3, ![1, a, b]⟩ : Shape).Broadcasts ⟨3, ![n, a, b]⟩) (m : Fin n) (i : Fin a) (j : Fin b) :
    broadcastTo ⟨3, ![n, a, b]⟩ (shapeCast ⟨3, ![1, a, b]⟩ (shapeCast ⟨2, ![a, b]⟩
      (extractStridedSlice ⟨3, ![1, a, b]⟩ off v hs) h1) h2) hb (ix3 m i j) = v (ix3 k i j) := by
  subst hoff
  refine (broadcastTo_1ab_nab_apply _ hb m i j).trans ?_
  refine (shapeCast_ab_1ab_apply _ h2 0 i j).trans ?_
  refine (shapeCast_1ab_ab_apply _ h1 i j).trans ?_
  refine extractStridedSlice_apply _ v hs _ _ fun ax => ?_
  match ax with
  | ⟨0, _⟩ => show k.val = k.val + 0; omega
  | ⟨1, _⟩ => show i.val = 0 + i.val; omega
  | ⟨2, _⟩ => show j.val = 0 + j.val; omega

end Layout

end Cert.Sums

end
-- ==== Proof.KI.Pays.lean ====
/-
  The tile's nine partial sums, entry by entry, on the extended reals.

  For a [64, 128, 128] tile x with flag windows a (rows), b (columns), d (depth):
    along j:  Σ_j exp x(r, j, q),  Σ_j x(r, j, q),  Σ_j b(j) · x(r, j, q)         at (r, q)
    along k:  Σ_q exp x(r, j, q),  Σ_q x(r, j, q),  Σ_q d(q) · x(r, j, q)         at (r, j)
    along i:  Σ_r exp x(r, j, q),  Σ_r x(r, j, q),  Σ_r a(r) · x(r, j, q)         at (j, q)
  and the two ways a partial sum enters an accumulator: added to the block's entry.
-/
import proofs.«124184_j88390426951927_2_alg».proof.Proof.KI.Outs
import proofs.«124184_j88390426951927_2_alg».proof.Proof.LibSums
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Sums along one axis of a rank-3 array -/

/-- The index a sum along the middle axis of `[a, n, b]` inserts over `(i, j)` at coordinate `k` is `(i, k, j)`. -/
theorem lift_mid3 {a n b : ℕ} (h : Shape.Reduces ⟨3, ![a, n, b]⟩ [1] ⟨2, ![a, b]⟩) (i : Fin a) (j : Fin b) (k : Fin n) :
    h.lift (ix2 i j) k = ix3 i k j :=
  funext fun d => Fin.ext (by match d with | ⟨0, _⟩ => rfl | ⟨1, _⟩ => rfl | ⟨2, _⟩ => rfl)

/-- The index a sum along the last axis of `[a, b, n]` inserts over `(i, j)` at coordinate `k` is `(i, j, k)`. -/
theorem lift_last3 {a b n : ℕ} (h : Shape.Reduces ⟨3, ![a, b, n]⟩ [2] ⟨2, ![a, b]⟩) (i : Fin a) (j : Fin b) (k : Fin n) :
    h.lift (ix2 i j) k = ix3 i j k :=
  funext fun d => Fin.ext (by match d with | ⟨0, _⟩ => rfl | ⟨1, _⟩ => rfl | ⟨2, _⟩ => rfl)

/-- A tile summed along j, at (r, q). -/
theorem sumJ (src : FVec Ideal S64x128x128 .f32) (r : Fin 64) (q : Fin 128) :
    multiReduction .add [1] S64x128 src 0x00000000#32 reduces_S64x128x128_S64x128 (.inl rfl) rfl (ix2 r q)
      = ∑ j : Fin 128, src (ix3 r j q) :=
  (Ideal.multiReduction_add_single src 0x00000000#32 reduces_S64x128x128_S64x128 (.inl rfl) rfl (ix2 r q)).trans
    (Finset.sum_congr rfl fun k _ => congrArg src (lift_mid3 _ r q k))

/-- A tile summed along k, at (r, j). -/
theorem sumK (src : FVec Ideal S64x128x128 .f32) (r : Fin 64) (j : Fin 128) :
    multiReduction .add [2] S64x128 src 0x00000000#32 reduces_S64x128x128_S64x128_2 (.inl rfl) rfl (ix2 r j)
      = ∑ q : Fin 128, src (ix3 r j q) :=
  (Ideal.multiReduction_add_single src 0x00000000#32 reduces_S64x128x128_S64x128_2 (.inl rfl) rfl (ix2 r j)).trans
    (Finset.sum_congr rfl fun k _ => congrArg src (lift_last3 _ r j k))

/-- A tile summed along i, at (j, q). -/
theorem sumI (src : FVec Ideal S64x128x128 .f32) (j q : Fin 128) :
    multiReduction .add [0] S128x128 src 0x00000000#32 reduces_S64x128x128_S128x128 (.inl rfl) rfl (ix2 j q)
      = ∑ r : Fin 64, src (ix3 r j q) :=
  Cert.Sums.leadSum3_apply src 0x00000000#32 reduces_S64x128x128_S128x128 (.inl rfl) rfl j q

/-! ## The flag windows spread over the tile -/

theorem spreadJ (b : Vec Ideal S1x128x1 .f32) (r : Fin 64) (j q : Fin 128) :
    broadcastTo S64x128x128 (shapeCast S1x128x1 b shapeCasts_S1x128x1_S1x128x1) broadcasts_S1x128x1_S64x128x128 (ix3 r j q)
      = b (ix3 0 j 0) := by
  rw [shapeCast_self]
  exact broadcastTo_apply b broadcasts_S1x128x1_S64x128x128 (ix3 r j q) (ix3 0 j 0)
    (fun a => by match a with | ⟨0, _⟩ => rfl | ⟨1, _⟩ => rfl | ⟨2, _⟩ => rfl)

theorem spreadK (d : Vec Ideal S1x1x128 .f32) (r : Fin 64) (j q : Fin 128) :
    broadcastTo S64x128x128 (shapeCast S1x1x128 d shapeCasts_S1x1x128_S1x1x128) broadcasts_S1x1x128_S64x128x128 (ix3 r j q)
      = d (ix3 0 0 q) := by
  rw [shapeCast_self]
  exact broadcastTo_apply d broadcasts_S1x1x128_S64x128x128 (ix3 r j q) (ix3 0 0 q)
    (fun a => by match a with | ⟨0, _⟩ => rfl | ⟨1, _⟩ => rfl | ⟨2, _⟩ => rfl)

theorem spreadI (a : Vec Ideal S64x1x1 .f32) (r : Fin 64) (j q : Fin 128) :
    broadcastTo S64x128x128 (shapeCast S64x1x1 a shapeCasts_S64x1x1_S64x1x1) broadcasts_S64x1x1_S64x128x128 (ix3 r j q)
      = a (ix3 r 0 0) := by
  rw [shapeCast_self]
  exact broadcastTo_apply a broadcasts_S64x1x1_S64x128x128 (ix3 r j q) (ix3 r 0 0)
    (fun a' => by match a' with | ⟨0, _⟩ => rfl | ⟨1, _⟩ => rfl | ⟨2, _⟩ => rfl)

/-! ## The nine partial sums -/

theorem pay5_at (x : Vec Ideal S64x128x128 .f32) (r : Fin 64) (q : Fin 128) :
    k0_pay5 x (ix2 r q) = ∑ j : Fin 128, Ideal.exp (x (ix3 r j q)) := by
  unfold k0_pay5 k0_pay4; exact sumJ _ r q
theorem pay6_at (x : Vec Ideal S64x128x128 .f32) (r : Fin 64) (j : Fin 128) :
    k0_pay6 x (ix2 r j) = ∑ q : Fin 128, Ideal.exp (x (ix3 r j q)) := by
  unfold k0_pay6 k0_pay4; exact sumK _ r j
theorem pay7_at (x : Vec Ideal S64x128x128 .f32) (j q : Fin 128) :
    k0_pay7 x (ix2 j q) = ∑ r : Fin 64, Ideal.exp (x (ix3 r j q)) := by
  unfold k0_pay7 k0_pay4; exact sumI _ j q
theorem pay8_at (x : Vec Ideal S64x128x128 .f32) (r : Fin 64) (q : Fin 128) :
    k0_pay8 x (ix2 r q) = ∑ j : Fin 128, x (ix3 r j q) := by
  unfold k0_pay8; exact sumJ _ r q
theorem pay9_at (x : Vec Ideal S64x128x128 .f32) (r : Fin 64) (j : Fin 128) :
    k0_pay9 x (ix2 r j) = ∑ q : Fin 128, x (ix3 r j q) := by
  unfold k0_pay9; exact sumK _ r j
theorem pay10_at (x : Vec Ideal S64x128x128 .f32) (j q : Fin 128) :
    k0_pay10 x (ix2 j q) = ∑ r : Fin 64, x (ix3 r j q) := by
  unfold k0_pay10; exact sumI _ j q
theorem pay11_at (x : Vec Ideal S64x128x128 .f32) (b : Vec Ideal S1x128x1 .f32) (r : Fin 64) (q : Fin 128) :
    k0_pay11 x b (ix2 r q) = ∑ j : Fin 128, b (ix3 0 j 0) * x (ix3 r j q) := by
  unfold k0_pay11
  refine (sumJ _ r q).trans (Finset.sum_congr rfl fun j _ => ?_)
  show FloatOps.mulf _ _ = _
  rw [spreadJ]; rfl
theorem pay12_at (x : Vec Ideal S64x128x128 .f32) (d : Vec Ideal S1x1x128 .f32) (r : Fin 64) (j : Fin 128) :
    k0_pay12 x d (ix2 r j) = ∑ q : Fin 128, d (ix3 0 0 q) * x (ix3 r j q) := by
  unfold k0_pay12
  refine (sumK _ r j).trans (Finset.sum_congr rfl fun q _ => ?_)
  show FloatOps.mulf _ _ = _
  rw [spreadK]; rfl
theorem pay13_at (x : Vec Ideal S64x128x128 .f32) (a : Vec Ideal S64x1x1 .f32) (j q : Fin 128) :
    k0_pay13 x a (ix2 j q) = ∑ r : Fin 64, a (ix3 r 0 0) * x (ix3 r j q) := by
  unfold k0_pay13
  refine (sumI _ j q).trans (Finset.sum_congr rfl fun r _ => ?_)
  show FloatOps.mulf _ _ = _
  rw [spreadI]; rfl

end Cert.KernelIdeal.Body

end
-- ==== Proof.LibTileSum.lean ====
/-
  Finite sums cut into tiles, running sums over the tiles, sums over a range padded with zeros, and the collapse of
  products with a vanishing factor on the extended reals.

  Over an additive commutative monoid: a sum of `a * b` terms is the sum over `a` tiles of the `b` terms of each
  tile; a running sum `g 0, g 0 + g 1, …` over eight tiles ends at the full sum; a sum whose terms vanish from some
  position on is the sum of the terms before it.  On the extended reals `0 * x = x * 0 = 0` for every `x` (the
  infinities included) and `r - r = 0` for a real `r`, so a product split along `x = x + (x - x)` loses its extra terms.
-/
import Mathlib.Algebra.BigOperators.Fin
import Mathlib.Data.Fintype.BigOperators
import Mathlib.Logic.Equiv.Fin.Basic
import Mathlib.Data.EReal.Inv

namespace Cert.LibTileSum

open scoped BigOperators

section Monoid
variable {M : Type*} [AddCommMonoid M]

/-- Position `q` of tile `j` (tiles of `b` terms, `a` of them) is below `a * b`. -/
theorem tile_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum of `a * b` terms is the sum over the `a` tiles of the sums of the `b` terms of each tile. -/
theorem sum_tiles_mul (a b : ℕ) (f : Fin (a * b) → M) :
    ∑ k : Fin (a * b), f k = ∑ j : Fin a, ∑ q : Fin b, f ⟨b * j.val + q.val, tile_lt j q⟩ := by
  rw [← Equiv.sum_comp finProdFinEquiv f, Fintype.sum_prod_type]
  refine Finset.sum_congr rfl fun j _ => Finset.sum_congr rfl fun q _ => ?_
  exact congrArg f (Fin.ext (Nat.add_comm _ _))

/-- 6144 terms as 8 tiles of 768. -/
theorem sum_tiles (f : Fin 6144 → M) :
    ∑ k : Fin 6144, f k = ∑ j : Fin 8, ∑ q : Fin 768, f ⟨768 * j.val + q.val, by omega⟩ :=
  sum_tiles_mul 8 768 f

/-- The running sum over eight tiles: `g 0`, then one more tile's term at each step (nothing past the eighth). -/
def partialSum (g : Fin 8 → M) : ℕ → M
  | 0 => g 0
  | k + 1 => partialSum g k + (if h : k + 1 < 8 then g ⟨k + 1, h⟩ else 0)

@[simp] theorem partialSum_zero (g : Fin 8 → M) : partialSum g 0 = g 0 := rfl
theorem partialSum_succ (g : Fin 8 → M) (k : ℕ) (h : k + 1 < 8) :
    partialSum g (k + 1) = partialSum g k + g ⟨k + 1, h⟩ := by
  rw [partialSum, dif_pos h]

/-- After the eighth tile the running sum is the full sum. -/
theorem partialSum_seven (g : Fin 8 → M) : partialSum g 7 = ∑ j : Fin 8, g j := by
  rw [Fin.sum_univ_eight]
  show partialSum g (6 + 1) = _
  rw [partialSum_succ g 6 (by omega), partialSum_succ g 5 (by omega), partialSum_succ g 4 (by omega),
    partialSum_succ g 3 (by omega), partialSum_succ g 2 (by omega), partialSum_succ g 1 (by omega),
    partialSum_succ g 0 (by omega), partialSum_zero]
  rfl

/-- A sequence that starts at `g 0` and adds one tile's term at each step is the running sum, -/
theorem eq_partialSum (g : Fin 8 → M) (acc : ℕ → M) (h0 : acc 0 = g 0)
    (hs : ∀ (k : ℕ) (h : k + 1 < 8), acc (k + 1) = acc k + g ⟨k + 1, h⟩) :
    ∀ k : ℕ, k < 8 → acc k = partialSum g k
  | 0, _ => h0
  | k + 1, h => by rw [hs k h, partialSum_succ g k h, eq_partialSum g acc h0 hs k (by omega)]

/-- so its eighth value is the full sum; -/
theorem acc_seven (g : Fin 8 → M) (acc : ℕ → M) (h0 : acc 0 = g 0)
    (hs : ∀ (k : ℕ) (h : k + 1 < 8), acc (k + 1) = acc k + g ⟨k + 1, h⟩) : acc 7 = ∑ j : Fin 8, g j := by
  rw [eq_partialSum g acc h0 hs 7 (by omega), partialSum_seven]

/-- the same when the sequence starts from `z + g 0` with `z = 0`. -/
theorem acc_seven_of_zero (g : Fin 8 → M) (acc : ℕ → M) (z : M) (hz : z = 0) (h0 : acc 0 = z + g 0)
    (hs : ∀ (k : ℕ) (h : k + 1 < 8), acc (k + 1) = acc k + g ⟨k + 1, h⟩) : acc 7 = ∑ j : Fin 8, g j :=
  acc_seven g acc (by rw [h0, hz, zero_add]) hs

/-- A sum of `a + b` terms that vanish from position `a` on is the sum of the first `a`. -/
theorem sum_pad_add (a b : ℕ) (g : Fin (a + b) → M) (hz : ∀ k : Fin (a + b), a ≤ k.val → g k = 0) :
    ∑ k : Fin (a + b), g k = ∑ k : Fin a, g ⟨k.val, Nat.lt_add_right b k.isLt⟩ :=
  Fin.sum_trunc g fun j => hz _ (Nat.le_add_right a j.val)

/-- 896 terms that vanish from position 784 on. -/
theorem sum_pad (g : Fin 896 → M) (hz : ∀ k : Fin 896, 784 ≤ k.val → g k = 0) :
    ∑ k : Fin 896, g k = ∑ k : Fin 784, g ⟨k.val, by omega⟩ :=
  sum_pad_add 784 112 g hz

end Monoid

section ExtendedReals
variable {ι : Type*} [Fintype ι]

/-- A sum of products with zero on the left is zero. -/
theorem sum_zero_mul (f : ι → EReal) : ∑ k, 0 * f k = 0 := by simp only [zero_mul, Finset.sum_const_zero]
/-- A sum of products with zero on the right is zero. -/
theorem sum_mul_zero (f : ι → EReal) : ∑ k, f k * 0 = 0 := by simp only [mul_zero, Finset.sum_const_zero]

/-- A real minus itself is zero. -/
theorem sub_self_real (x : EReal) (hx : ∃ r : ℝ, x = (r : EReal)) : x - x = 0 := by
  obtain ⟨r, rfl⟩ := hx
  rw [← EReal.coe_sub, sub_self, EReal.coe_zero]

/-- `x * s + (x - x) * s = x * s` for a real `x`. -/
theorem mul_add_sub_self_mul (x s : EReal) (hx : ∃ r : ℝ, x = (r : EReal)) : x * s + (x - x) * s = x * s := by
  rw [sub_self_real x hx, zero_mul, add_zero]

/-- `x * w + x * (w - w) + (x - x) * w = x * w` for reals `x` and `w`. -/
theorem mul_add_mul_sub_self_add (x w : EReal) (hx : ∃ r : ℝ, x = (r : EReal)) (hw : ∃ r : ℝ, w = (r : EReal)) :
    x * w + x * (w - w) + (x - x) * w = x * w := by
  rw [sub_self_real x hx, sub_self_real w hw, zero_mul, mul_zero, add_zero, add_zero]

/-- The same under sums: `Σ a s + Σ (a - a) s = Σ a s` for real `a k`, -/
theorem sum_mul_add_sum_sub_self_mul (a s : ι → EReal) (ha : ∀ k, ∃ r : ℝ, a k = (r : EReal)) :
    ∑ k, a k * s k + ∑ k, (a k - a k) * s k = ∑ k, a k * s k := by
  simp only [fun k => sub_self_real (a k) (ha k), zero_mul, Finset.sum_const_zero, add_zero]

/-- and `Σ a w + Σ a (w - w) + Σ (a - a) w = Σ a w` for real `a k` and `w k`. -/
theorem sum_mul_add_sum_mul_sub_self_add (a w : ι → EReal) (ha : ∀ k, ∃ r : ℝ, a k = (r : EReal))
    (hw : ∀ k, ∃ r : ℝ, w k = (r : EReal)) :
    ∑ k, a k * w k + ∑ k, a k * (w k - w k) + ∑ k, (a k - a k) * w k = ∑ k, a k * w k := by
  simp only [fun k => sub_self_real (a k) (ha k), fun k => sub_self_real (w k) (hw k), zero_mul, mul_zero,
    Finset.sum_const_zero, add_zero]

end ExtendedReals

end Cert.LibTileSum
-- ==== Proof.LibPairSums.lean ====
/-
  Sums over pairs and small re-layouts, read at an index.

  * The coercion of a finite sum of reals into the extended reals is the sum of the coercions (`coe_sum`).
  * On the extended reals a host sum that removes axes 1 and 2 of a rank-3 array `[a, n, m]` is, at `p`, the initial
    value plus the double sum over the two removed coordinates (`hostSum3_axes12_apply`): a sum over all pairs
    `(i, j)` per leading index.
  * A column `[a, 1]` spread over `b` columns reads the column's entry (`broadcastTo_a1_ab_apply`).
  * A one-entry vector `[1]` viewed as `[1, 1, 1]` keeps its entry (`shapeCast_1_111_apply`), and an `[a, 1, 1]` array
    viewed as `[a]` reads the array at `(p, 0, 0)` (`shapeCast_a11_a_apply`).
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibPairSums

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- On the extended reals a host sum over axes 1 and 2 of `[a, n, m]` is, at `p`, the initial value plus the sum over both
    removed coordinates of the entry at `(p, i, j)`. -/
theorem hostSum3_axes12_apply {a n m : ℕ} (h' : (⟨3, ![a, n, m]⟩ : Shape).ReducesTo [1, 2] ⟨1, ![a]⟩)
    (x : (⟨3, ![a, n, m]⟩ : Shape).Idx → EReal) (init : EReal) (p : Fin a) :
    Ideal.hostReduceAdd h' x init (ix1 p) = init + ∑ i : Fin n, ∑ j : Fin m, x (ix3 p i j) := by
  unfold Ideal.hostReduceAdd
  refine congrArg (init + ·) ?_
  rw [← Fintype.sum_prod_type' (fun (i : Fin n) (j : Fin m) => x (ix3 p i j))]
  refine Finset.sum_nbij' (fun i => (i 1, i 2)) (fun k => ix3 p k.1 k.2) ?_ ?_ ?_ ?_ ?_
  · intro i _; exact Finset.mem_univ _
  · intro k _
    refine Finset.mem_filter.2 ⟨Finset.mem_univ _, funext fun e => Fin.ext ?_⟩
    match e with | ⟨0, _⟩ => rfl
  · intro i hi
    have hj := (Finset.mem_filter.1 hi).2
    have e0 : (i 0).val = p.val := congrArg (fun v : (⟨1, ![a]⟩ : Shape).Idx => (v 0).val) hj
    funext e
    apply Fin.ext
    match e with
    | ⟨0, _⟩ => exact e0.symm
    | ⟨1, _⟩ => rfl
    | ⟨2, _⟩ => rfl
  · intro k _; rfl
  · intro i hi
    have hj := (Finset.mem_filter.1 hi).2
    have e0 : (i 0).val = p.val := congrArg (fun v : (⟨1, ![a]⟩ : Shape).Idx => (v 0).val) hj
    refine congrArg x (funext fun e => Fin.ext ?_)
    match e with
    | ⟨0, _⟩ => exact e0
    | ⟨1, _⟩ => rfl
    | ⟨2, _⟩ => rfl

section Layout
variable {α : Type}

/-- A column `[a, 1]` spread over `b` columns reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` viewed as `[1, 1, 1]` keeps its entry. -/
theorem shapeCast_1_111_apply (x : (⟨1, ![1]⟩ : Shape).Idx → α) (h : (⟨1, ![1]⟩ : Shape).ShapeCasts ⟨3, ![1, 1, 1]⟩)
    (u v w : Fin 1) : shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- An `[a, 1, 1]` array viewed as `[a]` reads, at `p`, the array at `(p, 0, 0)`. -/
theorem shapeCast_a11_a_apply {a : ℕ} (x : (⟨3, ![a, 1, 1]⟩ : Shape).Idx → α) (h : (⟨3, ![a, 1, 1]⟩ : Shape).ShapeCasts ⟨1, ![a]⟩)
    (p : Fin a) : shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

end Layout

end Cert.LibPairSums

end
-- ==== Proof.KI.Accs.lean ====
/-
  What the six accumulator blocks hold, entry by entry, as plain sums on the extended reals.

  An accumulator that is cleared at every multiple of J and otherwise adds, at each point, that point's contribution to
  what the point before left, holds at point t the sum of the contributions of the points J·(t / J), …, t.
  * The sums along k (J = 4): point 4u + s contributes the tile's sum over its 128 depth positions, so the last point
    of a run holds, at (r, j), the sum over all 512 depth positions.
  * The sums along j (J = 16): point 16u + 4j + k contributes the tile's sum over its 128 columns, and only to the 128
    block columns the coordinate k selects; so the last point of a run holds, at (r, q), the sum over j = 0 … 3 of the
    contributions of the points with k = q / 128, that is the sum over all 512 cube columns.
-/
import proofs.«124184_j88390426951927_2_alg».proof.Proof.KI.Blocks
import proofs.«124184_j88390426951927_2_alg».proof.Proof.KI.Pays
import proofs.«124184_j88390426951927_2_alg».proof.Proof.LibTileSum
import proofs.«124184_j88390426951927_2_alg».proof.Proof.LibPairSums

set_option maxRecDepth 16384

noncomputable section

open scoped BigOperators

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

variable (c : Dev nD)

/-! ## The running value at a point, as a sum over the run -/

theorem accRec_of_mod {α : Type} (P : ℕ) (z : α) (step : (n : ℕ) → n < cfg0.N → α → α) (n : ℕ) (hn : n < cfg0.N)
    (h : n % P = 0) : accRec P z step n hn = step n hn z := by
  cases n with
  | zero => rw [accRec]
  | succ k => rw [accRec, if_pos h]

theorem accRec_succ {α : Type} (P : ℕ) (z : α) (step : (n : ℕ) → n < cfg0.N → α → α) (n : ℕ) (hn : n + 1 < cfg0.N)
    (h : ¬(n + 1) % P = 0) : accRec P z step (n + 1) hn = step (n + 1) hn (accRec P z step n (Nat.lt_of_succ_lt hn)) := by
  rw [accRec, if_neg h]

/-- A fold whose first value reads `M b` and whose every step adds `M n`, read through `ev`, is the sum of the `M`s. -/
theorem accAt_ev {α ι : Type} (ev : α → ι → EReal) (a : (n : ℕ) → n < cfg0.N → α) (g : (n : ℕ) → n < cfg0.N → α → α)
    (M : ℕ → ι → EReal) (b : ℕ) (ha : ∀ h y, ev (a b h) y = M b y) (hg : ∀ n h p y, ev (g n h p) y = ev p y + M n y) :
    ∀ (j : ℕ) (h : b + j < cfg0.N) (y : ι), ev (Pipeline.accAt a g b j h) y = ∑ s ∈ Finset.range (j + 1), M (b + s) y
  | 0, h, y => by rw [Pipeline.accAt_zero, Finset.sum_range_one, ha]; rfl
  | j + 1, h, y => by
    rw [Pipeline.accAt_succ, hg, accAt_ev ev a g M b ha hg j (Nat.lt_of_succ_lt h) y, Finset.sum_range_succ _ (j + 1)]

/-- The running value at point t, read through `ev`: the sum of the contributions since the last restart. -/
theorem acc_run_sum {α ι : Type} (ev : α → ι → EReal) (J : ℕ) (hJ : 0 < J) (z : α) (hz : ∀ y, ev z y = 0)
    (step : (n : ℕ) → n < cfg0.N → α → α) (M : ℕ → ι → EReal)
    (hstep : ∀ n h p y, ev (step n h p) y = ev p y + M n y) (t : ℕ) (ht : t < cfg0.N) (y : ι) :
    ev (accRec J z step t ht) y = ∑ s ∈ Finset.range (t % J + 1), M (J * (t / J) + s) y := by
  have h' : J * (t / J) + t % J < cfg0.N := by rw [Nat.div_add_mod]; exact ht
  rw [Pipeline.eq_accAt_of_mod (accRec J z step) J (fun n h => step n h z) step
    (fun n h hm => accRec_of_mod J z step n h hm) (fun n h hm => accRec_succ J z step n h hm) hJ t ht h']
  exact accAt_ev ev (fun n h => step n h z) step M (J * (t / J)) (fun h y => by rw [hstep, hz, zero_add])
    hstep (t % J) h' y

/-! ## The cleared blocks, and one point's step, entry by entry -/

theorem pay14_zero (y : S64x512.Idx) : (k0_pay14 (F := Ideal)) y = 0 := Ideal.ofBits_zero_f32
theorem pay15_zero (y : S64x512.Idx) : (k0_pay15 (F := Ideal)) y = 0 := Ideal.ofBits_zero_f32
theorem pay16_zero (y : S64x512.Idx) : (k0_pay16 (F := Ideal)) y = 0 := Ideal.ofBits_zero_f32
theorem pay20_zero (y : S64x128.Idx) : (k0_pay20 (F := Ideal)) y = 0 := Ideal.ofBits_zero_f32
theorem pay21_zero (y : S64x128.Idx) : (k0_pay21 (F := Ideal)) y = 0 := Ideal.ofBits_zero_f32
theorem pay22_zero (y : S64x128.Idx) : (k0_pay22 (F := Ideal)) y = 0 := Ideal.ofBits_zero_f32

theorem o7_at (x : Vec Ideal S64x128x128 .f32) (p : Vec Ideal S64x128 .f32) (y : S64x128.Idx) :
    o7 x p y = p y + k0_pay6 x y := by
  unfold o7 k0_pay23
  rw [shapeCast_self]; rfl
theorem o8_at (x : Vec Ideal S64x128x128 .f32) (p : Vec Ideal S64x128 .f32) (y : S64x128.Idx) :
    o8 x p y = p y + k0_pay9 x y := by
  unfold o8 k0_pay24
  rw [shapeCast_self]; rfl
theorem o9_at (x : Vec Ideal S64x128x128 .f32) (d : Vec Ideal S1x1x128 .f32) (p : Vec Ideal S64x128 .f32) (y : S64x128.Idx) :
    o9 x d p y = p y + k0_pay12 x d y := by
  unfold o9 k0_pay25
  rw [shapeCast_self]; rfl

/-- Inside the columns at k: the block's entry plus the tile's partial sum at the entry's position within the columns. -/
theorem addCols_in (i : grid0.Coords) (pe : FVec Ideal S64x128 .f32) (pay : Vec Ideal S64x128 .f32 → FVec Ideal S64x128 .f32)
    (hpay : ∀ v y, pay v y = v y + pe y) (p : Vec Ideal S64x512 .f32) (r : Fin 64) (q : Fin 512) (q' : Fin 128)
    (h0 : k0_off1 i (0 : Fin 2) = 0) (hq : q.val = k0_off1 i (1 : Fin 2) + q'.val) :
    addCols i pay p (ix2 r q) = p (ix2 r q) + pe (ix2 r q') := by
  have he : (colRect i).emb (ix2 r q') = ix2 r q := by
    funext a; apply Fin.ext
    match a with
    | ⟨0, _⟩ => show k0_off1 i (0 : Fin 2) + 1 * r.val = r.val; omega
    | ⟨1, _⟩ => show k0_off1 i (1 : Fin 2) + 1 * q'.val = q.val; omega
  unfold addCols
  rw [← he, Rect.overlay_emb, hpay]
  rfl

/-- Outside them: the block's entry, unchanged. -/
theorem addCols_out (i : grid0.Coords) (pay : Vec Ideal S64x128 .f32 → FVec Ideal S64x128 .f32) (p : Vec Ideal S64x512 .f32)
    (r : Fin 64) (q : Fin 512) (hq : q.val < k0_off1 i (1 : Fin 2) ∨ k0_off1 i (1 : Fin 2) + 128 ≤ q.val) :
    addCols i pay p (ix2 r q) = p (ix2 r q) := by
  unfold addCols
  refine Rect.overlay_of_not_mem _ _ _ fun hm => ?_
  have h1 := (Rect.mem_set_unit.mp hm) (1 : Fin 2)
  have h1' : k0_off1 i (1 : Fin 2) ≤ q.val ∧ q.val < k0_off1 i (1 : Fin 2) + 128 := h1
  omega

theorem pay17_at (pe : FVec Ideal S64x128 .f32) (v : Vec Ideal S64x128 .f32) (y : S64x128.Idx) : k0_pay17 pe v y = v y + pe y := by
  unfold k0_pay17
  rw [shapeCast_self]; rfl
theorem pay18_at (pe : FVec Ideal S64x128 .f32) (v : Vec Ideal S64x128 .f32) (y : S64x128.Idx) : k0_pay18 pe v y = v y + pe y := by
  unfold k0_pay18
  rw [shapeCast_self]; rfl
theorem pay19_at (pe : FVec Ideal S64x128 .f32) (v : Vec Ideal S64x128 .f32) (y : S64x128.Idx) : k0_pay19 pe v y = v y + pe y := by
  unfold k0_pay19
  rw [shapeCast_self]; rfl

/-- One point's step of a column accumulator at entry (r, q): the tile's partial sum if q lies in the columns at the
    point's k, nothing otherwise. -/
theorem cols_step (t : Fin cfg0.N) (pe : FVec Ideal S64x128 .f32) (pay : Vec Ideal S64x128 .f32 → FVec Ideal S64x128 .f32)
    (hpay : ∀ v y, pay v y = v y + pe y) (p : Vec Ideal S64x512 .f32) (r : Fin 64) (q : Fin 512) :
    addCols (grid0.coords t) pay p (ix2 r q)
      = p (ix2 r q) + (if q.val / 128 = t.val % 4 then pe (ix2 r ⟨q.val % 128, Nat.mod_lt _ (by norm_num)⟩) else 0) := by
  obtain ⟨e0, e1⟩ := off_facts t
  by_cases h : q.val / 128 = t.val % 4
  · rw [if_pos h]
    exact addCols_in _ pe pay hpay p r q ⟨q.val % 128, Nat.mod_lt _ (by norm_num)⟩ e0 (by rw [e1]; show q.val = 128 * (t.val % 4) + q.val % 128; omega)
  · rw [if_neg h, add_zero]
    exact addCols_out _ pay p r q (by rw [e1]; omega)

end Cert.KernelIdeal.Body

end
-- ==== Proof.Spec.lean ====
/-
  The loss both programs compute, over the reals.

  A cube x(i, j, k) of reals, 512 on a side, and a flag σ per index. An index triple counts when its three flags agree.
  For each pair of indices (a, b) and each of the three axes, the loss along that axis is the masked negative
  log-likelihood of the softmax along the axis, divided by the number of counted positions (clamped below by ε):
    ( log(Σ_r exp x_r) · D − Σ_r [r counts] x_r ) / max(D, ε),   D = #{r : r counts}
  where "r counts" means σ r agrees with the flags u, v of the pair's two indices. Writing N₁ for the number of
  raised flags, N₀ = 512 − N₁, p = [u ∧ v], q = [¬u ∧ ¬v]:  D = N₁ p + N₀ q and Σ_r [r counts] x_r = p A + q (S − A)
  with S = Σ_r x_r, A = Σ_r [σ r] x_r. The result is the mean over all (a, b) of the sum of the three axes' losses.
-/
import Idealize.ShloMosaic.PureOps.Ideal

noncomputable section

namespace Cert.Spec

open BigOperators

/-- 1 for a raised flag, 0 otherwise. -/
def b2r (b : Bool) : ℝ := if b then 1 else 0

/-- One entry of one axis's loss matrix: `x` runs along the reduced axis, `u v` are the flags of the entry's two
    indices, `σ` the flags along the reduced axis. -/
def famLoss (ε : ℝ) (σ : Fin 512 → Bool) (x : Fin 512 → ℝ) (u v : Bool) : ℝ :=
  (Real.log (∑ r, Real.exp (x r)) * ((∑ r, b2r (σ r)) * (b2r u * b2r v) + (512 - ∑ r, b2r (σ r)) * ((1 - b2r u) * (1 - b2r v)))
      - ((b2r u * b2r v) * (∑ r, b2r (σ r) * x r)
          + ((1 - b2r u) * (1 - b2r v)) * ((∑ r, x r) - ∑ r, b2r (σ r) * x r)))
    / max ((∑ r, b2r (σ r)) * (b2r u * b2r v) + (512 - ∑ r, b2r (σ r)) * ((1 - b2r u) * (1 - b2r v))) ε

/-- The mean over all pairs (a, b) of: the loss along axis 1 at (i, k) = (a, b), plus the loss along axis 2 at
    (i, j) = (a, b), plus the loss along axis 0 at (j, k) = (a, b). -/
def total (ε : ℝ) (σ : Fin 512 → Bool) (x : Fin 512 → Fin 512 → Fin 512 → ℝ) : ℝ :=
  (∑ a, ∑ b, ((famLoss ε σ (fun j => x a j b) (σ a) (σ b) + famLoss ε σ (fun k => x a b k) (σ a) (σ b))
      + famLoss ε σ (fun i => x i a b) (σ a) (σ b))) / 262144

end Cert.Spec

end
-- ==== Proof.KI.Fam2.lean ====
/-
  The three arrays of sums along k, as the run leaves them: entry (a, b) of each is the sum over all 512 depth positions
  of the summand at (a, b, ·). The block of rows 64 i …, columns 128 j … is written back at the last of the four
  points that share (i, j), when its accumulator holds the sum of the four tiles' partial sums.
-/
import proofs.«124184_j88390426951927_2_alg».proof.Proof.KI.Accs
import proofs.«124184_j88390426951927_2_alg».proof.Proof.Spec

set_option maxRecDepth 16384

noncomputable section

open scoped BigOperators

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

variable (c : Dev nD)
variable (xr : Fin 512 → Fin 512 → Fin 512 → ℝ)

/-- The index below 512 with the given value. -/
def fi (k : ℕ) : Fin 512 := ⟨k % 512, Nat.mod_lt _ (by norm_num)⟩
theorem fi_val {k : ℕ} (h : k < 512) : (fi k).val = k := Nat.mod_eq_of_lt h
theorem fi_self (a : Fin 512) : fi a.val = a := Fin.ext (Nat.mod_eq_of_lt a.isLt)

/-- Four tiles of 128 summands make the whole line of 512. -/
theorem tiles4 (f : Fin 512 → ℝ) :
    ∑ s ∈ Finset.range 4, ∑ q : Fin 128, ((f (fi (128 * s + q.val)) : ℝ) : EReal) = ((∑ k, f k : ℝ) : EReal) := by
  have h : ∑ k : Fin 512, ((f k : ℝ) : EReal) = ∑ j : Fin 4, ∑ q : Fin 128, ((f ⟨128 * j.val + q.val, Cert.LibTileSum.tile_lt j q⟩ : ℝ) : EReal) :=
    Cert.LibTileSum.sum_tiles_mul 4 128 (fun k => ((f k : ℝ) : EReal))
  rw [Cert.LibPairSums.coe_sum, h, Finset.sum_range]
  refine Finset.sum_congr rfl fun s _ => Finset.sum_congr rfl fun q _ => ?_
  refine congrArg (fun k => ((f k : ℝ) : EReal)) (Fin.ext ?_)
  show (128 * s.val + q.val) % 512 = 128 * s.val + q.val
  have := s.isLt; have := q.isLt; omega

/-! ## Array 7: Σ_k exp x(a, b, k) -/

/-- What the array ends holding. -/
def G7 : S512x512.Idx → EReal := fun z => ((∑ k, Real.exp (xr (fi (z 0).val) (fi (z 1).val) k) : ℝ) : EReal)

/-- One tile's partial sum at (r, j), as reals of the cube. -/
theorem M7_at (hx : ∀ a b d : Fin 512, V m c main_arg0 (ix3 a b d) = ((xr a b d : ℝ) : EReal))
    (n : ℕ) (hn : n < cfg0.N) (r : Fin 64) (j : Fin 128) :
    k0_pay6 (iblk m c 0 ⟨n, hn⟩) (ix2 r j)
      = ∑ q : Fin 128, ((Real.exp (xr (fi (64 * (n / 16) + r.val)) (fi (128 * (n / 4 % 4) + j.val)) (fi (128 * (n % 4) + q.val))) : ℝ) : EReal) := by
  have hN : n < 128 := lt_of_lt_of_eq hn N_0
  rw [pay6_at]
  refine Finset.sum_congr rfl fun q _ => ?_
  have e := iblk0_at m c ⟨n, hn⟩ (ix3 r j q) (ix3 (fi (64 * (n / 16) + r.val)) (fi (128 * (n / 4 % 4) + j.val)) (fi (128 * (n % 4) + q.val)))
    (by show (fi _).val = 64 * (n / 16) + r.val; rw [fi_val (by have := r.isLt; omega)])
    (by show (fi _).val = 128 * (n / 4 % 4) + j.val; rw [fi_val (by have := j.isLt; omega)])
    (by show (fi _).val = 128 * (n % 4) + q.val; rw [fi_val (by have := q.isLt; omega)])
  rw [e, hx]; rfl

/-- At the last of the four points of a run the accumulator holds the whole line's sum. -/
theorem acc7_flush (hx : ∀ a b d : Fin 512, V m c main_arg0 (ix3 a b d) = ((xr a b d : ℝ) : EReal))
    (t : Fin cfg0.N) (h3 : t.val % 4 = 3) (r : Fin 64) (j : Fin 128) :
    acc7 m c t.val t.isLt (ix2 r j) = ((∑ k, Real.exp (xr (fi (64 * (t.val / 16) + r.val)) (fi (128 * (t.val / 4 % 4) + j.val)) k) : ℝ) : EReal) := by
  have hN : t.val < 128 := lt_of_lt_of_eq t.isLt N_0
  have hs := acc_run_sum (fun (v : Vec Ideal S64x128 .f32) (rj : Fin 64 × Fin 128) => v (ix2 rj.1 rj.2)) 4 (by norm_num)
    (k0_pay20 (F := Ideal)) (fun y => pay20_zero _)
    (fun n hn p => o7 (iblk m c 0 ⟨n, hn⟩) p)
    (fun n rj => if h : n < cfg0.N then k0_pay6 (iblk m c 0 ⟨n, h⟩) (ix2 rj.1 rj.2) else 0)
    (fun n h p y => by show o7 _ p _ = _; rw [o7_at, dif_pos h]) t.val t.isLt (r, j)
  refine hs.trans ?_
  rw [h3, ← tiles4]
  refine Finset.sum_congr rfl fun s hs' => ?_
  have hs4 : s < 4 := Finset.mem_range.mp hs'
  have hn : 4 * (t.val / 4) + s < cfg0.N := by have hc : cfg0.N = 128 := N_0; omega
  rw [dif_pos hn, M7_at m c xr hx _ hn r j]
  have e1 : (4 * (t.val / 4) + s) / 16 = t.val / 16 := by omega
  have e2 : (4 * (t.val / 4) + s) / 4 % 4 = t.val / 4 % 4 := by omega
  have e3 : (4 * (t.val / 4) + s) % 4 = s := by omega
  rw [e1, e2, e3]

/-- What a flushing point writes back is its block of the array's closed form. -/
theorem flushed7_eq (hx : ∀ a b d : Fin 512, V m c main_arg0 (ix3 a b d) = ((xr a b d : ℝ) : EReal))
    (t : Fin cfg0.N) (hf : (cfg0.win 7).flush t = true) :
    (dats m 0 c).flushed 7 t = ((cfg0.win 7).blk t).view.read (Elt Ideal) (G7 xr) := by
  have h3 : t.val % 4 = 3 := (flush0_7 t).mp hf
  show (cfg0.win 7).cut (grid0.coords t) ((dats m 0 c).after 7 t) = _
  rw [after0_7]
  funext y
  obtain ⟨r, j, rfl⟩ : ∃ (r : Fin 64) (j : Fin 128), y = ix2 r j := ⟨y 0, y 1, eq_ix2 y⟩
  show acc7 m c t.val t.isLt (ix2 r j) = G7 xr (((cfg0.win 7).blk t).view.emb (ix2 r j))
  rw [acc7_flush m c xr hx t h3 r j]
  obtain ⟨-, -, -, -, -, -, e70, e71, e80, e81, e90, e91, -⟩ := out_facts t
  have z0 : ((((cfg0.win 7).blk t).view.emb (ix2 r j)) 0).val = 64 * (t.val / 16) + r.val := by
    show win0_7.index t (0 : Fin 2) * 64 + 1 * r.val = _; omega
  have z1 : ((((cfg0.win 7).blk t).view.emb (ix2 r j)) 1).val = 128 * (t.val / 4 % 4) + j.val := by
    show win0_7.index t (1 : Fin 2) * 128 + 1 * j.val = _; omega
  unfold G7
  rw [z0, z1]

theorem mem_blk7 (t : Fin cfg0.N) (i : S512x512.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v9_3).slice (win0_7.rect t)).set ↔ _
  rw [View.set_slice_whole, Rect.mem_set_unit]
  exact Iff.rfl

/-- Every entry lies in the block of some flushing point. -/
theorem cover7 (i : S512x512.Idx) : ∃ t : Fin cfg0.N, (cfg0.win 7).flush t = true ∧ i ∈ ((cfg0.win 7).blk t).view.set := by
  have h0 : (i 0).val < 512 := (i 0).isLt
  have h1 : (i 1).val < 512 := (i 1).isLt
  have hb : 16 * ((i 0).val / 64) + 4 * ((i 1).val / 128) + 3 < cfg0.N := by have hc : cfg0.N = 128 := N_0; omega
  refine ⟨⟨16 * ((i 0).val / 64) + 4 * ((i 1).val / 128) + 3, hb⟩, (flush0_7 _).mpr (by show (16 * ((i 0).val / 64) + 4 * ((i 1).val / 128) + 3) % 4 = 3; omega), ?_⟩
  rw [mem_blk7]
  obtain ⟨-, -, -, -, -, -, e70, e71, e80, e81, e90, e91, -⟩ := out_facts ⟨16 * ((i 0).val / 64) + 4 * ((i 1).val / 128) + 3, hb⟩
  intro a
  match a with
  | ⟨0, _⟩ =>
    show win0_7.index _ (0 : Fin 2) * 64 ≤ (i 0).val ∧ (i 0).val < win0_7.index _ (0 : Fin 2) * 64 + 64
    rw [e70]; show (16 * ((i 0).val / 64) + 4 * ((i 1).val / 128) + 3) / 16 * 64 ≤ (i 0).val ∧ (i 0).val < (16 * ((i 0).val / 64) + 4 * ((i 1).val / 128) + 3) / 16 * 64 + 64
    omega
  | ⟨1, _⟩ =>
    show win0_7.index _ (1 : Fin 2) * 128 ≤ (i 1).val ∧ (i 1).val < win0_7.index _ (1 : Fin 2) * 128 + 128
    rw [e71]; show (16 * ((i 0).val / 64) + 4 * ((i 1).val / 128) + 3) / 4 % 4 * 128 ≤ (i 1).val ∧ (i 1).val < (16 * ((i 0).val / 64) + 4 * ((i 1).val / 128) + 3) / 4 % 4 * 128 + 128
    omega

/-- The array after the run. -/
theorem final7 (hx : ∀ a b d : Fin 512, V m c main_arg0 (ix3 a b d) = ((xr a b d : ℝ) : EReal)) :
    (dats m 0 c).arrAt 7 cfg0.N = G7 xr :=
  (dats m 0 c).arrAt_eq_of_cover 7 (G7 xr) (fun t hf => flushed7_eq m c xr hx t hf) cover7

/-! ## Array 8: Σ_k x(a, b, k) -/

/-- What the array ends holding. -/
def G8 : S512x512.Idx → EReal := fun z => ((∑ k, xr (fi (z 0).val) (fi (z 1).val) k : ℝ) : EReal)

/-- One tile's partial sum at (r, j), as reals of the cube. -/
theorem M8_at (hx : ∀ a b d : Fin 512, V m c main_arg0 (ix3 a b d) = ((xr a b d : ℝ) : EReal))
    (n : ℕ) (hn : n < cfg0.N) (r : Fin 64) (j : Fin 128) :
    k0_pay9 (iblk m c 0 ⟨n, hn⟩) (ix2 r j)
      = ∑ q : Fin 128, ((xr (fi (64 * (n / 16) + r.val)) (fi (128 * (n / 4 % 4) + j.val)) (fi (128 * (n % 4) + q.val)) : ℝ) : EReal) := by
  have hN : n < 128 := lt_of_lt_of_eq hn N_0
  rw [pay9_at]
  refine Finset.sum_congr rfl fun q _ => ?_
  have e := iblk0_at m c ⟨n, hn⟩ (ix3 r j q) (ix3 (fi (64 * (n / 16) + r.val)) (fi (128 * (n / 4 % 4) + j.val)) (fi (128 * (n % 4) + q.val)))
    (by show (fi _).val = 64 * (n / 16) + r.val; rw [fi_val (by have := r.isLt; omega)])
    (by show (fi _).val = 128 * (n / 4 % 4) + j.val; rw [fi_val (by have := j.isLt; omega)])
    (by show (fi _).val = 128 * (n % 4) + q.val; rw [fi_val (by have := q.isLt; omega)])
  rw [e, hx]

/-- At the last of the four points of a run the accumulator holds the whole line's sum. -/
theorem acc8_flush (hx : ∀ a b d : Fin 512, V m c main_arg0 (ix3 a b d) = ((xr a b d : ℝ) : EReal))
    (t : Fin cfg0.N) (h3 : t.val % 4 = 3) (r : Fin 64) (j : Fin 128) :
    acc8 m c t.val t.isLt (ix2 r j) = ((∑ k, xr (fi (64 * (t.val / 16) + r.val)) (fi (128 * (t.val / 4 % 4) + j.val)) k : ℝ) : EReal) := by
  have hN : t.val < 128 := lt_of_lt_of_eq t.isLt N_0
  have hs := acc_run_sum (fun (v : Vec Ideal S64x128 .f32) (rj : Fin 64 × Fin 128) => v (ix2 rj.1 rj.2)) 4 (by norm_num)
    (k0_pay21 (F := Ideal)) (fun y => pay21_zero _)
    (fun n hn p => o8 (iblk m c 0 ⟨n, hn⟩) p)
    (fun n rj => if h : n < cfg0.N then k0_pay9 (iblk m c 0 ⟨n, h⟩) (ix2 rj.1 rj.2) else 0)
    (fun n h p y => by show o8 _ p _ = _; rw [o8_at, dif_pos h]) t.val t.isLt (r, j)
  refine hs.trans ?_
  rw [h3, ← tiles4]
  refine Finset.sum_congr rfl fun s hs' => ?_
  have hs4 : s < 4 := Finset.mem_range.mp hs'
  have hn : 4 * (t.val / 4) + s < cfg0.N := by have hc : cfg0.N = 128 := N_0; omega
  rw [dif_pos hn, M8_at m c xr hx _ hn r j]
  have e1 : (4 * (t.val / 4) + s) / 16 = t.val / 16 := by omega
  have e2 : (4 * (t.val / 4) + s) / 4 % 4 = t.val / 4 % 4 := by omega
  have e3 : (4 * (t.val / 4) + s) % 4 = s := by omega
  rw [e1, e2, e3]

/-- What a flushing point writes back is its block of the array's closed form. -/
theorem flushed8_eq (hx : ∀ a b d : Fin 512, V m c main_arg0 (ix3 a b d) = ((xr a b d : ℝ) : EReal))
    (t : Fin cfg0.N) (hf : (cfg0.win 8).flush t = true) :
    (dats m 0 c).flushed 8 t = ((cfg0.win 8).blk t).view.read (Elt Ideal) (G8 xr) := by
  have h3 : t.val % 4 = 3 := (flush0_8 t).mp hf
  show (cfg0.win 8).cut (grid0.coords t) ((dats m 0 c).after 8 t) = _
  rw [after0_8]
  funext y
  obtain ⟨r, j, rfl⟩ : ∃ (r : Fin 64) (j : Fin 128), y = ix2 r j := ⟨y 0, y 1, eq_ix2 y⟩
  show acc8 m c t.val t.isLt (ix2 r j) = G8 xr (((cfg0.win 8).blk t).view.emb (ix2 r j))
  rw [acc8_flush m c xr hx t h3 r j]
  obtain ⟨-, -, -, -, -, -, e70, e71, e80, e81, e90, e91, -⟩ := out_facts t
  have z0 : ((((cfg0.win 8).blk t).view.emb (ix2 r j)) 0).val = 64 * (t.val / 16) + r.val := by
    show win0_8.index t (0 : Fin 2) * 64 + 1 * r.val = _; omega
  have z1 : ((((cfg0.win 8).blk t).view.emb (ix2 r j)) 1).val = 128 * (t.val / 4 % 4) + j.val := by
    show win0_8.index t (1 : Fin 2) * 128 + 1 * j.val = _; omega
  unfold G8
  rw [z0, z1]

theorem mem_blk8 (t : Fin cfg0.N) (i : S512x512.Idx) :
    i ∈ ((cfg0.win 8).blk t).view.set ↔ ∀ a : Fin 2, win0_8.index t a * S64x128.size a ≤ (i a).val ∧ (i a).val < win0_8.index t a * S64x128.size a + S64x128.size a := by
  show i ∈ ((View.whole main_v9_4).slice (win0_8.rect t)).set ↔ _
  rw [View.set_slice_whole, Rect.mem_set_unit]
  exact Iff.rfl

/-- Every entry lies in the block of some flushing point. -/
theorem cover8 (i : S512x512.Idx) : ∃ t : Fin cfg0.N, (cfg0.win 8).flush t = true ∧ i ∈ ((cfg0.win 8).blk t).view.set := by
  have h0 : (i 0).val < 512 := (i 0).isLt
  have h1 : (i 1).val < 512 := (i 1).isLt
  have hb : 16 * ((i 0).val / 64) + 4 * ((i 1).val / 128) + 3 < cfg0.N := by have hc : cfg0.N = 128 := N_0; omega
  refine ⟨⟨16 * ((i 0).val / 64) + 4 * ((i 1).val / 128) + 3, hb⟩, (flush0_8 _).mpr (by show (16 * ((i 0).val / 64) + 4 * ((i 1).val / 128) + 3) % 4 = 3; omega), ?_⟩
  rw [mem_blk8]
  obtain ⟨-, -, -, -, -, -, e70, e71, e80, e81, e90, e91, -⟩ := out_facts ⟨16 * ((i 0).val / 64) + 4 * ((i 1).val / 128) + 3, hb⟩
  intro a
  match a with
  | ⟨0, _⟩ =>
    show win0_8.index _ (0 : Fin 2) * 64 ≤ (i 0).val ∧ (i 0).val < win0_8.index _ (0 : Fin 2) * 64 + 64
    rw [e80]; show (16 * ((i 0).val / 64) + 4 * ((i 1).val / 128) + 3) / 16 * 64 ≤ (i 0).val ∧ (i 0).val < (16 * ((i 0).val / 64) + 4 * ((i 1).val / 128) + 3) / 16 * 64 + 64
    omega
  | ⟨1, _⟩ =>
    show win0_8.index _ (1 : Fin 2) * 128 ≤ (i 1).val ∧ (i 1).val < win0_8.index _ (1 : Fin 2) * 128 + 128
    rw [e81]; show (16 * ((i 0).val / 64) + 4 * ((i 1).val / 128) + 3) / 4 % 4 * 128 ≤ (i 1).val ∧ (i 1).val < (16 * ((i 0).val / 64) + 4 * ((i 1).val / 128) + 3) / 4 % 4 * 128 + 128
    omega

/-- The array after the run. -/
theorem final8 (hx : ∀ a b d : Fin 512, V m c main_arg0 (ix3 a b d) = ((xr a b d : ℝ) : EReal)) :
    (dats m 0 c).arrAt 8 cfg0.N = G8 xr :=
  (dats m 0 c).arrAt_eq_of_cover 8 (G8 xr) (fun t hf => flushed8_eq m c xr hx t hf) cover8

/-! ## Array 9: Σ_k s_k · x(a, b, k) -/

/-- What the array ends holding. -/
def G9 (σ : Fin 512 → Bool) : S512x512.Idx → EReal := fun z => ((∑ k, Cert.Spec.b2r (σ k) * xr (fi (z 0).val) (fi (z 1).val) k : ℝ) : EReal)

/-- One tile's partial sum at (r, j), as reals of the cube. -/
theorem M9_at (σ : Fin 512 → Bool) (hx : ∀ a b d : Fin 512, V m c main_arg0 (ix3 a b d) = ((xr a b d : ℝ) : EReal)) (hd : ∀ a : Fin 512, V m c main_v8 (ix3 0 0 a) = ((Cert.Spec.b2r (σ a) : ℝ) : EReal))
    (n : ℕ) (hn : n < cfg0.N) (r : Fin 64) (j : Fin 128) :
    k0_pay12 (iblk m c 0 ⟨n, hn⟩) (iblk m c 3 ⟨n, hn⟩) (ix2 r j)
      = ∑ q : Fin 128, ((Cert.Spec.b2r (σ (fi (128 * (n % 4) + q.val))) * xr (fi (64 * (n / 16) + r.val)) (fi (128 * (n / 4 % 4) + j.val)) (fi (128 * (n % 4) + q.val)) : ℝ) : EReal) := by
  have hN : n < 128 := lt_of_lt_of_eq hn N_0
  rw [pay12_at]
  refine Finset.sum_congr rfl fun q _ => ?_
  have e := iblk0_at m c ⟨n, hn⟩ (ix3 r j q) (ix3 (fi (64 * (n / 16) + r.val)) (fi (128 * (n / 4 % 4) + j.val)) (fi (128 * (n % 4) + q.val)))
    (by show (fi _).val = 64 * (n / 16) + r.val; rw [fi_val (by have := r.isLt; omega)])
    (by show (fi _).val = 128 * (n / 4 % 4) + j.val; rw [fi_val (by have := j.isLt; omega)])
    (by show (fi _).val = 128 * (n % 4) + q.val; rw [fi_val (by have := q.isLt; omega)])
  have e3 := iblk3_at m c ⟨n, hn⟩ (ix3 0 0 q) (ix3 0 0 (fi (128 * (n % 4) + q.val)))
    (by show (fi _).val = 128 * (n % 4) + q.val; rw [fi_val (by have := q.isLt; omega)])
  rw [e, hx, e3, hd, ← EReal.coe_mul]

/-- At the last of the four points of a run the accumulator holds the whole line's sum. -/
theorem acc9_flush (σ : Fin 512 → Bool) (hx : ∀ a b d : Fin 512, V m c main_arg0 (ix3 a b d) = ((xr a b d : ℝ) : EReal)) (hd : ∀ a : Fin 512, V m c main_v8 (ix3 0 0 a) = ((Cert.Spec.b2r (σ a) : ℝ) : EReal))
    (t : Fin cfg0.N) (h3 : t.val % 4 = 3) (r : Fin 64) (j : Fin 128) :
    acc9 m c t.val t.isLt (ix2 r j) = ((∑ k, Cert.Spec.b2r (σ k) * xr (fi (64 * (t.val / 16) + r.val)) (fi (128 * (t.val / 4 % 4) + j.val)) k : ℝ) : EReal) := by
  have hN : t.val < 128 := lt_of_lt_of_eq t.isLt N_0
  have hs := acc_run_sum (fun (v : Vec Ideal S64x128 .f32) (rj : Fin 64 × Fin 128) => v (ix2 rj.1 rj.2)) 4 (by norm_num)
    (k0_pay22 (F := Ideal)) (fun y => pay22_zero _)
    (fun n hn p => o9 (iblk m c 0 ⟨n, hn⟩) (iblk m c 3 ⟨n, hn⟩) p)
    (fun n rj => if h : n < cfg0.N then k0_pay12 (iblk m c 0 ⟨n, h⟩) (iblk m c 3 ⟨n, h⟩) (ix2 rj.1 rj.2) else 0)
    (fun n h p y => by show o9 _ _ p _ = _; rw [o9_at, dif_pos h]) t.val t.isLt (r, j)
  refine hs.trans ?_
  rw [h3, ← tiles4]
  refine Finset.sum_congr rfl fun s hs' => ?_
  have hs4 : s < 4 := Finset.mem_range.mp hs'
  have hn : 4 * (t.val / 4) + s < cfg0.N := by have hc : cfg0.N = 128 := N_0; omega
  rw [dif_pos hn, M9_at m c xr σ hx hd _ hn r j]
  have e1 : (4 * (t.val / 4) + s) / 16 = t.val / 16 := by omega
  have e2 : (4 * (t.val / 4) + s) / 4 % 4 = t.val / 4 % 4 := by omega
  have e3 : (4 * (t.val / 4) + s) % 4 = s := by omega
  rw [e1, e2, e3]

/-- What a flushing point writes back is its block of the array's closed form. -/
theorem flushed9_eq (σ : Fin 512 → Bool) (hx : ∀ a b d : Fin 512, V m c main_arg0 (ix3 a b d) = ((xr a b d : ℝ) : EReal)) (hd : ∀ a : Fin 512, V m c main_v8 (ix3 0 0 a) = ((Cert.Spec.b2r (σ a) : ℝ) : EReal))
    (t : Fin cfg0.N) (hf : (cfg0.win 9).flush t = true) :
    (dats m 0 c).flushed 9 t = ((cfg0.win 9).blk t).view.read (Elt Ideal) (G9 xr σ) := by
  have h3 : t.val % 4 = 3 := (flush0_9 t).mp hf
  show (cfg0.win 9).cut (grid0.coords t) ((dats m 0 c).after 9 t) = _
  rw [after0_9]
  funext y
  obtain ⟨r, j, rfl⟩ : ∃ (r : Fin 64) (j : Fin 128), y = ix2 r j := ⟨y 0, y 1, eq_ix2 y⟩
  show acc9 m c t.val t.isLt (ix2 r j) = G9 xr σ (((cfg0.win 9).blk t).view.emb (ix2 r j))
  rw [acc9_flush m c xr σ hx hd t h3 r j]
  obtain ⟨-, -, -, -, -, -, e70, e71, e80, e81, e90, e91, -⟩ := out_facts t
  have z0 : ((((cfg0.win 9).blk t).view.emb (ix2 r j)) 0).val = 64 * (t.val / 16) + r.val := by
    show win0_9.index t (0 : Fin 2) * 64 + 1 * r.val = _; omega
  have z1 : ((((cfg0.win 9).blk t).view.emb (ix2 r j)) 1).val = 128 * (t.val / 4 % 4) + j.val := by
    show win0_9.index t (1 : Fin 2) * 128 + 1 * j.val = _; omega
  unfold G9
  rw [z0, z1]

theorem mem_blk9 (t : Fin cfg0.N) (i : S512x512.Idx) :
    i ∈ ((cfg0.win 9).blk t).view.set ↔ ∀ a : Fin 2, win0_9.index t a * S64x128.size a ≤ (i a).val ∧ (i a).val < win0_9.index t a * S64x128.size a + S64x128.size a := by
  show i ∈ ((View.whole main_v9_5).slice (win0_9.rect t)).set ↔ _
  rw [View.set_slice_whole, Rect.mem_set_unit]
  exact Iff.rfl

/-- Every entry lies in the block of some flushing point. -/
theorem cover9 (i : S512x512.Idx) : ∃ t : Fin cfg0.N, (cfg0.win 9).flush t = true ∧ i ∈ ((cfg0.win 9).blk t).view.set := by
  have h0 : (i 0).val < 512 := (i 0).isLt
  have h1 : (i 1).val < 512 := (i 1).isLt
  have hb : 16 * ((i 0).val / 64) + 4 * ((i 1).val / 128) + 3 < cfg0.N := by have hc : cfg0.N = 128 := N_0; omega
  refine ⟨⟨16 * ((i 0).val / 64) + 4 * ((i 1).val / 128) + 3, hb⟩, (flush0_9 _).mpr (by show (16 * ((i 0).val / 64) + 4 * ((i 1).val / 128) + 3) % 4 = 3; omega), ?_⟩
  rw [mem_blk9]
  obtain ⟨-, -, -, -, -, -, e70, e71, e80, e81, e90, e91, -⟩ := out_facts ⟨16 * ((i 0).val / 64) + 4 * ((i 1).val / 128) + 3, hb⟩
  intro a
  match a with
  | ⟨0, _⟩ =>
    show win0_9.index _ (0 : Fin 2) * 64 ≤ (i 0).val ∧ (i 0).val < win0_9.index _ (0 : Fin 2) * 64 + 64
    rw [e90]; show (16 * ((i 0).val / 64) + 4 * ((i 1).val / 128) + 3) / 16 * 64 ≤ (i 0).val ∧ (i 0).val < (16 * ((i 0).val / 64) + 4 * ((i 1).val / 128) + 3) / 16 * 64 + 64
    omega
  | ⟨1, _⟩ =>
    show win0_9.index _ (1 : Fin 2) * 128 ≤ (i 1).val ∧ (i 1).val < win0_9.index _ (1 : Fin 2) * 128 + 128
    rw [e91]; show (16 * ((i 0).val / 64) + 4 * ((i 1).val / 128) + 3) / 4 % 4 * 128 ≤ (i 1).val ∧ (i 1).val < (16 * ((i 0).val / 64) + 4 * ((i 1).val / 128) + 3) / 4 % 4 * 128 + 128
    omega

/-- The array after the run. -/
theorem final9 (σ : Fin 512 → Bool) (hx : ∀ a b d : Fin 512, V m c main_arg0 (ix3 a b d) = ((xr a b d : ℝ) : EReal)) (hd : ∀ a : Fin 512, V m c main_v8 (ix3 0 0 a) = ((Cert.Spec.b2r (σ a) : ℝ) : EReal)) :
    (dats m 0 c).arrAt 9 cfg0.N = G9 xr σ :=
  (dats m 0 c).arrAt_eq_of_cover 9 (G9 xr σ) (fun t hf => flushed9_eq m c xr σ hx hd t hf) cover9

end Cert.KernelIdeal.Body

end
-- ==== Proof.KI.Fam0.lean ====
/-
  The three stacks of sums along i, as the run leaves them: slab ib, entry (a, b), is the sum over the 64 rows
  64 ib, …, 64 ib + 63 of the summand at (row, a, b). Every point writes its own [1, 128, 128] piece of its slab once.
-/
import proofs.«124184_j88390426951927_2_alg».proof.Proof.KI.Fam2

set_option maxRecDepth 16384

noncomputable section

open scoped BigOperators

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

variable (c : Dev nD)
variable (xr : Fin 512 → Fin 512 → Fin 512 → ℝ)

/-! ## Array 10: Σ_r exp x(64 ib + r, a, b) -/

/-- What the array ends holding. -/
def G10 : S8x512x512.Idx → EReal := fun z =>
  ((∑ r : Fin 64, Real.exp (xr (fi (64 * (z 0).val + r.val)) (fi (z 1).val) (fi (z 2).val)) : ℝ) : EReal)

/-- The tile's sum over its 64 rows at (j, q), as reals of the cube. -/
theorem S10_at (hx : ∀ a b d : Fin 512, V m c main_arg0 (ix3 a b d) = ((xr a b d : ℝ) : EReal))
    (t : Fin cfg0.N) (j q : Fin 128) :
    k0_pay7 (iblk m c 0 t) (ix2 j q) = ∑ r : Fin 64, ((Real.exp (xr (fi (64 * (t.val / 16) + r.val)) (fi (128 * (t.val / 4 % 4) + j.val)) (fi (128 * (t.val % 4) + q.val))) : ℝ) : EReal) := by
  have hN : t.val < 128 := lt_of_lt_of_eq t.isLt N_0
  rw [pay7_at]
  refine Finset.sum_congr rfl fun r _ => ?_
  have e := iblk0_at m c t (ix3 r j q) (ix3 (fi (64 * (t.val / 16) + r.val)) (fi (128 * (t.val / 4 % 4) + j.val)) (fi (128 * (t.val % 4) + q.val)))
    (by show (fi _).val = 64 * (t.val / 16) + r.val; rw [fi_val (by have := r.isLt; omega)])
    (by show (fi _).val = 128 * (t.val / 4 % 4) + j.val; rw [fi_val (by have := j.isLt; omega)])
    (by show (fi _).val = 128 * (t.val % 4) + q.val; rw [fi_val (by have := q.isLt; omega)])
  rw [e, hx]; rfl

/-- What a point writes back is its slab of the array's closed form. -/
theorem flushed10_eq (hx : ∀ a b d : Fin 512, V m c main_arg0 (ix3 a b d) = ((xr a b d : ℝ) : EReal))
    (t : Fin cfg0.N) :
    (dats m 0 c).flushed 10 t = ((cfg0.win 10).blk t).view.read (Elt Ideal) (G10 xr) := by
  have hN : t.val < 128 := lt_of_lt_of_eq t.isLt N_0
  show (cfg0.win 10).cut (grid0.coords t) ((dats m 0 c).after 10 t) = _
  rw [after0_10]
  funext y
  obtain ⟨u, j, q, rfl⟩ : ∃ (u : Fin 1) (j q : Fin 128), y = ix3 u j q := ⟨y 0, y 1, y 2, eq_ix3 y⟩
  show o10 (iblk m c 0 t) (ix3 u j q) = G10 xr (((cfg0.win 10).blk t).view.emb (ix3 u j q))
  have hu : u.val = 0 := by have := u.isLt; omega
  have hl : o10 (iblk m c 0 t) (ix3 u j q) = k0_pay7 (iblk m c 0 t) (ix2 j q) := by
    unfold o10 k0_pay1
    refine (shapeCast_addUnit_apply ![128, 128] _ shapeCasts_S128x128_S1x128x128 (ix3 u j q)).trans (congrArg _ ?_)
    funext a; match a with | ⟨0, _⟩ => rfl | ⟨1, _⟩ => rfl
  rw [hl, S10_at m c xr hx t j q, ← Cert.LibPairSums.coe_sum]
  obtain ⟨-, -, -, -, -, -, -, -, -, -, -, -, e100, e101, e102, e110, e111, e112, e120, e121, e122⟩ := out_facts t
  have z0 : ((((cfg0.win 10).blk t).view.emb (ix3 u j q)) 0).val = t.val / 16 := by
    show win0_10.index t (0 : Fin 3) * 1 + 1 * u.val = _; omega
  have z1 : ((((cfg0.win 10).blk t).view.emb (ix3 u j q)) 1).val = 128 * (t.val / 4 % 4) + j.val := by
    show win0_10.index t (1 : Fin 3) * 128 + 1 * j.val = _; omega
  have z2 : ((((cfg0.win 10).blk t).view.emb (ix3 u j q)) 2).val = 128 * (t.val % 4) + q.val := by
    show win0_10.index t (2 : Fin 3) * 128 + 1 * q.val = _; omega
  unfold G10
  rw [z0, z1, z2]

theorem mem_blk10 (t : Fin cfg0.N) (i : S8x512x512.Idx) :
    i ∈ ((cfg0.win 10).blk t).view.set ↔ ∀ a : Fin 3, win0_10.index t a * S1x128x128.size a ≤ (i a).val ∧ (i a).val < win0_10.index t a * S1x128x128.size a + S1x128x128.size a := by
  show i ∈ ((View.whole main_v9_6).slice (win0_10.rect t)).set ↔ _
  rw [View.set_slice_whole, Rect.mem_set_unit]
  exact Iff.rfl

/-- Every entry lies in some point's slab. -/
theorem cover10 (i : S8x512x512.Idx) : ∃ t : Fin cfg0.N, (cfg0.win 10).flush t = true ∧ i ∈ ((cfg0.win 10).blk t).view.set := by
  have h0 : (i 0).val < 8 := (i 0).isLt
  have h1 : (i 1).val < 512 := (i 1).isLt
  have h2 : (i 2).val < 512 := (i 2).isLt
  have hb : 16 * (i 0).val + 4 * ((i 1).val / 128) + (i 2).val / 128 < cfg0.N := by have hc : cfg0.N = 128 := N_0; omega
  refine ⟨⟨16 * (i 0).val + 4 * ((i 1).val / 128) + (i 2).val / 128, hb⟩, flush0_10 _, ?_⟩
  rw [mem_blk10]
  obtain ⟨-, -, -, -, -, -, -, -, -, -, -, -, e100, e101, e102, e110, e111, e112, e120, e121, e122⟩ := out_facts ⟨16 * (i 0).val + 4 * ((i 1).val / 128) + (i 2).val / 128, hb⟩
  intro a
  match a with
  | ⟨0, _⟩ =>
    show win0_10.index _ (0 : Fin 3) * 1 ≤ (i 0).val ∧ (i 0).val < win0_10.index _ (0 : Fin 3) * 1 + 1
    rw [e100]; show (16 * (i 0).val + 4 * ((i 1).val / 128) + (i 2).val / 128) / 16 * 1 ≤ (i 0).val ∧ (i 0).val < (16 * (i 0).val + 4 * ((i 1).val / 128) + (i 2).val / 128) / 16 * 1 + 1
    omega
  | ⟨1, _⟩ =>
    show win0_10.index _ (1 : Fin 3) * 128 ≤ (i 1).val ∧ (i 1).val < win0_10.index _ (1 : Fin 3) * 128 + 128
    rw [e101]; show (16 * (i 0).val + 4 * ((i 1).val / 128) + (i 2).val / 128) / 4 % 4 * 128 ≤ (i 1).val ∧ (i 1).val < (16 * (i 0).val + 4 * ((i 1).val / 128) + (i 2).val / 128) / 4 % 4 * 128 + 128
    omega
  | ⟨2, _⟩ =>
    show win0_10.index _ (2 : Fin 3) * 128 ≤ (i 2).val ∧ (i 2).val < win0_10.index _ (2 : Fin 3) * 128 + 128
    rw [e102]; show (16 * (i 0).val + 4 * ((i 1).val / 128) + (i 2).val / 128) % 4 * 128 ≤ (i 2).val ∧ (i 2).val < (16 * (i 0).val + 4 * ((i 1).val / 128) + (i 2).val / 128) % 4 * 128 + 128
    omega

/-- The array after the run. -/
theorem final10 (hx : ∀ a b d : Fin 512, V m c main_arg0 (ix3 a b d) = ((xr a b d : ℝ) : EReal)) :
    (dats m 0 c).arrAt 10 cfg0.N = G10 xr :=
  (dats m 0 c).arrAt_eq_of_cover 10 (G10 xr) (fun t _ => flushed10_eq m c xr hx t) cover10

/-! ## Array 11: Σ_r x(64 ib + r, a, b) -/

/-- What the array ends holding. -/
def G11 : S8x512x512.Idx → EReal := fun z =>
  ((∑ r : Fin 64, xr (fi (64 * (z 0).val + r.val)) (fi (z 1).val) (fi (z 2).val) : ℝ) : EReal)

/-- The tile's sum over its 64 rows at (j, q), as reals of the cube. -/
theorem S11_at (hx : ∀ a b d : Fin 512, V m c main_arg0 (ix3 a b d) = ((xr a b d : ℝ) : EReal))
    (t : Fin cfg0.N) (j q : Fin 128) :
    k0_pay10 (iblk m c 0 t) (ix2 j q) = ∑ r : Fin 64, ((xr (fi (64 * (t.val / 16) + r.val)) (fi (128 * (t.val / 4 % 4) + j.val)) (fi (128 * (t.val % 4) + q.val)) : ℝ) : EReal) := by
  have hN : t.val < 128 := lt_of_lt_of_eq t.isLt N_0
  rw [pay10_at]
  refine Finset.sum_congr rfl fun r _ => ?_
  have e := iblk0_at m c t (ix3 r j q) (ix3 (fi (64 * (t.val / 16) + r.val)) (fi (128 * (t.val / 4 % 4) + j.val)) (fi (128 * (t.val % 4) + q.val)))
    (by show (fi _).val = 64 * (t.val / 16) + r.val; rw [fi_val (by have := r.isLt; omega)])
    (by show (fi _).val = 128 * (t.val / 4 % 4) + j.val; rw [fi_val (by have := j.isLt; omega)])
    (by show (fi _).val = 128 * (t.val % 4) + q.val; rw [fi_val (by have := q.isLt; omega)])
  rw [e, hx]

/-- What a point writes back is its slab of the array's closed form. -/
theorem flushed11_eq (hx : ∀ a b d : Fin 512, V m c main_arg0 (ix3 a b d) = ((xr a b d : ℝ) : EReal))
    (t : Fin cfg0.N) :
    (dats m 0 c).flushed 11 t = ((cfg0.win 11).blk t).view.read (Elt Ideal) (G11 xr) := by
  have hN : t.val < 128 := lt_of_lt_of_eq t.isLt N_0
  show (cfg0.win 11).cut (grid0.coords t) ((dats m 0 c).after 11 t) = _
  rw [after0_11]
  funext y
  obtain ⟨u, j, q, rfl⟩ : ∃ (u : Fin 1) (j q : Fin 128), y = ix3 u j q := ⟨y 0, y 1, y 2, eq_ix3 y⟩
  show o11 (iblk m c 0 t) (ix3 u j q) = G11 xr (((cfg0.win 11).blk t).view.emb (ix3 u j q))
  have hu : u.val = 0 := by have := u.isLt; omega
  have hl : o11 (iblk m c 0 t) (ix3 u j q) = k0_pay10 (iblk m c 0 t) (ix2 j q) := by
    unfold o11 k0_pay2
    refine (shapeCast_addUnit_apply ![128, 128] _ shapeCasts_S128x128_S1x128x128 (ix3 u j q)).trans (congrArg _ ?_)
    funext a; match a with | ⟨0, _⟩ => rfl | ⟨1, _⟩ => rfl
  rw [hl, S11_at m c xr hx t j q, ← Cert.LibPairSums.coe_sum]
  obtain ⟨-, -, -, -, -, -, -, -, -, -, -, -, e100, e101, e102, e110, e111, e112, e120, e121, e122⟩ := out_facts t
  have z0 : ((((cfg0.win 11).blk t).view.emb (ix3 u j q)) 0).val = t.val / 16 := by
    show win0_11.index t (0 : Fin 3) * 1 + 1 * u.val = _; omega
  have z1 : ((((cfg0.win 11).blk t).view.emb (ix3 u j q)) 1).val = 128 * (t.val / 4 % 4) + j.val := by
    show win0_11.index t (1 : Fin 3) * 128 + 1 * j.val = _; omega
  have z2 : ((((cfg0.win 11).blk t).view.emb (ix3 u j q)) 2).val = 128 * (t.val % 4) + q.val := by
    show win0_11.index t (2 : Fin 3) * 128 + 1 * q.val = _; omega
  unfold G11
  rw [z0, z1, z2]

theorem mem_blk11 (t : Fin cfg0.N) (i : S8x512x512.Idx) :
    i ∈ ((cfg0.win 11).blk t).view.set ↔ ∀ a : Fin 3, win0_11.index t a * S1x128x128.size a ≤ (i a).val ∧ (i a).val < win0_11.index t a * S1x128x128.size a + S1x128x128.size a := by
  show i ∈ ((View.whole main_v9_7).slice (win0_11.rect t)).set ↔ _
  rw [View.set_slice_whole, Rect.mem_set_unit]
  exact Iff.rfl

/-- Every entry lies in some point's slab. -/
theorem cover11 (i : S8x512x512.Idx) : ∃ t : Fin cfg0.N, (cfg0.win 11).flush t = true ∧ i ∈ ((cfg0.win 11).blk t).view.set := by
  have h0 : (i 0).val < 8 := (i 0).isLt
  have h1 : (i 1).val < 512 := (i 1).isLt
  have h2 : (i 2).val < 512 := (i 2).isLt
  have hb : 16 * (i 0).val + 4 * ((i 1).val / 128) + (i 2).val / 128 < cfg0.N := by have hc : cfg0.N = 128 := N_0; omega
  refine ⟨⟨16 * (i 0).val + 4 * ((i 1).val / 128) + (i 2).val / 128, hb⟩, flush0_11 _, ?_⟩
  rw [mem_blk11]
  obtain ⟨-, -, -, -, -, -, -, -, -, -, -, -, e100, e101, e102, e110, e111, e112, e120, e121, e122⟩ := out_facts ⟨16 * (i 0).val + 4 * ((i 1).val / 128) + (i 2).val / 128, hb⟩
  intro a
  match a with
  | ⟨0, _⟩ =>
    show win0_11.index _ (0 : Fin 3) * 1 ≤ (i 0).val ∧ (i 0).val < win0_11.index _ (0 : Fin 3) * 1 + 1
    rw [e110]; show (16 * (i 0).val + 4 * ((i 1).val / 128) + (i 2).val / 128) / 16 * 1 ≤ (i 0).val ∧ (i 0).val < (16 * (i 0).val + 4 * ((i 1).val / 128) + (i 2).val / 128) / 16 * 1 + 1
    omega
  | ⟨1, _⟩ =>
    show win0_11.index _ (1 : Fin 3) * 128 ≤ (i 1).val ∧ (i 1).val < win0_11.index _ (1 : Fin 3) * 128 + 128
    rw [e111]; show (16 * (i 0).val + 4 * ((i 1).val / 128) + (i 2).val / 128) / 4 % 4 * 128 ≤ (i 1).val ∧ (i 1).val < (16 * (i 0).val + 4 * ((i 1).val / 128) + (i 2).val / 128) / 4 % 4 * 128 + 128
    omega
  | ⟨2, _⟩ =>
    show win0_11.index _ (2 : Fin 3) * 128 ≤ (i 2).val ∧ (i 2).val < win0_11.index _ (2 : Fin 3) * 128 + 128
    rw [e112]; show (16 * (i 0).val + 4 * ((i 1).val / 128) + (i 2).val / 128) % 4 * 128 ≤ (i 2).val ∧ (i 2).val < (16 * (i 0).val + 4 * ((i 1).val / 128) + (i 2).val / 128) % 4 * 128 + 128
    omega

/-- The array after the run. -/
theorem final11 (hx : ∀ a b d : Fin 512, V m c main_arg0 (ix3 a b d) = ((xr a b d : ℝ) : EReal)) :
    (dats m 0 c).arrAt 11 cfg0.N = G11 xr :=
  (dats m 0 c).arrAt_eq_of_cover 11 (G11 xr) (fun t _ => flushed11_eq m c xr hx t) cover11

/-! ## Array 12: Σ_r s_{64 ib + r} · x(64 ib + r, a, b) -/

/-- What the array ends holding. -/
def G12 (σ : Fin 512 → Bool) : S8x512x512.Idx → EReal := fun z =>
  ((∑ r : Fin 64, Cert.Spec.b2r (σ (fi (64 * (z 0).val + r.val))) * xr (fi (64 * (z 0).val + r.val)) (fi (z 1).val) (fi (z 2).val) : ℝ) : EReal)

/-- The tile's sum over its 64 rows at (j, q), as reals of the cube. -/
theorem S12_at (σ : Fin 512 → Bool) (hx : ∀ a b d : Fin 512, V m c main_arg0 (ix3 a b d) = ((xr a b d : ℝ) : EReal)) (ha : ∀ a : Fin 512, V m c main_v6 (ix3 a 0 0) = ((Cert.Spec.b2r (σ a) : ℝ) : EReal))
    (t : Fin cfg0.N) (j q : Fin 128) :
    k0_pay13 (iblk m c 0 t) (iblk m c 1 t) (ix2 j q) = ∑ r : Fin 64, ((Cert.Spec.b2r (σ (fi (64 * (t.val / 16) + r.val))) * xr (fi (64 * (t.val / 16) + r.val)) (fi (128 * (t.val / 4 % 4) + j.val)) (fi (128 * (t.val % 4) + q.val)) : ℝ) : EReal) := by
  have hN : t.val < 128 := lt_of_lt_of_eq t.isLt N_0
  rw [pay13_at]
  refine Finset.sum_congr rfl fun r _ => ?_
  have e := iblk0_at m c t (ix3 r j q) (ix3 (fi (64 * (t.val / 16) + r.val)) (fi (128 * (t.val / 4 % 4) + j.val)) (fi (128 * (t.val % 4) + q.val)))
    (by show (fi _).val = 64 * (t.val / 16) + r.val; rw [fi_val (by have := r.isLt; omega)])
    (by show (fi _).val = 128 * (t.val / 4 % 4) + j.val; rw [fi_val (by have := j.isLt; omega)])
    (by show (fi _).val = 128 * (t.val % 4) + q.val; rw [fi_val (by have := q.isLt; omega)])
  have e1 := iblk1_at m c t (ix3 r 0 0) (ix3 (fi (64 * (t.val / 16) + r.val)) 0 0)
    (by show (fi _).val = 64 * (t.val / 16) + r.val; rw [fi_val (by have := r.isLt; omega)])
  rw [e, hx, e1, ha, ← EReal.coe_mul]

/-- What a point writes back is its slab of the array's closed form. -/
theorem flushed12_eq (σ : Fin 512 → Bool) (hx : ∀ a b d : Fin 512, V m c main_arg0 (ix3 a b d) = ((xr a b d : ℝ) : EReal)) (ha : ∀ a : Fin 512, V m c main_v6 (ix3 a 0 0) = ((Cert.Spec.b2r (σ a) : ℝ) : EReal))
    (t : Fin cfg0.N) :
    (dats m 0 c).flushed 12 t = ((cfg0.win 12).blk t).view.read (Elt Ideal) (G12 xr σ) := by
  have hN : t.val < 128 := lt_of_lt_of_eq t.isLt N_0
  show (cfg0.win 12).cut (grid0.coords t) ((dats m 0 c).after 12 t) = _
  rw [after0_12]
  funext y
  obtain ⟨u, j, q, rfl⟩ : ∃ (u : Fin 1) (j q : Fin 128), y = ix3 u j q := ⟨y 0, y 1, y 2, eq_ix3 y⟩
  show o12 (iblk m c 0 t) (iblk m c 1 t) (ix3 u j q) = G12 xr σ (((cfg0.win 12).blk t).view.emb (ix3 u j q))
  have hu : u.val = 0 := by have := u.isLt; omega
  have hl : o12 (iblk m c 0 t) (iblk m c 1 t) (ix3 u j q) = k0_pay13 (iblk m c 0 t) (iblk m c 1 t) (ix2 j q) := by
    unfold o12 k0_pay3
    refine (shapeCast_addUnit_apply ![128, 128] _ shapeCasts_S128x128_S1x128x128 (ix3 u j q)).trans (congrArg _ ?_)
    funext a; match a with | ⟨0, _⟩ => rfl | ⟨1, _⟩ => rfl
  rw [hl, S12_at m c xr σ hx ha t j q, ← Cert.LibPairSums.coe_sum]
  obtain ⟨-, -, -, -, -, -, -, -, -, -, -, -, e100, e101, e102, e110, e111, e112, e120, e121, e122⟩ := out_facts t
  have z0 : ((((cfg0.win 12).blk t).view.emb (ix3 u j q)) 0).val = t.val / 16 := by
    show win0_12.index t (0 : Fin 3) * 1 + 1 * u.val = _; omega
  have z1 : ((((cfg0.win 12).blk t).view.emb (ix3 u j q)) 1).val = 128 * (t.val / 4 % 4) + j.val := by
    show win0_12.index t (1 : Fin 3) * 128 + 1 * j.val = _; omega
  have z2 : ((((cfg0.win 12).blk t).view.emb (ix3 u j q)) 2).val = 128 * (t.val % 4) + q.val := by
    show win0_12.index t (2 : Fin 3) * 128 + 1 * q.val = _; omega
  unfold G12
  rw [z0, z1, z2]

theorem mem_blk12 (t : Fin cfg0.N) (i : S8x512x512.Idx) :
    i ∈ ((cfg0.win 12).blk t).view.set ↔ ∀ a : Fin 3, win0_12.index t a * S1x128x128.size a ≤ (i a).val ∧ (i a).val < win0_12.index t a * S1x128x128.size a + S1x128x128.size a := by
  show i ∈ ((View.whole main_v9_8).slice (win0_12.rect t)).set ↔ _
  rw [View.set_slice_whole, Rect.mem_set_unit]
  exact Iff.rfl

/-- Every entry lies in some point's slab. -/
theorem cover12 (i : S8x512x512.Idx) : ∃ t : Fin cfg0.N, (cfg0.win 12).flush t = true ∧ i ∈ ((cfg0.win 12).blk t).view.set := by
  have h0 : (i 0).val < 8 := (i 0).isLt
  have h1 : (i 1).val < 512 := (i 1).isLt
  have h2 : (i 2).val < 512 := (i 2).isLt
  have hb : 16 * (i 0).val + 4 * ((i 1).val / 128) + (i 2).val / 128 < cfg0.N := by have hc : cfg0.N = 128 := N_0; omega
  refine ⟨⟨16 * (i 0).val + 4 * ((i 1).val / 128) + (i 2).val / 128, hb⟩, flush0_12 _, ?_⟩
  rw [mem_blk12]
  obtain ⟨-, -, -, -, -, -, -, -, -, -, -, -, e100, e101, e102, e110, e111, e112, e120, e121, e122⟩ := out_facts ⟨16 * (i 0).val + 4 * ((i 1).val / 128) + (i 2).val / 128, hb⟩
  intro a
  match a with
  | ⟨0, _⟩ =>
    show win0_12.index _ (0 : Fin 3) * 1 ≤ (i 0).val ∧ (i 0).val < win0_12.index _ (0 : Fin 3) * 1 + 1
    rw [e120]; show (16 * (i 0).val + 4 * ((i 1).val / 128) + (i 2).val / 128) / 16 * 1 ≤ (i 0).val ∧ (i 0).val < (16 * (i 0).val + 4 * ((i 1).val / 128) + (i 2).val / 128) / 16 * 1 + 1
    omega
  | ⟨1, _⟩ =>
    show win0_12.index _ (1 : Fin 3) * 128 ≤ (i 1).val ∧ (i 1).val < win0_12.index _ (1 : Fin 3) * 128 + 128
    rw [e121]; show (16 * (i 0).val + 4 * ((i 1).val / 128) + (i 2).val / 128) / 4 % 4 * 128 ≤ (i 1).val ∧ (i 1).val < (16 * (i 0).val + 4 * ((i 1).val / 128) + (i 2).val / 128) / 4 % 4 * 128 + 128
    omega
  | ⟨2, _⟩ =>
    show win0_12.index _ (2 : Fin 3) * 128 ≤ (i 2).val ∧ (i 2).val < win0_12.index _ (2 : Fin 3) * 128 + 128
    rw [e122]; show (16 * (i 0).val + 4 * ((i 1).val / 128) + (i 2).val / 128) % 4 * 128 ≤ (i 2).val ∧ (i 2).val < (16 * (i 0).val + 4 * ((i 1).val / 128) + (i 2).val / 128) % 4 * 128 + 128
    omega

/-- The array after the run. -/
theorem final12 (σ : Fin 512 → Bool) (hx : ∀ a b d : Fin 512, V m c main_arg0 (ix3 a b d) = ((xr a b d : ℝ) : EReal)) (ha : ∀ a : Fin 512, V m c main_v6 (ix3 a 0 0) = ((Cert.Spec.b2r (σ a) : ℝ) : EReal)) :
    (dats m 0 c).arrAt 12 cfg0.N = G12 xr σ :=
  (dats m 0 c).arrAt_eq_of_cover 12 (G12 xr σ) (fun t _ => flushed12_eq m c xr σ hx ha t) cover12

end Cert.KernelIdeal.Body

end
-- ==== Proof.KI.Fam1.lean ====
/-
  The three arrays of sums along j, as the run leaves them: entry (a, b) of each is the sum over all 512 columns j of the
  summand at (a, j, b).

  The block of rows 64 i …, all 512 columns, stays in place for the sixteen points that share one i and is written back
  at the last of them. Point 16 i + 4 j' + k' adds its tile's sum over the tile's 128 columns into the 128 block columns
  128 k' … and leaves the other columns alone. So entry (r, q) of the block receives, over the sixteen points, exactly the
  four contributions with k' = q / 128, one per j': the sums over columns 128 j' … of the cube at depth q — together the
  sum over all 512 columns.
-/
import proofs.«124184_j88390426951927_2_alg».proof.Proof.KI.Fam2
import proofs.«124184_j88390426951927_2_alg».proof.Proof.Spec

set_option maxRecDepth 16384

noncomputable section

open scoped BigOperators

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

variable (c : Dev nD)
variable (xr : Fin 512 → Fin 512 → Fin 512 → ℝ)

/-- Of sixteen consecutive terms, those at the positions with remainder `kq` modulo 4, read by their quotient. -/
theorem sum_sel16 {M : Type*} [AddCommMonoid M] (kq : ℕ) (hk : kq < 4) (G : ℕ → M) :
    ∑ s ∈ Finset.range 16, (if kq = s % 4 then G (s / 4) else 0) = ∑ j ∈ Finset.range 4, G j := by
  interval_cases kq <;> simp [Finset.sum_range_succ]

/-! ## Array 4: Σ_j exp x(a, j, b) -/

/-- What the array ends holding. -/
def G4 : S512x512.Idx → EReal := fun z => ((∑ j, Real.exp (xr (fi (z 0).val) j (fi (z 1).val)) : ℝ) : EReal)

/-- One tile's partial sum at (r, q'), as reals of the cube. -/
theorem M4_at (hx : ∀ a b d : Fin 512, V m c main_arg0 (ix3 a b d) = ((xr a b d : ℝ) : EReal))
    (n : ℕ) (hn : n < cfg0.N) (r : Fin 64) (q' : Fin 128) :
    k0_pay5 (iblk m c 0 ⟨n, hn⟩) (ix2 r q')
      = ∑ jj : Fin 128, ((Real.exp (xr (fi (64 * (n / 16) + r.val)) (fi (128 * (n / 4 % 4) + jj.val)) (fi (128 * (n % 4) + q'.val))) : ℝ) : EReal) := by
  have hN : n < 128 := lt_of_lt_of_eq hn N_0
  rw [pay5_at]
  refine Finset.sum_congr rfl fun jj _ => ?_
  have e := iblk0_at m c ⟨n, hn⟩ (ix3 r jj q') (ix3 (fi (64 * (n / 16) + r.val)) (fi (128 * (n / 4 % 4) + jj.val)) (fi (128 * (n % 4) + q'.val)))
    (by show (fi _).val = 64 * (n / 16) + r.val; rw [fi_val (by have := r.isLt; omega)])
    (by show (fi _).val = 128 * (n / 4 % 4) + jj.val; rw [fi_val (by have := jj.isLt; omega)])
    (by show (fi _).val = 128 * (n % 4) + q'.val; rw [fi_val (by have := q'.isLt; omega)])
  rw [e, hx]; rfl

/-- At the last of the sixteen points of a run the accumulator holds the whole line's sum. -/
theorem acc4_flush (hx : ∀ a b d : Fin 512, V m c main_arg0 (ix3 a b d) = ((xr a b d : ℝ) : EReal))
    (t : Fin cfg0.N) (h15 : t.val % 16 = 15) (r : Fin 64) (q : Fin 512) :
    acc4 m c t.val t.isLt (ix2 r q) = ((∑ j, Real.exp (xr (fi (64 * (t.val / 16) + r.val)) j (fi q.val)) : ℝ) : EReal) := by
  have hN : t.val < 128 := lt_of_lt_of_eq t.isLt N_0
  have hq : q.val < 512 := q.isLt
  have hs := acc_run_sum (fun (v : Vec Ideal S64x512 .f32) (rq : Fin 64 × Fin 512) => v (ix2 rq.1 rq.2)) 16 (by norm_num)
    (k0_pay14 (F := Ideal)) (fun y => pay14_zero _)
    (fun n hn p => o4 (grid0.coords ⟨n, hn⟩) (iblk m c 0 ⟨n, hn⟩) p)
    (fun n rq => if h : n < cfg0.N then
        (if rq.2.val / 128 = n % 4 then k0_pay5 (iblk m c 0 ⟨n, h⟩) (ix2 rq.1 ⟨rq.2.val % 128, Nat.mod_lt _ (by norm_num)⟩) else 0)
      else 0)
    (fun n h p y => by
      show addCols (grid0.coords ⟨n, h⟩) (k0_pay17 (k0_pay5 (iblk m c 0 ⟨n, h⟩))) p (ix2 y.1 y.2) = _
      rw [dif_pos h]
      exact cols_step ⟨n, h⟩ (k0_pay5 (iblk m c 0 ⟨n, h⟩)) _ (pay17_at _) p y.1 y.2)
    t.val t.isLt (r, q)
  refine hs.trans ?_
  rw [h15]
  show ∑ s ∈ Finset.range 16, _ = _
  refine (Finset.sum_congr rfl fun s hs' => ?_).trans
    ((sum_sel16 (q.val / 128) (by omega)
      (fun j' => ∑ jj : Fin 128, ((Real.exp (xr (fi (64 * (t.val / 16) + r.val)) (fi (128 * j' + jj.val)) (fi q.val)) : ℝ) : EReal))).trans
      (tiles4 (fun j => Real.exp (xr (fi (64 * (t.val / 16) + r.val)) j (fi q.val)))))
  have hs16 : s < 16 := Finset.mem_range.mp hs'
  have hn : 16 * (t.val / 16) + s < cfg0.N := lt_of_lt_of_eq (by omega : 16 * (t.val / 16) + s < 128) N_0.symm
  have e1 : (16 * (t.val / 16) + s) / 16 = t.val / 16 := by omega
  have e2 : (16 * (t.val / 16) + s) / 4 % 4 = s / 4 := by omega
  have e3 : (16 * (t.val / 16) + s) % 4 = s % 4 := by omega
  dsimp only
  rw [dif_pos hn]
  by_cases hk : q.val / 128 = s % 4
  · rw [if_pos (hk.trans e3.symm), if_pos hk, M4_at m c xr hx _ hn r _, e1, e2, e3]
    refine Finset.sum_congr rfl fun jj _ => ?_
    have eq : 128 * (s % 4) + q.val % 128 = q.val := by omega
    show ((Real.exp (xr _ _ (fi (128 * (s % 4) + q.val % 128))) : ℝ) : EReal) = _
    rw [eq]
  · rw [if_neg (fun h => hk (h.trans e3)), if_neg hk]

/-- What a flushing point writes back is its block of the array's closed form. -/
theorem flushed4_eq (hx : ∀ a b d : Fin 512, V m c main_arg0 (ix3 a b d) = ((xr a b d : ℝ) : EReal))
    (t : Fin cfg0.N) (hf : (cfg0.win 4).flush t = true) :
    (dats m 0 c).flushed 4 t = ((cfg0.win 4).blk t).view.read (Elt Ideal) (G4 xr) := by
  have h15 : t.val % 16 = 15 := (flush0_4 t).mp hf
  show (cfg0.win 4).cut (grid0.coords t) ((dats m 0 c).after 4 t) = _
  rw [after0_4]
  funext y
  obtain ⟨r, q, rfl⟩ : ∃ (r : Fin 64) (q : Fin 512), y = ix2 r q := ⟨y 0, y 1, eq_ix2 y⟩
  show acc4 m c t.val t.isLt (ix2 r q) = G4 xr (((cfg0.win 4).blk t).view.emb (ix2 r q))
  rw [acc4_flush m c xr hx t h15 r q]
  obtain ⟨e40, e41, e50, e51, e60, e61, -⟩ := out_facts t
  have z0 : ((((cfg0.win 4).blk t).view.emb (ix2 r q)) 0).val = 64 * (t.val / 16) + r.val := by
    show win0_4.index t (0 : Fin 2) * 64 + 1 * r.val = _; omega
  have z1 : ((((cfg0.win 4).blk t).view.emb (ix2 r q)) 1).val = q.val := by
    show win0_4.index t (1 : Fin 2) * 512 + 1 * q.val = _; omega
  unfold G4
  rw [z0, z1]

theorem mem_blk4 (t : Fin cfg0.N) (i : S512x512.Idx) :
    i ∈ ((cfg0.win 4).blk t).view.set ↔ ∀ a : Fin 2, win0_4.index t a * S64x512.size a ≤ (i a).val ∧ (i a).val < win0_4.index t a * S64x512.size a + S64x512.size a := by
  show i ∈ ((View.whole main_v9_0).slice (win0_4.rect t)).set ↔ _
  rw [View.set_slice_whole, Rect.mem_set_unit]
  exact Iff.rfl

/-- Every entry lies in the block of some flushing point. -/
theorem cover4 (i : S512x512.Idx) : ∃ t : Fin cfg0.N, (cfg0.win 4).flush t = true ∧ i ∈ ((cfg0.win 4).blk t).view.set := by
  have h0 : (i 0).val < 512 := (i 0).isLt
  have h1 : (i 1).val < 512 := (i 1).isLt
  have hb' : 16 * ((i 0).val / 64) + 15 < cfg0.N := lt_of_lt_of_eq (by omega : 16 * ((i 0).val / 64) + 15 < 128) N_0.symm
  refine ⟨⟨16 * ((i 0).val / 64) + 15, hb'⟩, (flush0_4 _).mpr (by show (16 * ((i 0).val / 64) + 15) % 16 = 15; omega), ?_⟩
  rw [mem_blk4]
  obtain ⟨e40, e41, e50, e51, e60, e61, -⟩ := out_facts ⟨16 * ((i 0).val / 64) + 15, hb'⟩
  intro a
  match a with
  | ⟨0, _⟩ =>
    show win0_4.index _ (0 : Fin 2) * 64 ≤ (i 0).val ∧ (i 0).val < win0_4.index _ (0 : Fin 2) * 64 + 64
    rw [e40]; show (16 * ((i 0).val / 64) + 15) / 16 * 64 ≤ (i 0).val ∧ (i 0).val < (16 * ((i 0).val / 64) + 15) / 16 * 64 + 64
    omega
  | ⟨1, _⟩ =>
    show win0_4.index _ (1 : Fin 2) * 512 ≤ (i 1).val ∧ (i 1).val < win0_4.index _ (1 : Fin 2) * 512 + 512
    rw [e41]; omega

/-- The array after the run. -/
theorem final4 (hx : ∀ a b d : Fin 512, V m c main_arg0 (ix3 a b d) = ((xr a b d : ℝ) : EReal)) :
    (dats m 0 c).arrAt 4 cfg0.N = G4 xr :=
  (dats m 0 c).arrAt_eq_of_cover 4 (G4 xr) (fun t hf => flushed4_eq m c xr hx t hf) cover4

/-! ## Array 5: Σ_j x(a, j, b) -/

/-- What the array ends holding. -/
def G5 : S512x512.Idx → EReal := fun z => ((∑ j, xr (fi (z 0).val) j (fi (z 1).val) : ℝ) : EReal)

/-- One tile's partial sum at (r, q'), as reals of the cube. -/
theorem M5_at (hx : ∀ a b d : Fin 512, V m c main_arg0 (ix3 a b d) = ((xr a b d : ℝ) : EReal))
    (n : ℕ) (hn : n < cfg0.N) (r : Fin 64) (q' : Fin 128) :
    k0_pay8 (iblk m c 0 ⟨n, hn⟩) (ix2 r q')
      = ∑ jj : Fin 128, ((xr (fi (64 * (n / 16) + r.val)) (fi (128 * (n / 4 % 4) + jj.val)) (fi (128 * (n % 4) + q'.val)) : ℝ) : EReal) := by
  have hN : n < 128 := lt_of_lt_of_eq hn N_0
  rw [pay8_at]
  refine Finset.sum_congr rfl fun jj _ => ?_
  have e := iblk0_at m c ⟨n, hn⟩ (ix3 r jj q') (ix3 (fi (64 * (n / 16) + r.val)) (fi (128 * (n / 4 % 4) + jj.val)) (fi (128 * (n % 4) + q'.val)))
    (by show (fi _).val = 64 * (n / 16) + r.val; rw [fi_val (by have := r.isLt; omega)])
    (by show (fi _).val = 128 * (n / 4 % 4) + jj.val; rw [fi_val (by have := jj.isLt; omega)])
    (by show (fi _).val = 128 * (n % 4) + q'.val; rw [fi_val (by have := q'.isLt; omega)])
  rw [e, hx]

/-- At the last of the sixteen points of a run the accumulator holds the whole line's sum. -/
theorem acc5_flush (hx : ∀ a b d : Fin 512, V m c main_arg0 (ix3 a b d) = ((xr a b d : ℝ) : EReal))
    (t : Fin cfg0.N) (h15 : t.val % 16 = 15) (r : Fin 64) (q : Fin 512) :
    acc5 m c t.val t.isLt (ix2 r q) = ((∑ j, xr (fi (64 * (t.val / 16) + r.val)) j (fi q.val) : ℝ) : EReal) := by
  have hN : t.val < 128 := lt_of_lt_of_eq t.isLt N_0
  have hq : q.val < 512 := q.isLt
  have hs := acc_run_sum (fun (v : Vec Ideal S64x512 .f32) (rq : Fin 64 × Fin 512) => v (ix2 rq.1 rq.2)) 16 (by norm_num)
    (k0_pay15 (F := Ideal)) (fun y => pay15_zero _)
    (fun n hn p => o5 (grid0.coords ⟨n, hn⟩) (iblk m c 0 ⟨n, hn⟩) p)
    (fun n rq => if h : n < cfg0.N then
        (if rq.2.val / 128 = n % 4 then k0_pay8 (iblk m c 0 ⟨n, h⟩) (ix2 rq.1 ⟨rq.2.val % 128, Nat.mod_lt _ (by norm_num)⟩) else 0)
      else 0)
    (fun n h p y => by
      show addCols (grid0.coords ⟨n, h⟩) (k0_pay18 (k0_pay8 (iblk m c 0 ⟨n, h⟩))) p (ix2 y.1 y.2) = _
      rw [dif_pos h]
      exact cols_step ⟨n, h⟩ (k0_pay8 (iblk m c 0 ⟨n, h⟩)) _ (pay18_at _) p y.1 y.2)
    t.val t.isLt (r, q)
  refine hs.trans ?_
  rw [h15]
  show ∑ s ∈ Finset.range 16, _ = _
  refine (Finset.sum_congr rfl fun s hs' => ?_).trans
    ((sum_sel16 (q.val / 128) (by omega)
      (fun j' => ∑ jj : Fin 128, ((xr (fi (64 * (t.val / 16) + r.val)) (fi (128 * j' + jj.val)) (fi q.val) : ℝ) : EReal))).trans
      (tiles4 (fun j => xr (fi (64 * (t.val / 16) + r.val)) j (fi q.val))))
  have hs16 : s < 16 := Finset.mem_range.mp hs'
  have hn : 16 * (t.val / 16) + s < cfg0.N := lt_of_lt_of_eq (by omega : 16 * (t.val / 16) + s < 128) N_0.symm
  have e1 : (16 * (t.val / 16) + s) / 16 = t.val / 16 := by omega
  have e2 : (16 * (t.val / 16) + s) / 4 % 4 = s / 4 := by omega
  have e3 : (16 * (t.val / 16) + s) % 4 = s % 4 := by omega
  dsimp only
  rw [dif_pos hn]
  by_cases hk : q.val / 128 = s % 4
  · rw [if_pos (hk.trans e3.symm), if_pos hk, M5_at m c xr hx _ hn r _, e1, e2, e3]
    refine Finset.sum_congr rfl fun jj _ => ?_
    have eq : 128 * (s % 4) + q.val % 128 = q.val := by omega
    show ((xr _ _ (fi (128 * (s % 4) + q.val % 128)) : ℝ) : EReal) = _
    rw [eq]
  · rw [if_neg (fun h => hk (h.trans e3)), if_neg hk]

/-- What a flushing point writes back is its block of the array's closed form. -/
theorem flushed5_eq (hx : ∀ a b d : Fin 512, V m c main_arg0 (ix3 a b d) = ((xr a b d : ℝ) : EReal))
    (t : Fin cfg0.N) (hf : (cfg0.win 5).flush t = true) :
    (dats m 0 c).flushed 5 t = ((cfg0.win 5).blk t).view.read (Elt Ideal) (G5 xr) := by
  have h15 : t.val % 16 = 15 := (flush0_5 t).mp hf
  show (cfg0.win 5).cut (grid0.coords t) ((dats m 0 c).after 5 t) = _
  rw [after0_5]
  funext y
  obtain ⟨r, q, rfl⟩ : ∃ (r : Fin 64) (q : Fin 512), y = ix2 r q := ⟨y 0, y 1, eq_ix2 y⟩
  show acc5 m c t.val t.isLt (ix2 r q) = G5 xr (((cfg0.win 5).blk t).view.emb (ix2 r q))
  rw [acc5_flush m c xr hx t h15 r q]
  obtain ⟨e40, e41, e50, e51, e60, e61, -⟩ := out_facts t
  have z0 : ((((cfg0.win 5).blk t).view.emb (ix2 r q)) 0).val = 64 * (t.val / 16) + r.val := by
    show win0_5.index t (0 : Fin 2) * 64 + 1 * r.val = _; omega
  have z1 : ((((cfg0.win 5).blk t).view.emb (ix2 r q)) 1).val = q.val := by
    show win0_5.index t (1 : Fin 2) * 512 + 1 * q.val = _; omega
  unfold G5
  rw [z0, z1]

theorem mem_blk5 (t : Fin cfg0.N) (i : S512x512.Idx) :
    i ∈ ((cfg0.win 5).blk t).view.set ↔ ∀ a : Fin 2, win0_5.index t a * S64x512.size a ≤ (i a).val ∧ (i a).val < win0_5.index t a * S64x512.size a + S64x512.size a := by
  show i ∈ ((View.whole main_v9_1).slice (win0_5.rect t)).set ↔ _
  rw [View.set_slice_whole, Rect.mem_set_unit]
  exact Iff.rfl

/-- Every entry lies in the block of some flushing point. -/
theorem cover5 (i : S512x512.Idx) : ∃ t : Fin cfg0.N, (cfg0.win 5).flush t = true ∧ i ∈ ((cfg0.win 5).blk t).view.set := by
  have h0 : (i 0).val < 512 := (i 0).isLt
  have h1 : (i 1).val < 512 := (i 1).isLt
  have hb' : 16 * ((i 0).val / 64) + 15 < cfg0.N := lt_of_lt_of_eq (by omega : 16 * ((i 0).val / 64) + 15 < 128) N_0.symm
  refine ⟨⟨16 * ((i 0).val / 64) + 15, hb'⟩, (flush0_5 _).mpr (by show (16 * ((i 0).val / 64) + 15) % 16 = 15; omega), ?_⟩
  rw [mem_blk5]
  obtain ⟨e40, e41, e50, e51, e60, e61, -⟩ := out_facts ⟨16 * ((i 0).val / 64) + 15, hb'⟩
  intro a
  match a with
  | ⟨0, _⟩ =>
    show win0_5.index _ (0 : Fin 2) * 64 ≤ (i 0).val ∧ (i 0).val < win0_5.index _ (0 : Fin 2) * 64 + 64
    rw [e50]; show (16 * ((i 0).val / 64) + 15) / 16 * 64 ≤ (i 0).val ∧ (i 0).val < (16 * ((i 0).val / 64) + 15) / 16 * 64 + 64
    omega
  | ⟨1, _⟩ =>
    show win0_5.index _ (1 : Fin 2) * 512 ≤ (i 1).val ∧ (i 1).val < win0_5.index _ (1 : Fin 2) * 512 + 512
    rw [e51]; omega

/-- The array after the run. -/
theorem final5 (hx : ∀ a b d : Fin 512, V m c main_arg0 (ix3 a b d) = ((xr a b d : ℝ) : EReal)) :
    (dats m 0 c).arrAt 5 cfg0.N = G5 xr :=
  (dats m 0 c).arrAt_eq_of_cover 5 (G5 xr) (fun t hf => flushed5_eq m c xr hx t hf) cover5

/-! ## Array 6: Σ_j s_j · x(a, j, b) -/

/-- What the array ends holding. -/
def G6 (σ : Fin 512 → Bool) : S512x512.Idx → EReal := fun z => ((∑ j, Cert.Spec.b2r (σ j) * xr (fi (z 0).val) j (fi (z 1).val) : ℝ) : EReal)

/-- One tile's partial sum at (r, q'), as reals of the cube. -/
theorem M6_at (σ : Fin 512 → Bool) (hx : ∀ a b d : Fin 512, V m c main_arg0 (ix3 a b d) = ((xr a b d : ℝ) : EReal)) (hb : ∀ a : Fin 512, V m c main_v7 (ix3 0 a 0) = ((Cert.Spec.b2r (σ a) : ℝ) : EReal))
    (n : ℕ) (hn : n < cfg0.N) (r : Fin 64) (q' : Fin 128) :
    k0_pay11 (iblk m c 0 ⟨n, hn⟩) (iblk m c 2 ⟨n, hn⟩) (ix2 r q')
      = ∑ jj : Fin 128, ((Cert.Spec.b2r (σ (fi (128 * (n / 4 % 4) + jj.val))) * xr (fi (64 * (n / 16) + r.val)) (fi (128 * (n / 4 % 4) + jj.val)) (fi (128 * (n % 4) + q'.val)) : ℝ) : EReal) := by
  have hN : n < 128 := lt_of_lt_of_eq hn N_0
  rw [pay11_at]
  refine Finset.sum_congr rfl fun jj _ => ?_
  have e := iblk0_at m c ⟨n, hn⟩ (ix3 r jj q') (ix3 (fi (64 * (n / 16) + r.val)) (fi (128 * (n / 4 % 4) + jj.val)) (fi (128 * (n % 4) + q'.val)))
    (by show (fi _).val = 64 * (n / 16) + r.val; rw [fi_val (by have := r.isLt; omega)])
    (by show (fi _).val = 128 * (n / 4 % 4) + jj.val; rw [fi_val (by have := jj.isLt; omega)])
    (by show (fi _).val = 128 * (n % 4) + q'.val; rw [fi_val (by have := q'.isLt; omega)])
  have e2' := iblk2_at m c ⟨n, hn⟩ (ix3 0 jj 0) (ix3 0 (fi (128 * (n / 4 % 4) + jj.val)) 0)
    (by show (fi _).val = 128 * (n / 4 % 4) + jj.val; rw [fi_val (by have := jj.isLt; omega)])
  rw [e, hx, e2', hb, ← EReal.coe_mul]

/-- At the last of the sixteen points of a run the accumulator holds the whole line's sum. -/
theorem acc6_flush (σ : Fin 512 → Bool) (hx : ∀ a b d : Fin 512, V m c main_arg0 (ix3 a b d) = ((xr a b d : ℝ) : EReal)) (hb : ∀ a : Fin 512, V m c main_v7 (ix3 0 a 0) = ((Cert.Spec.b2r (σ a) : ℝ) : EReal))
    (t : Fin cfg0.N) (h15 : t.val % 16 = 15) (r : Fin 64) (q : Fin 512) :
    acc6 m c t.val t.isLt (ix2 r q) = ((∑ j, Cert.Spec.b2r (σ j) * xr (fi (64 * (t.val / 16) + r.val)) j (fi q.val) : ℝ) : EReal) := by
  have hN : t.val < 128 := lt_of_lt_of_eq t.isLt N_0
  have hq : q.val < 512 := q.isLt
  have hs := acc_run_sum (fun (v : Vec Ideal S64x512 .f32) (rq : Fin 64 × Fin 512) => v (ix2 rq.1 rq.2)) 16 (by norm_num)
    (k0_pay16 (F := Ideal)) (fun y => pay16_zero _)
    (fun n hn p => o6 (grid0.coords ⟨n, hn⟩) (iblk m c 0 ⟨n, hn⟩) (iblk m c 2 ⟨n, hn⟩) p)
    (fun n rq => if h : n < cfg0.N then
        (if rq.2.val / 128 = n % 4 then k0_pay11 (iblk m c 0 ⟨n, h⟩) (iblk m c 2 ⟨n, h⟩) (ix2 rq.1 ⟨rq.2.val % 128, Nat.mod_lt _ (by norm_num)⟩) else 0)
      else 0)
    (fun n h p y => by
      show addCols (grid0.coords ⟨n, h⟩) (k0_pay19 (k0_pay11 (iblk m c 0 ⟨n, h⟩) (iblk m c 2 ⟨n, h⟩))) p (ix2 y.1 y.2) = _
      rw [dif_pos h]
      exact cols_step ⟨n, h⟩ (k0_pay11 (iblk m c 0 ⟨n, h⟩) (iblk m c 2 ⟨n, h⟩)) _ (pay19_at _) p y.1 y.2)
    t.val t.isLt (r, q)
  refine hs.trans ?_
  rw [h15]
  show ∑ s ∈ Finset.range 16, _ = _
  refine (Finset.sum_congr rfl fun s hs' => ?_).trans
    ((sum_sel16 (q.val / 128) (by omega)
      (fun j' => ∑ jj : Fin 128, ((Cert.Spec.b2r (σ (fi (128 * j' + jj.val))) * xr (fi (64 * (t.val / 16) + r.val)) (fi (128 * j' + jj.val)) (fi q.val) : ℝ) : EReal))).trans
      (tiles4 (fun j => Cert.Spec.b2r (σ j) * xr (fi (64 * (t.val / 16) + r.val)) j (fi q.val))))
  have hs16 : s < 16 := Finset.mem_range.mp hs'
  have hn : 16 * (t.val / 16) + s < cfg0.N := lt_of_lt_of_eq (by omega : 16 * (t.val / 16) + s < 128) N_0.symm
  have e1 : (16 * (t.val / 16) + s) / 16 = t.val / 16 := by omega
  have e2 : (16 * (t.val / 16) + s) / 4 % 4 = s / 4 := by omega
  have e3 : (16 * (t.val / 16) + s) % 4 = s % 4 := by omega
  dsimp only
  rw [dif_pos hn]
  by_cases hk : q.val / 128 = s % 4
  · rw [if_pos (hk.trans e3.symm), if_pos hk, M6_at m c xr σ hx hb _ hn r _, e1, e2, e3]
    refine Finset.sum_congr rfl fun jj _ => ?_
    have eq : 128 * (s % 4) + q.val % 128 = q.val := by omega
    show ((Cert.Spec.b2r (σ _) * xr _ _ (fi (128 * (s % 4) + q.val % 128)) : ℝ) : EReal) = _
    rw [eq]
  · rw [if_neg (fun h => hk (h.trans e3)), if_neg hk]

/-- What a flushing point writes back is its block of the array's closed form. -/
theorem flushed6_eq (σ : Fin 512 → Bool) (hx : ∀ a b d : Fin 512, V m c main_arg0 (ix3 a b d) = ((xr a b d : ℝ) : EReal)) (hb : ∀ a : Fin 512, V m c main_v7 (ix3 0 a 0) = ((Cert.Spec.b2r (σ a) : ℝ) : EReal))
    (t : Fin cfg0.N) (hf : (cfg0.win 6).flush t = true) :
    (dats m 0 c).flushed 6 t = ((cfg0.win 6).blk t).view.read (Elt Ideal) (G6 xr σ) := by
  have h15 : t.val % 16 = 15 := (flush0_6 t).mp hf
  show (cfg0.win 6).cut (grid0.coords t) ((dats m 0 c).after 6 t) = _
  rw [after0_6]
  funext y
  obtain ⟨r, q, rfl⟩ : ∃ (r : Fin 64) (q : Fin 512), y = ix2 r q := ⟨y 0, y 1, eq_ix2 y⟩
  show acc6 m c t.val t.isLt (ix2 r q) = G6 xr σ (((cfg0.win 6).blk t).view.emb (ix2 r q))
  rw [acc6_flush m c xr σ hx hb t h15 r q]
  obtain ⟨e40, e41, e50, e51, e60, e61, -⟩ := out_facts t
  have z0 : ((((cfg0.win 6).blk t).view.emb (ix2 r q)) 0).val = 64 * (t.val / 16) + r.val := by
    show win0_6.index t (0 : Fin 2) * 64 + 1 * r.val = _; omega
  have z1 : ((((cfg0.win 6).blk t).view.emb (ix2 r q)) 1).val = q.val := by
    show win0_6.index t (1 : Fin 2) * 512 + 1 * q.val = _; omega
  unfold G6
  rw [z0, z1]

theorem mem_blk6 (t : Fin cfg0.N) (i : S512x512.Idx) :
    i ∈ ((cfg0.win 6).blk t).view.set ↔ ∀ a : Fin 2, win0_6.index t a * S64x512.size a ≤ (i a).val ∧ (i a).val < win0_6.index t a * S64x512.size a + S64x512.size a := by
  show i ∈ ((View.whole main_v9_2).slice (win0_6.rect t)).set ↔ _
  rw [View.set_slice_whole, Rect.mem_set_unit]
  exact Iff.rfl

/-- Every entry lies in the block of some flushing point. -/
theorem cover6 (i : S512x512.Idx) : ∃ t : Fin cfg0.N, (cfg0.win 6).flush t = true ∧ i ∈ ((cfg0.win 6).blk t).view.set := by
  have h0 : (i 0).val < 512 := (i 0).isLt
  have h1 : (i 1).val < 512 := (i 1).isLt
  have hb' : 16 * ((i 0).val / 64) + 15 < cfg0.N := lt_of_lt_of_eq (by omega : 16 * ((i 0).val / 64) + 15 < 128) N_0.symm
  refine ⟨⟨16 * ((i 0).val / 64) + 15, hb'⟩, (flush0_6 _).mpr (by show (16 * ((i 0).val / 64) + 15) % 16 = 15; omega), ?_⟩
  rw [mem_blk6]
  obtain ⟨e40, e41, e50, e51, e60, e61, -⟩ := out_facts ⟨16 * ((i 0).val / 64) + 15, hb'⟩
  intro a
  match a with
  | ⟨0, _⟩ =>
    show win0_6.index _ (0 : Fin 2) * 64 ≤ (i 0).val ∧ (i 0).val < win0_6.index _ (0 : Fin 2) * 64 + 64
    rw [e60]; show (16 * ((i 0).val / 64) + 15) / 16 * 64 ≤ (i 0).val ∧ (i 0).val < (16 * ((i 0).val / 64) + 15) / 16 * 64 + 64
    omega
  | ⟨1, _⟩ =>
    show win0_6.index _ (1 : Fin 2) * 512 ≤ (i 1).val ∧ (i 1).val < win0_6.index _ (1 : Fin 2) * 512 + 512
    rw [e61]; omega

/-- The array after the run. -/
theorem final6 (σ : Fin 512 → Bool) (hx : ∀ a b d : Fin 512, V m c main_arg0 (ix3 a b d) = ((xr a b d : ℝ) : EReal)) (hb : ∀ a : Fin 512, V m c main_v7 (ix3 0 a 0) = ((Cert.Spec.b2r (σ a) : ℝ) : EReal)) :
    (dats m 0 c).arrAt 6 cfg0.N = G6 xr σ :=
  (dats m 0 c).arrAt_eq_of_cover 6 (G6 xr σ) (fun t hf => flushed6_eq m c xr σ hx hb t hf) cover6

end Cert.KernelIdeal.Body

end
-- ==== Proof.KI.TailA.lean ====
/-
  The host operations that follow the kernel, as one function of the flag vector and the kernel's nine arrays.

  With s the 0/1 flag vector, N₁ = Σ s and N₀ = 512 − N₁, p = s ⊗ s and q = (1 − s) ⊗ (1 − s), the operations form
    D = N₁ · p + N₀ · q,   D' = max(D, ε),
  per family (E, S, A) the matrix  (log E · D − (p · A + q · (S − A))) / D',
  for the family reduced along the leading axis E, S, A being the sums of eight slabs, and finally the sum of
  the three matrices over both axes divided by 262144.
-/
import proofs.«124184_j88390426951927_2_alg».proof.Proof.Gen.KernelIdeal.Launch
import Idealize.ShloMosaic.Lib.StableHlo.Run
import Idealize.ShloMosaic.PureOps.Ideal

set_option maxRecDepth 16384

noncomputable section

namespace Cert.KernelIdeal.Tail

open Cert.KernelIdeal Cert.KernelIdeal.Gen
open Idealize.ShloMosaic Idealize.ShloMosaic.TcCoe
open Idealize.SL.Sem

/-- The sum of the eight slabs of a [8, 512, 512] array. -/
def slabSum (x : FVec Ideal S8x512x512 .f32) : FVec Ideal S512x512 .f32 :=
  Host.reduceAdd (F := Ideal) x (constant (F := Ideal) S_ .f32 0x00000000#32) reducesTo_S8x512x512_S512x512_d0 h_S_

/-- N₁: the sum of the flags. -/
def cnt1 (s5 : FVec Ideal S512 .f32) : FVec Ideal S_ .f32 :=
  Host.reduceAdd (F := Ideal) s5 (constant (F := Ideal) S_ .f32 0x00000000#32) reducesTo_S512_S_d0 h_S_

/-- N₀ = 512 − N₁. -/
def cnt0 (s5 : FVec Ideal S512 .f32) : FVec Ideal S_ .f32 :=
  subf (constant (F := Ideal) S_ .f32 0x44000000#32) (cnt1 s5)

/-- u ⊗ u as a [512, 512] matrix. -/
def outer (u : FVec Ideal S512 .f32) : FVec Ideal S512x512 .f32 :=
  mulf (broadcastInDim S512x512 ![0, 1] bcast_S512x1_S512x512_0_1 (broadcastInDim S512x1 ![0] bcast_S512_S512x1_0 u))
    (broadcastInDim S512x512 ![0, 1] bcast_S1x512_S512x512_0_1 (broadcastInDim S1x512 ![1] bcast_S512_S1x512_1 u))

/-- 1 − s. -/
def comp (s5 : FVec Ideal S512 .f32) : FVec Ideal S512 .f32 :=
  subf (broadcastInDim S512 ![] bcast_S_S512 (constant (F := Ideal) S_ .f32 0x3F800000#32)) s5

/-- D = N₁ · (s ⊗ s) + N₀ · ((1 − s) ⊗ (1 − s)). -/
def den (s5 : FVec Ideal S512 .f32) : FVec Ideal S512x512 .f32 :=
  addf (mulf (broadcastInDim S512x512 ![] bcast_S_S512x512 (cnt1 s5)) (outer s5))
    (mulf (broadcastInDim S512x512 ![] bcast_S_S512x512 (cnt0 s5)) (outer (comp s5)))

/-- max(D, ε). -/
def denC (s5 : FVec Ideal S512 .f32) : FVec Ideal S512x512 .f32 :=
  maximumf (den s5) (broadcastInDim S512x512 ![] bcast_S_S512x512 (constant (F := Ideal) S_ .f32 0x358637BD#32))

/-- p · A + q · (S − A). -/
def num (s5 : FVec Ideal S512 .f32) (S A : FVec Ideal S512x512 .f32) : FVec Ideal S512x512 .f32 :=
  addf (mulf (outer s5) A) (mulf (outer (comp s5)) (subf S A))

/-- One family's loss matrix. -/
def fam (s5 : FVec Ideal S512 .f32) (E S A : FVec Ideal S512x512 .f32) : FVec Ideal S512x512 .f32 :=
  Host.divf (F := Ideal) (subf (mulf (Host.log (F := Ideal) E) (den s5)) (num s5 S A)) (denC s5)

/-- The three families' losses added entrywise. -/
def lossSum (s5 : FVec Ideal S512 .f32) (e1 s1 a1 e2 s2 a2 : FVec Ideal S512x512 .f32)
    (e0 s0 a0 : FVec Ideal S8x512x512 .f32) : FVec Ideal S512x512 .f32 :=
  addf (addf (fam s5 e1 s1 a1) (fam s5 e2 s2 a2)) (fam s5 (slabSum e0) (slabSum s0) (slabSum a0))

/-- What the 64 host operations after the kernel compute from the flag vector and the kernel's nine arrays. -/
def tailFn (s5 : FVec Ideal S512 .f32) (e1 s1 a1 e2 s2 a2 : FVec Ideal S512x512 .f32)
    (e0 s0 a0 : FVec Ideal S8x512x512 .f32) : FVec Ideal S_ .f32 :=
  Host.divf (F := Ideal)
    (Host.reduceAdd (F := Ideal) (lossSum s5 e1 s1 a1 e2 s2 a2 e0 s0 a0) (constant (F := Ideal) S_ .f32 0x00000000#32)
      reducesTo_S512x512_S_d0_1 h_S_)
    (constant (F := Ideal) S_ .f32 0x48800000#32)

set_option maxHeartbeats 4000000 in
/-- The last buffer after the 64 host operations is `tailFn` of the flag vector and the kernel's nine arrays. -/
theorem after_tail (W : Valuation τ sig (Elt Ideal)) :
    StableHlo.after (Gen.hostOps1 (F := Ideal)) W (Proc.devRef .tc main_v63)
      = tailFn (W (Proc.devRef .tc main_v5)) (W (Proc.devRef .tc main_v9_0)) (W (Proc.devRef .tc main_v9_1))
          (W (Proc.devRef .tc main_v9_2)) (W (Proc.devRef .tc main_v9_3)) (W (Proc.devRef .tc main_v9_4))
          (W (Proc.devRef .tc main_v9_5)) (W (Proc.devRef .tc main_v9_6)) (W (Proc.devRef .tc main_v9_7))
          (W (Proc.devRef .tc main_v9_8)) := by
  after_results_simp
  rfl

end Cert.KernelIdeal.Tail

end
-- ==== Proof.LibLossMath.lean ====
/-
  Real-number identities behind the loss: the literals of the two programs as extended reals, the operations of the
  extended reals on coerced reals, and the identity that turns the max-stabilised masked log-softmax loss into
  `Cert.Spec.famLoss`.
-/
import Idealize.ShloMosaic.PureOps.Ideal
import Idealize.ShloMosaic.PureOps.Ideal.Laws
import proofs.«124184_j88390426951927_2_alg».proof.Proof.Spec

noncomputable section

namespace Cert.LossMath

open BigOperators Idealize.ShloMosaic Cert.Spec

/-! ### (C) The stabilised masked log-softmax loss is `famLoss` -/

/-- A flag's real value is 0 or 1. -/
theorem b2r_sq (b : Bool) : b2r b = 0 ∨ b2r b = 1 := by
  cases b <;> simp [b2r]

/-- Subtracting a constant `M` inside the exponentials shifts the log-sum-exp by `M`:
    `Σ exp (x r − M) = (Σ exp (x r)) / exp M` and the sum is positive. -/
theorem log_sum_exp_shift (x : Fin 512 → ℝ) (M : ℝ) :
    Real.log (∑ r, Real.exp (x r - M)) = Real.log (∑ r, Real.exp (x r)) - M := by
  have hpos : 0 < ∑ r : Fin 512, Real.exp (x r) :=
    Finset.sum_pos (fun r _ => Real.exp_pos (x r)) Finset.univ_nonempty
  have hsum : (∑ r, Real.exp (x r - M)) = (∑ r, Real.exp (x r)) / Real.exp M := by
    rw [Finset.sum_div]
    exact Finset.sum_congr rfl (fun r _ => Real.exp_sub (x r) M)
  rw [hsum, Real.log_div hpos.ne' (Real.exp_pos M).ne', Real.log_exp]

/-- The indicator of "the flag `σ r` agrees with both `u` and `v`" written with the flags' real values. -/
theorem mask_eq (s u v : Bool) :
    (if (s = u ∧ s = v) then (1 : ℝ) else 0)
      = b2r s * (b2r u * b2r v) + (1 - b2r s) * ((1 - b2r u) * (1 - b2r v)) := by
  cases s <;> cases u <;> cases v <;> simp [b2r]

/-- Summing a weight of the form `s r · p + (1 − s r) · q` against `x r − L`. -/
theorem sum_weighted (s x : Fin 512 → ℝ) (p q L : ℝ) :
    (∑ r, (x r - L) * (s r * p + (1 - s r) * q))
      = (p * (∑ r, s r * x r) + q * ((∑ r, x r) - ∑ r, s r * x r))
        - L * ((∑ r, s r) * p + (512 - ∑ r, s r) * q) := by
  have h1 : ∀ r, (x r - L) * (s r * p + (1 - s r) * q)
      = (p * (s r * x r) + q * (x r - s r * x r)) - L * (p * s r + q * (1 - s r)) := by
    intro r; ring
  simp_rw [h1]
  rw [Finset.sum_sub_distrib, Finset.sum_add_distrib, ← Finset.mul_sum, ← Finset.mul_sum, ← Finset.mul_sum,
    Finset.sum_sub_distrib, Finset.sum_add_distrib, ← Finset.mul_sum, ← Finset.mul_sum, Finset.sum_sub_distrib]
  simp only [Finset.sum_const, Finset.card_univ, Fintype.card_fin, nsmul_eq_mul, mul_one]
  push_cast
  ring

/-- The sum of such a weight. -/
theorem sum_weight (s : Fin 512 → ℝ) (p q : ℝ) :
    (∑ r, (s r * p + (1 - s r) * q)) = (∑ r, s r) * p + (512 - ∑ r, s r) * q := by
  rw [Finset.sum_add_distrib, ← Finset.sum_mul, ← Finset.sum_mul, Finset.sum_sub_distrib]
  simp only [Finset.sum_const, Finset.card_univ, Fintype.card_fin, nsmul_eq_mul, mul_one]
  push_cast
  ring

theorem ref_family (ε : ℝ) (σ : Fin 512 → Bool) (x : Fin 512 → ℝ) (u v : Bool) (M : ℝ) (mask : Fin 512 → ℝ)
    (hmask : ∀ r, mask r = if (σ r = u ∧ σ r = v) then 1 else 0) :
    (-(∑ r, ((x r - M) - Real.log (∑ r', Real.exp (x r' - M))) * mask r)) / max (∑ r, mask r) ε
      = Cert.Spec.famLoss ε σ x u v := by
  have hm : ∀ r, mask r = b2r (σ r) * (b2r u * b2r v) + (1 - b2r (σ r)) * ((1 - b2r u) * (1 - b2r v)) := by
    intro r; rw [hmask r]; exact mask_eq (σ r) u v
  have hterm : ∀ r, ((x r - M) - Real.log (∑ r', Real.exp (x r' - M))) * mask r
      = (x r - Real.log (∑ r', Real.exp (x r')))
          * (b2r (σ r) * (b2r u * b2r v) + (1 - b2r (σ r)) * ((1 - b2r u) * (1 - b2r v))) := by
    intro r; rw [log_sum_exp_shift, hm r]; ring
  simp_rw [hterm, hm]
  rw [sum_weighted (fun r => b2r (σ r)) x, sum_weight (fun r => b2r (σ r))]
  unfold Cert.Spec.famLoss
  congr 1
  ring

/-! ### (A) The float literals of the two programs, as extended reals -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_negThree : Ideal.ofBits .f32 0xC0400000#32 = ((-3 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_262144 : Ideal.ofBits .f32 0x48800000#32 = ((262144 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- The binary32 word `0x358637BD` exactly: sign 0, exponent field 107, fraction field 407485, that is
    `(2^23 + 407485) · 2^(107 − 127 − 23) = 8796093 / 2^43`. -/
def epsR : ℝ := 8796093 / 8796093022208

theorem ofBits_eps : Ideal.ofBits .f32 0x358637BD#32 = ((epsR : ℝ) : EReal) := by
  simp [Ideal.ofBits, Ideal.ieee, epsR, -EReal.coe_mul]; norm_num

theorem epsR_pos : 0 < epsR := by
  unfold epsR; norm_num

/-! ### (B) The operations of the extended reals on coerced reals -/

theorem exp_coe (x : ℝ) : Ideal.exp (x : EReal) = ((Real.exp x : ℝ) : EReal) := rfl

theorem log_coe {x : ℝ} (hx : 0 < x) : Ideal.log (x : EReal) = ((Real.log x : ℝ) : EReal) := by
  rw [Ideal.log_coe, if_neg (not_le.2 hx)]

theorem div_coe (x : ℝ) {y : ℝ} (hy : y ≠ 0) : Ideal.div (x : EReal) (y : EReal) = ((x / y : ℝ) : EReal) := by
  rw [Ideal.div_coe hy, ← EReal.coe_mul, mul_one_div]

theorem max_coe (x y : ℝ) : max (x : EReal) (y : EReal) = ((max x y : ℝ) : EReal) :=
  (EReal.coe_strictMono.monotone.map_max (a := x) (b := y)).symm

theorem neg_coe (x : ℝ) : -(x : EReal) = ((-x : ℝ) : EReal) :=
  (EReal.coe_neg x).symm

theorem add_coe (x y : ℝ) : (x : EReal) + (y : EReal) = ((x + y : ℝ) : EReal) :=
  (EReal.coe_add x y).symm

theorem sub_coe (x y : ℝ) : (x : EReal) - (y : EReal) = ((x - y : ℝ) : EReal) :=
  (EReal.coe_sub x y).symm

theorem mul_coe (x y : ℝ) : (x : EReal) * (y : EReal) = ((x * y : ℝ) : EReal) :=
  (EReal.coe_mul x y).symm

/-- A finite sum of coerced reals is the coerced sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A left fold of `max` from a coerced real over coerced reals is a coerced real. -/
theorem foldl_max_coe_from (l : List ℝ) (a : ℝ) :
    ∃ M : ℝ, (l.map (fun r : ℝ => (r : EReal))).foldl max (a : EReal) = (M : EReal) := by
  induction l generalizing a with
  | nil => exact ⟨a, rfl⟩
  | cons b l ih =>
    obtain ⟨M, hM⟩ := ih (max a b)
    exact ⟨M, by rw [List.map_cons, List.foldl_cons, max_coe, hM]⟩

/-- A left fold of `max` from `⊥` over a nonempty list of coerced reals is a coerced real. -/
theorem foldl_max_coe (l : List ℝ) (hl : l ≠ []) :
    ∃ M : ℝ, (l.map (fun r : ℝ => (r : EReal))).foldl max (⊥ : EReal) = (M : EReal) := by
  cases l with
  | nil => exact absurd rfl hl
  | cons b l =>
    obtain ⟨M, hM⟩ := foldl_max_coe_from l b
    exact ⟨M, by rw [List.map_cons, List.foldl_cons, bot_sup_eq, hM]⟩

/-- The fold of `max` from `⊥` over a nonempty finite set of coerced reals is a coerced real: the shape in which a
    maximum-reduction over one axis is read (a fold over that axis's coordinates). -/
theorem finset_fold_max_coe {ι : Type*} (s : Finset ι) (hs : s.Nonempty) (x : ι → ℝ) :
    ∃ M : ℝ, s.fold max (⊥ : EReal) (fun i => (x i : EReal)) = (M : EReal) := by
  classical
  induction hs using Finset.Nonempty.cons_induction with
  | singleton a => exact ⟨x a, by rw [Finset.fold_singleton]; exact max_bot_right _⟩
  | cons a s ha hs ih =>
    obtain ⟨M, hM⟩ := ih
    exact ⟨max (x a) M, by rw [Finset.fold_cons, hM, max_coe]⟩

/-- The same over all of `Fin 512`, with the summand given as a composition. -/
theorem fold_max_coe_fin (x : Fin 512 → ℝ) :
    ∃ M : ℝ, (Finset.univ : Finset (Fin 512)).fold max (⊥ : EReal) (fun r => (x r : EReal)) = (M : EReal) :=
  finset_fold_max_coe Finset.univ Finset.univ_nonempty x

end Cert.LossMath

end
-- ==== Proof.KI.Tail.lean ====
/-
  The host operations after the kernel compute the mean loss of `Cert.Spec.total`.

  Hypotheses: the flag vector holds the flags' values 0 / 1, and the kernel's nine arrays hold, as coerced reals, the
  sums of exp x, of x and of flag · x along each of the three axes — for the leading axis in eight slabs, slab `ib`
  holding the sums over the 64 rows 64 · ib + r.

  Every stage of the tail, read at an entry (a, b), is then a coerced real:
    N₁ = Σ flags,  N₀ = 512 − N₁,  p = u · v,  q = (1 − u)(1 − v)  with u, v the flags of a and b,
    D = N₁ p + N₀ q,  max(D, ε) ≥ ε > 0, so the division is the division of reals,
    E = Σ exp x > 0, so the logarithm is the logarithm of reals,
  the eight slabs add up to the sum over all 512 rows, and the entry of each family is `Cert.Spec.famLoss` as written.
  The sum over both axes and the division by 262144 give `Cert.Spec.total`.
-/
import proofs.«124184_j88390426951927_2_alg».proof.Proof.KI.TailA
import proofs.«124184_j88390426951927_2_alg».proof.Proof.Spec
import proofs.«124184_j88390426951927_2_alg».proof.Proof.LibLossMath
import proofs.«124184_j88390426951927_2_alg».proof.Proof.LibSums
import proofs.«124184_j88390426951927_2_alg».proof.Proof.LibTileSum
import Idealize.ShloMosaic.Lib.ValueIdx
import Idealize.ShloMosaic.Lib.Pipeline.Value
import Idealize.ShloMosaic.PureOps.Ideal.Laws

set_option maxRecDepth 16384

noncomputable section

namespace Cert.KernelIdeal.Tail

open Cert.KernelIdeal Cert.KernelIdeal.Gen
open Idealize.ShloMosaic Idealize.ShloMosaic.TcCoe
open Idealize.SL.Sem

open Idealize.ShloMosaic.ValueIdx
open scoped BigOperators
open Cert.Spec

/-- Row `r` of the `ib`-th block of 64 rows. -/
def row (ib : Fin 8) (r : Fin 64) : Fin 512 :=
  ⟨64 * ib.val + r.val, by have := ib.isLt; have := r.isLt; omega⟩

/-! ### The pieces read at an index -/

/-- The slab sum at (a, b) is the sum over the eight slabs. -/
theorem slabSum_apply (x : FVec Ideal S8x512x512 .f32) (a b : Fin 512) :
    slabSum x (ix2 a b) = 0 + ∑ k : Fin 8, x (ix3 k a b) := by
  have h : Shape.Reduces S8x512x512 [0] S512x512 := by decide
  refine (Ideal.hostReduceAdd_single reducesTo_S8x512x512_S512x512_d0 h x _ (ix2 a b)).trans ?_
  exact congrArg₂ (· + ·) Ideal.ofBits_zero_f32
    (Finset.sum_congr rfl fun k _ => congrArg x (Cert.Sums.lift_lead3 h a b k))

/-- N₁ is the sum of the flag vector's entries. -/
theorem cnt1_apply (s5 : FVec Ideal S512 .f32) (j : S_.Idx) : cnt1 s5 j = 0 + ∑ a : Fin 512, s5 (ix1 a) := by
  refine (Ideal.hostReduceAdd_total reducesTo_S512_S_d0 (fun b => b.elim0) s5 _ j).trans ?_
  exact congrArg₂ (· + ·) Ideal.ofBits_zero_f32 (Cert.Sums.sum_idx1 s5)

/-- A scalar spread over a matrix reads the scalar. -/
theorem spread2_apply (v : FVec Ideal S_ .f32) (j : S512x512.Idx) :
    broadcastInDim S512x512 ![] bcast_S_S512x512 v j = v ix0 :=
  broadcastInDim_apply _ _ v j ix0 (fun a => a.elim0)

/-- A scalar spread over a vector reads the scalar. -/
theorem spread1_apply (v : FVec Ideal S_ .f32) (j : S512.Idx) :
    broadcastInDim S512 ![] bcast_S_S512 v j = v ix0 :=
  broadcastInDim_apply _ _ v j ix0 (fun a => a.elim0)

/-- (u ⊗ u)(a, b) = u a · u b. -/
theorem outer_apply (u : FVec Ideal S512 .f32) (a b : Fin 512) : outer u (ix2 a b) = u (ix1 a) * u (ix1 b) := by
  unfold outer
  rw [mulf_apply]
  refine congrArg₂ (· * ·) ?_ ?_
  · refine (broadcastInDim_apply _ _ _ (ix2 a b) (ix2 a (0 : Fin 1)) ?_).trans
      (broadcastInDim_apply _ _ u (ix2 a (0 : Fin 1)) (ix1 a) ?_)
    · intro d; match d with | ⟨0, _⟩ => rfl | ⟨1, _⟩ => rfl
    · intro d; match d with | ⟨0, _⟩ => rfl
  · refine (broadcastInDim_apply _ _ _ (ix2 a b) (ix2 (0 : Fin 1) b) ?_).trans
      (broadcastInDim_apply _ _ u (ix2 (0 : Fin 1) b) (ix1 b) ?_)
    · intro d; match d with | ⟨0, _⟩ => rfl | ⟨1, _⟩ => rfl
    · intro d; match d with | ⟨0, _⟩ => rfl

/-! ### The pieces as coerced reals -/

section Reals

variable (s5 : FVec Ideal S512 .f32) (σ : Fin 512 → Bool)
  (hs : ∀ a : Fin 512, s5 (ix1 a) = ((b2r (σ a) : ℝ) : EReal))
include hs

theorem cnt1_real (j : S_.Idx) : cnt1 s5 j = ((∑ r, b2r (σ r) : ℝ) : EReal) := by
  rw [cnt1_apply, zero_add]
  exact (Finset.sum_congr rfl fun a _ => hs a).trans (LossMath.coe_finset_sum _ _)

theorem cnt0_real (j : S_.Idx) : cnt0 s5 j = ((512 - ∑ r, b2r (σ r) : ℝ) : EReal) := by
  unfold cnt0
  rw [subf_apply, constant_apply, LossMath.ofBits_512, cnt1_real s5 σ hs, LossMath.sub_coe]

theorem comp_real (a : Fin 512) : comp s5 (ix1 a) = ((1 - b2r (σ a) : ℝ) : EReal) := by
  unfold comp
  rw [subf_apply, spread1_apply, constant_apply, LossMath.ofBits_one, hs, LossMath.sub_coe]

theorem outer_real (a b : Fin 512) : outer s5 (ix2 a b) = ((b2r (σ a) * b2r (σ b) : ℝ) : EReal) := by
  rw [outer_apply, hs, hs, LossMath.mul_coe]

theorem outer_comp_real (a b : Fin 512) :
    outer (comp s5) (ix2 a b) = (((1 - b2r (σ a)) * (1 - b2r (σ b)) : ℝ) : EReal) := by
  rw [outer_apply, comp_real s5 σ hs, comp_real s5 σ hs, LossMath.mul_coe]

theorem den_real (a b : Fin 512) :
    den s5 (ix2 a b) = (((∑ r, b2r (σ r)) * (b2r (σ a) * b2r (σ b))
      + (512 - ∑ r, b2r (σ r)) * ((1 - b2r (σ a)) * (1 - b2r (σ b))) : ℝ) : EReal) := by
  unfold den
  rw [addf_apply, mulf_apply, mulf_apply, spread2_apply, spread2_apply, cnt1_real s5 σ hs, cnt0_real s5 σ hs,
    outer_real s5 σ hs, outer_comp_real s5 σ hs, LossMath.mul_coe, LossMath.mul_coe, LossMath.add_coe]

theorem denC_real (a b : Fin 512) :
    denC s5 (ix2 a b) = ((max ((∑ r, b2r (σ r)) * (b2r (σ a) * b2r (σ b))
      + (512 - ∑ r, b2r (σ r)) * ((1 - b2r (σ a)) * (1 - b2r (σ b)))) LossMath.epsR : ℝ) : EReal) := by
  unfold denC
  rw [maximumf_apply, den_real s5 σ hs, spread2_apply, constant_apply, LossMath.ofBits_eps, LossMath.max_coe]

theorem num_real (S A : FVec Ideal S512x512 .f32) (a b : Fin 512) (Sr Ar : ℝ)
    (hS : S (ix2 a b) = (Sr : EReal)) (hA : A (ix2 a b) = (Ar : EReal)) :
    num s5 S A (ix2 a b) = (((b2r (σ a) * b2r (σ b)) * Ar
      + ((1 - b2r (σ a)) * (1 - b2r (σ b))) * (Sr - Ar) : ℝ) : EReal) := by
  unfold num
  rw [addf_apply, mulf_apply, mulf_apply, subf_apply, outer_real s5 σ hs, outer_comp_real s5 σ hs, hS, hA,
    LossMath.sub_coe, LossMath.mul_coe, LossMath.mul_coe, LossMath.add_coe]

/-- One family's entry is `famLoss` of the line the family reduces along. -/
theorem fam_real (E S A : FVec Ideal S512x512 .f32) (a b : Fin 512) (x : Fin 512 → ℝ)
    (hE : E (ix2 a b) = ((∑ r, Real.exp (x r) : ℝ) : EReal))
    (hS : S (ix2 a b) = ((∑ r, x r : ℝ) : EReal))
    (hA : A (ix2 a b) = ((∑ r, b2r (σ r) * x r : ℝ) : EReal)) :
    fam s5 E S A (ix2 a b) = ((famLoss LossMath.epsR σ x (σ a) (σ b) : ℝ) : EReal) := by
  have hpos : 0 < ∑ r : Fin 512, Real.exp (x r) :=
    Finset.sum_pos (fun r _ => Real.exp_pos (x r)) Finset.univ_nonempty
  have hne : max ((∑ r, b2r (σ r)) * (b2r (σ a) * b2r (σ b))
      + (512 - ∑ r, b2r (σ r)) * ((1 - b2r (σ a)) * (1 - b2r (σ b)))) LossMath.epsR ≠ 0 :=
    (lt_of_lt_of_le LossMath.epsR_pos (le_max_right _ _)).ne'
  show Ideal.div (Ideal.log (E (ix2 a b)) * den s5 (ix2 a b) - num s5 S A (ix2 a b)) (denC s5 (ix2 a b)) = _
  rw [hE, LossMath.log_coe hpos, den_real s5 σ hs, num_real s5 σ hs S A a b _ _ hS hA, denC_real s5 σ hs,
    LossMath.mul_coe, LossMath.sub_coe, LossMath.div_coe _ hne]
  rfl

omit hs in
/-- A slab sum whose slabs hold the sums over blocks of 64 rows is the sum over all 512 rows. -/
theorem slab_real (X : FVec Ideal S8x512x512 .f32) (a b : Fin 512) (g : Fin 512 → ℝ)
    (hX : ∀ ib : Fin 8, X (ix3 ib a b) = ((∑ r : Fin 64, g (row ib r) : ℝ) : EReal)) :
    slabSum X (ix2 a b) = ((∑ i, g i : ℝ) : EReal) := by
  have e : (∑ i : Fin 512, g i) = ∑ ib : Fin 8, ∑ r : Fin 64, g (row ib r) :=
    Cert.LibTileSum.sum_tiles_mul 8 64 g
  rw [slabSum_apply, zero_add, e]
  exact (Finset.sum_congr rfl fun ib _ => hX ib).trans (LossMath.coe_finset_sum _ _)

end Reals

/-! ### The whole tail -/

theorem tail_total (s5 : FVec Ideal S512 .f32) (e1 s1 a1 e2 s2 a2 : FVec Ideal S512x512 .f32)
    (e0 s0 a0 : FVec Ideal S8x512x512 .f32) (σ : Fin 512 → Bool) (xr : Fin 512 → Fin 512 → Fin 512 → ℝ)
    (hs : ∀ a : Fin 512, s5 (ix1 a) = ((b2r (σ a) : ℝ) : EReal))
    (he1 : ∀ a b : Fin 512, e1 (ix2 a b) = ((∑ j, Real.exp (xr a j b) : ℝ) : EReal))
    (hs1 : ∀ a b : Fin 512, s1 (ix2 a b) = ((∑ j, xr a j b : ℝ) : EReal))
    (ha1 : ∀ a b : Fin 512, a1 (ix2 a b) = ((∑ j, b2r (σ j) * xr a j b : ℝ) : EReal))
    (he2 : ∀ a b : Fin 512, e2 (ix2 a b) = ((∑ k, Real.exp (xr a b k) : ℝ) : EReal))
    (hs2 : ∀ a b : Fin 512, s2 (ix2 a b) = ((∑ k, xr a b k : ℝ) : EReal))
    (ha2 : ∀ a b : Fin 512, a2 (ix2 a b) = ((∑ k, b2r (σ k) * xr a b k : ℝ) : EReal))
    (he0 : ∀ (ib : Fin 8) (a b : Fin 512),
      e0 (ix3 ib a b) = ((∑ r : Fin 64, Real.exp (xr (row ib r) a b) : ℝ) : EReal))
    (hs0 : ∀ (ib : Fin 8) (a b : Fin 512), s0 (ix3 ib a b) = ((∑ r : Fin 64, xr (row ib r) a b : ℝ) : EReal))
    (ha0 : ∀ (ib : Fin 8) (a b : Fin 512),
      a0 (ix3 ib a b) = ((∑ r : Fin 64, b2r (σ (row ib r)) * xr (row ib r) a b : ℝ) : EReal)) :
    tailFn s5 e1 s1 a1 e2 s2 a2 e0 s0 a0 = fun _ => ((total LossMath.epsR σ xr : ℝ) : EReal) := by
  funext j
  have entry : ∀ a b : Fin 512, lossSum s5 e1 s1 a1 e2 s2 a2 e0 s0 a0 (ix2 a b)
      = (((famLoss LossMath.epsR σ (fun j => xr a j b) (σ a) (σ b)
            + famLoss LossMath.epsR σ (fun k => xr a b k) (σ a) (σ b))
          + famLoss LossMath.epsR σ (fun i => xr i a b) (σ a) (σ b) : ℝ) : EReal) := by
    intro a b
    unfold lossSum
    rw [addf_apply, addf_apply,
      fam_real s5 σ hs e1 s1 a1 a b (fun j => xr a j b) (he1 a b) (hs1 a b) (ha1 a b),
      fam_real s5 σ hs e2 s2 a2 a b (fun k => xr a b k) (he2 a b) (hs2 a b) (ha2 a b),
      fam_real s5 σ hs (slabSum e0) (slabSum s0) (slabSum a0) a b (fun i => xr i a b)
        (slab_real e0 a b (fun i => Real.exp (xr i a b)) (fun ib => he0 ib a b))
        (slab_real s0 a b (fun i => xr i a b) (fun ib => hs0 ib a b))
        (slab_real a0 a b (fun i => b2r (σ i) * xr i a b) (fun ib => ha0 ib a b)),
      LossMath.add_coe, LossMath.add_coe]
  show Ideal.div (Ideal.hostReduceAdd reducesTo_S512x512_S_d0_1 (lossSum s5 e1 s1 a1 e2 s2 a2 e0 s0 a0)
      (Ideal.ofBits .f32 0x00000000#32) j) (Ideal.ofBits .f32 0x48800000#32) = _
  rw [Ideal.hostReduceAdd_total reducesTo_S512x512_S_d0_1 (fun b => b.elim0), LossMath.ofBits_zero, zero_add,
    LossMath.ofBits_262144, sum_idx2]
  have sums : (∑ a : Fin 512, ∑ b : Fin 512, lossSum s5 e1 s1 a1 e2 s2 a2 e0 s0 a0 (ix2 a b))
      = ((∑ a : Fin 512, ∑ b : Fin 512, ((famLoss LossMath.epsR σ (fun j => xr a j b) (σ a) (σ b)
            + famLoss LossMath.epsR σ (fun k => xr a b k) (σ a) (σ b))
          + famLoss LossMath.epsR σ (fun i => xr i a b) (σ a) (σ b)) : ℝ) : EReal) := by
    refine (Finset.sum_congr rfl fun a _ => ?_).trans (LossMath.coe_finset_sum _ _)
    exact (Finset.sum_congr rfl fun b _ => entry a b).trans (LossMath.coe_finset_sum _ _)
  rw [sums, LossMath.div_coe _ (by norm_num)]
  rfl

end Cert.KernelIdeal.Tail

end
-- ==== Proof.KI.Flags.lean ====
/-
  The flag vector the host computes, entry by entry: 1 where the comparison bit of the index is set, 0 elsewhere.
-/
import proofs.«124184_j88390426951927_2_alg».proof.Proof.KI.Blocks
import proofs.«124184_j88390426951927_2_alg».proof.Proof.LibLossMath
import proofs.«124184_j88390426951927_2_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem

/-- The flag of index `a`: whether the rounded target at `a` is at least 0. -/
def flagK (x1 : (⟨S512x1, .f32⟩ : BufTy).Contents (Elt Ideal)) (a : Fin 512) : Bool :=
  decide (bitsK x1 (ix1 a) = 1#1)

/-- The flag vector's entry is the flag's value, 1 or 0, as a real. -/
theorem flagsK_at (x1 : (⟨S512x1, .f32⟩ : BufTy).Contents (Elt Ideal)) (a : Fin 512) :
    flagsK x1 (ix1 a) = ((Cert.Spec.b2r (flagK x1 a) : ℝ) : EReal) := by
  have hone : broadcastInDim S512 ![] bcast_S_S512 (constant (F := Ideal) S_ .f32 0x3F800000#32) (ix1 a)
      = ((1 : ℝ) : EReal) :=
    (broadcastInDim_apply _ _ _ (ix1 a) ix0 (fun d => d.elim0)).trans Cert.LossMath.ofBits_one
  have hzero : broadcastInDim S512 ![] bcast_S_S512 (constant (F := Ideal) S_ .f32 0x00000000#32) (ix1 a)
      = ((0 : ℝ) : EReal) :=
    (broadcastInDim_apply _ _ _ (ix1 a) ix0 (fun d => d.elim0)).trans (Cert.LossMath.ofBits_zero.trans EReal.coe_zero.symm)
  unfold flagsK flagK
  rw [select_apply, hone, hzero]
  by_cases h : bitsK x1 (ix1 a) = 1#1
  · rw [decide_eq_true h, h, select_one]
    simp [Cert.Spec.b2r]
  · rw [decide_eq_false h, eq_zero_of_ne_one h, select_zero]
    simp [Cert.Spec.b2r]

end Cert.KernelIdeal.Body

end
-- ==== Proof.KI.Finite.lean ====
/-
  Under the precondition every entry of the cube is a real number.

  The precondition says: every |x| is below +∞ (and the same for the second argument). On the extended reals
  |x| = max(x, −x), which is +∞ at both infinities, so an entry that passes the comparison is neither of them.
-/
import proofs.«124184_j88390426951927_2_alg».proof.Defs
import proofs.«124184_j88390426951927_2_alg».proof.Proof.Gen.Pre_finite_inputs
import Idealize.ShloMosaic.Lib.ReduceAll
import Idealize.ShloMosaic.Lib.ValueIdx

set_option maxRecDepth 16384

noncomputable section

namespace Cert.KernelIdeal.Body

open Cert.KernelIdeal
open Idealize.ShloMosaic Idealize.ShloMosaic.TcCoe Idealize.ShloMosaic.ValueIdx
open Idealize.SL.Sem

/-- A rank-zero shape has one index. -/
instance subsingleton_scalar_idx : Subsingleton (Cert.Pre_finite_inputs.S_).Idx :=
  ⟨fun _ _ => funext fun d => d.elim0⟩

/-- An extended real whose absolute value compares below the word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition the cube's entries are reals. -/
theorem cube_real (m : (ℓ : Loc nD τ sig) → Buf (Elt Ideal) ℓ)
    (hpre : Cert.Pre_KernelIdeal (hPre_finite_inputs := Cert.Pre_finite_inputs.Gen.facts) m) (c : Dev nD) :
    ∃ xr : Fin 512 → Fin 512 → Fin 512 → ℝ, ∀ a b d : Fin 512,
      m ((c.tc : Thread nD τ).loc main_arg0) (ix3 a b d) = ((xr a b d : ℝ) : EReal) := by
  have h := congrFun (hpre c) ValueIdx.ix0
  dsimp only [Cert.Pre_finite_inputs.fn] at h
  have h3 := (IntOp.andi_eq_one.1 h).1
  have ex : ∀ a b d : Fin 512, ∃ r : ℝ, m ((c.tc : Thread nD τ).loc main_arg0) (ix3 a b d) = (r : EReal) :=
    fun a b d => real_of_abs_lt_inf _ (Host.reduce_andi_all _ _ _ _ _ h3 (ix3 a b d))
  choose xr hxr using ex
  exact ⟨xr, hxr⟩

end Cert.KernelIdeal.Body

end
-- ==== Proof.KI.Value.lean ====
/-
  The kernel's result.

  After the run the nine arrays of the pipelined region hold the sums of the cube along each axis (plain, of the
  exponentials, and weighted by the flags); the host lines after the region turn them into the mean of the three losses.
  With the cube's entries real numbers the result is the real number `Spec.total`.
-/
import proofs.«124184_j88390426951927_2_alg».proof.Proof.KI.Fam0
import proofs.«124184_j88390426951927_2_alg».proof.Proof.KI.Fam1
import proofs.«124184_j88390426951927_2_alg».proof.Proof.KI.Tail
import proofs.«124184_j88390426951927_2_alg».proof.Proof.KI.Flags
import proofs.«124184_j88390426951927_2_alg».proof.Proof.KI.Finite

set_option maxRecDepth 16384

noncomputable section

open scoped BigOperators

namespace Cert.KernelIdeal.Body

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

open Cert.KernelIdeal.Tail Cert.Spec

variable (ρ : Dev nD → PrngReg) (c : Dev nD)

/-! ## The flag vector and its three re-laid copies, entry by entry -/

theorem v5_at (a : Fin 512) :
    V m c main_v5 (ix1 a) = ((b2r (flagK (m ((c : Thread nD τ).loc main_arg1)) a) : ℝ) : EReal) := by
  rw [V_v5]; exact flagsK_at _ a

theorem v6_at (a : Fin 512) :
    V m c main_v6 (ix3 a 0 0) = ((b2r (flagK (m ((c : Thread nD τ).loc main_arg1)) a) : ℝ) : EReal) := by
  rw [V_v6]
  refine (shapeCast_apply (flagsK _) shapeCasts_S512_S512x1x1 (ix3 a 0 0) (ix1 a) ?_).trans (flagsK_at _ a)
  rw [Shape.rowMajor_val_one, Shape.rowMajor_val_three]
  show a.val = (a.val * 1 + 0) * 1 + 0
  omega

theorem v7_at (a : Fin 512) :
    V m c main_v7 (ix3 0 a 0) = ((b2r (flagK (m ((c : Thread nD τ).loc main_arg1)) a) : ℝ) : EReal) := by
  rw [V_v7]
  refine (shapeCast_apply (flagsK _) shapeCasts_S512_S1x512x1 (ix3 0 a 0) (ix1 a) ?_).trans (flagsK_at _ a)
  rw [Shape.rowMajor_val_one, Shape.rowMajor_val_three]
  show a.val = (0 * 512 + a.val) * 1 + 0
  omega

theorem v8_at (a : Fin 512) :
    V m c main_v8 (ix3 0 0 a) = ((b2r (flagK (m ((c : Thread nD τ).loc main_arg1)) a) : ℝ) : EReal) := by
  rw [V_v8]
  refine (shapeCast_apply (flagsK _) shapeCasts_S512_S1x1x512 (ix3 0 0 a) (ix1 a) ?_).trans (flagsK_at _ a)
  rw [Shape.rowMajor_val_one, Shape.rowMajor_val_three]
  show a.val = (0 * 1 + 0) * 512 + a.val
  omega

/-! ## The result of @main -/

/-- With the cube's entries the reals `xr`, the value the host lines after the region leave in the result buffer is the
    real number `total` of the specification, the flags those of the comparison round(target) ≥ 0. -/
theorem result_eq (xr : Fin 512 → Fin 512 → Fin 512 → ℝ)
    (hx : ∀ a b d : Fin 512, m ((c : Thread nD τ).loc main_arg0) (ix3 a b d) = ((xr a b d : ℝ) : EReal)) :
    Pipeline.afterTail₀ cfgs (dats m) 0 (V0 m) [hostOps1] c main_v63
      = fun _ => ((total Cert.LossMath.epsR (flagK (m ((c : Thread nD τ).loc main_arg1))) xr : ℝ) : EReal) := by
  have hxV : ∀ a b d : Fin 512, V m c main_arg0 (ix3 a b d) = ((xr a b d : ℝ) : EReal) := fun a b d => by
    rw [V_main_arg0]; exact hx a b d
  unfold Pipeline.afterTail₀
  show StableHlo.after hostOps1 _ (Proc.devRef .tc main_v63) = _
  rw [after_tail]
  have h5 := Pipeline.withArrays_of_ne spec0 c (V0 m c) (fun w => (dats m 0 c).arrAt w cfg0.N) main_v5
    (by exact (by decide : ∀ w, Pipeline.arrRef spec0 w ≠ main_v5))
  have a4 := Pipeline.withArrays_arr spec0 launch0.win.arr_inj c (V0 m c) (fun w => (dats m 0 c).arrAt w cfg0.N) 4
  have a5 := Pipeline.withArrays_arr spec0 launch0.win.arr_inj c (V0 m c) (fun w => (dats m 0 c).arrAt w cfg0.N) 5
  have a6 := Pipeline.withArrays_arr spec0 launch0.win.arr_inj c (V0 m c) (fun w => (dats m 0 c).arrAt w cfg0.N) 6
  have a7 := Pipeline.withArrays_arr spec0 launch0.win.arr_inj c (V0 m c) (fun w => (dats m 0 c).arrAt w cfg0.N) 7
  have a8 := Pipeline.withArrays_arr spec0 launch0.win.arr_inj c (V0 m c) (fun w => (dats m 0 c).arrAt w cfg0.N) 8
  have a9 := Pipeline.withArrays_arr spec0 launch0.win.arr_inj c (V0 m c) (fun w => (dats m 0 c).arrAt w cfg0.N) 9
  have a10 := Pipeline.withArrays_arr spec0 launch0.win.arr_inj c (V0 m c) (fun w => (dats m 0 c).arrAt w cfg0.N) 10
  have a11 := Pipeline.withArrays_arr spec0 launch0.win.arr_inj c (V0 m c) (fun w => (dats m 0 c).arrAt w cfg0.N) 11
  have a12 := Pipeline.withArrays_arr spec0 launch0.win.arr_inj c (V0 m c) (fun w => (dats m 0 c).arrAt w cfg0.N) 12
  refine tail_total _ _ _ _ _ _ _ _ _ _ (flagK (m ((c : Thread nD τ).loc main_arg1))) xr ?_ ?_ ?_ ?_ ?_ ?_ ?_ ?_ ?_ ?_
  · intro a
    exact (congrFun h5 (ix1 a)).trans (v5_at m c a)
  · intro a b
    refine (congrFun a4 (ix2 a b)).trans ?_
    rw [final4 m c xr hxV]; show ((∑ j, Real.exp (xr (fi a.val) j (fi b.val)) : ℝ) : EReal) = _
    rw [fi_self, fi_self]
  · intro a b
    refine (congrFun a5 (ix2 a b)).trans ?_
    rw [final5 m c xr hxV]; show ((∑ j, xr (fi a.val) j (fi b.val) : ℝ) : EReal) = _
    rw [fi_self, fi_self]
  · intro a b
    refine (congrFun a6 (ix2 a b)).trans ?_
    rw [final6 m c xr _ hxV (v7_at m c)]; show ((∑ j, b2r (flagK _ j) * xr (fi a.val) j (fi b.val) : ℝ) : EReal) = _
    rw [fi_self, fi_self]
  · intro a b
    refine (congrFun a7 (ix2 a b)).trans ?_
    rw [final7 m c xr hxV]; show ((∑ k, Real.exp (xr (fi a.val) (fi b.val) k) : ℝ) : EReal) = _
    rw [fi_self, fi_self]
  · intro a b
    refine (congrFun a8 (ix2 a b)).trans ?_
    rw [final8 m c xr hxV]; show ((∑ k, xr (fi a.val) (fi b.val) k : ℝ) : EReal) = _
    rw [fi_self, fi_self]
  · intro a b
    refine (congrFun a9 (ix2 a b)).trans ?_
    rw [final9 m c xr _ hxV (v8_at m c)]; show ((∑ k, b2r (flagK _ k) * xr (fi a.val) (fi b.val) k : ℝ) : EReal) = _
    rw [fi_self, fi_self]
  · intro ib a b
    refine (congrFun a10 (ix3 ib a b)).trans ?_
    rw [final10 m c xr hxV]; show ((∑ r : Fin 64, Real.exp (xr (fi (64 * ib.val + r.val)) (fi a.val) (fi b.val)) : ℝ) : EReal) = _
    rw [fi_self, fi_self]
    refine congrArg _ (Finset.sum_congr rfl fun r _ => ?_)
    rw [show fi (64 * ib.val + r.val) = row ib r from Fin.ext (Nat.mod_eq_of_lt (by have := ib.isLt; have := r.isLt; omega))]
  · intro ib a b
    refine (congrFun a11 (ix3 ib a b)).trans ?_
    rw [final11 m c xr hxV]; show ((∑ r : Fin 64, xr (fi (64 * ib.val + r.val)) (fi a.val) (fi b.val) : ℝ) : EReal) = _
    rw [fi_self, fi_self]
    refine congrArg _ (Finset.sum_congr rfl fun r _ => ?_)
    rw [show fi (64 * ib.val + r.val) = row ib r from Fin.ext (Nat.mod_eq_of_lt (by have := ib.isLt; have := r.isLt; omega))]
  · intro ib a b
    refine (congrFun a12 (ix3 ib a b)).trans ?_
    rw [final12 m c xr _ hxV (v6_at m c)]; show ((∑ r : Fin 64, b2r (flagK _ (fi (64 * ib.val + r.val))) * xr (fi (64 * ib.val + r.val)) (fi a.val) (fi b.val) : ℝ) : EReal) = _
    rw [fi_self, fi_self]
    refine congrArg _ (Finset.sum_congr rfl fun r _ => ?_)
    rw [show fi (64 * ib.val + r.val) = row ib r from Fin.ext (Nat.mod_eq_of_lt (by have := ib.isLt; have := r.isLt; omega))]

/-- The run of the idealized kernel program: it terminates, leaves the arguments as launched, and its result is
    `total` of any real reading `xr` of the cube. -/
theorem kernel_run (xr : Dev nD → Fin 512 → Fin 512 → Fin 512 → ℝ)
    (hx : ∀ (c : Dev nD) (a b d : Fin 512), m ((c : Thread nD τ).loc main_arg0) (ix3 a b d) = ((xr c a b d : ℝ) : EReal)) :
    θ_run defs (onTc (τ := τ) (main (F := Ideal))) ⟨m, fun _ => 0, ρ⟩ (fun r => ∀ c : Dev nD,
      r.2.mem ((c.tc : Thread nD τ).loc main_v63)
          = (fun _ => ((total Cert.LossMath.epsR (flagK (m ((c : Thread nD τ).loc main_arg1))) (xr c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v63 (Pipeline.mem_restRefs_of main_v63 (by decide) (by decide))).trans (result_eq m c (xr c) (hx c)),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.RefValue.lean ====
/-
  The value of the reference program on a cube of real numbers: the specification's total loss.

  The reference rounds the target, compares it with 0 and selects 3 or −3: the class of an index. The mask at (i, j, k)
  is 1 when the class of j equals the class of k and the class of i, else 0. Both are stated through the flag of an
  index, the bit of the comparison. For each of the three axes the program computes the masked negative log-softmax
  along the axis, divided by the mask's own sum clamped below by ε: entry by entry this is the specification's loss of
  the line of the cube through the entry along that axis. The program adds the three matrices, sums all entries and
  divides by their number.
-/
import proofs.«124184_j88390426951927_2_alg».proof.Proof.RI.Read
import proofs.«124184_j88390426951927_2_alg».proof.Proof.Spec
import proofs.«124184_j88390426951927_2_alg».proof.Proof.LibLossMath
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

/-! ## The class vector, the mask, and reading a reduction along one axis -/

section Classes

/-- the flag of index a: the bit of the reference's comparison round(target) ≥ 0 -/
def flag (x1 : (⟨S512x1, .f32⟩ : BufTy).Contents (Elt Ideal)) (a : Fin 512) : Bool :=
  decide (ReadP.val_main_v3 (F := Ideal) x1 (ix1 a) = 1#1)

/-- The class value of a flag: 3 when raised, −3 otherwise. -/
def cls (b : Bool) : ℝ := if b then 3 else -3

/-- Two class values are equal exactly when the flags are. -/
theorem cls_inj (s t : Bool) : ((cls s : ℝ) : EReal) = ((cls t : ℝ) : EReal) ↔ s = t := by
  rw [EReal.coe_eq_coe_iff]
  cases s <;> cases t <;> simp [cls] <;> norm_num

/-- Comparing two class values for equality, then the bit against 0, gives the bit of "the flags agree". -/
theorem bit_eq (s t : Bool) :
    IntOp.cmpi .ne (FloatOps.cmpf (F := Ideal) (φ := .f32) .oeq ((cls s : ℝ) : EReal) ((cls t : ℝ) : EReal)) 0#1
      = BitVec.ofBool (decide (s = t)) := by
  show IntOp.cmpi .ne (BitVec.ofBool (decide (((cls s : ℝ) : EReal) = ((cls t : ℝ) : EReal)))) 0#1 = _
  simp only [cls_inj]
  cases s <;> cases t <;> decide

/-- The conjunction of two bits, converted to a real number, is the indicator of both. -/
theorem mask_val (p q : Bool) :
    FloatOps.uitofp (F := Ideal) .f32 (IntOp.andi (BitVec.ofBool p) (BitVec.ofBool q))
      = (((if (p = true ∧ q = true) then 1 else 0 : ℝ)) : EReal) := by
  show (((IntOp.andi (BitVec.ofBool p) (BitVec.ofBool q)).toNat : ℝ) : EReal) = _
  cases p <;> cases q <;> simp [IntOp.andi]

/-- The mask as a real number: 1 when the flag of j agrees with those of k and of i. -/
def maskR (σ : Fin 512 → Bool) (i j k : Fin 512) : ℝ := if (σ j = σ k ∧ σ j = σ i) then 1 else 0

/-- The mask read along the middle axis, with the conditions in the order of the entry's two indices. -/
theorem maskR_mid (σ : Fin 512 → Bool) (a b r : Fin 512) :
    maskR σ a r b = if (σ r = σ a ∧ σ r = σ b) then 1 else 0 := by
  unfold maskR; generalize σ a = p; generalize σ b = q; generalize σ r = s
  cases p <;> cases q <;> cases s <;> simp

/-- The mask read along the last axis. -/
theorem maskR_last (σ : Fin 512 → Bool) (a b r : Fin 512) :
    maskR σ a b r = if (σ r = σ a ∧ σ r = σ b) then 1 else 0 := by
  unfold maskR; generalize σ a = p; generalize σ b = q; generalize σ r = s
  cases p <;> cases q <;> cases s <;> simp

/-- The mask read along the leading axis. -/
theorem maskR_lead (σ : Fin 512 → Bool) (a b r : Fin 512) :
    maskR σ r a b = if (σ r = σ a ∧ σ r = σ b) then 1 else 0 := by
  unfold maskR; generalize σ a = p; generalize σ b = q; generalize σ r = s
  cases p <;> cases q <;> cases s <;> simp

variable (x1 : (⟨S512x1, .f32⟩ : BufTy).Contents (Elt Ideal))

/-- The class vector at a: 3 or −3 by the flag. -/
theorem cls_apply (a : Fin 512) : val_main_v4 (F := Ideal) x1 (ix1 a) = ((cls (flag x1 a) : ℝ) : EReal) := by
  rw [val_main_v4_apply, val_main_call1_v0_apply, val_main_call1_v1_apply, val_main_cst_0_apply, val_main_cst_1_apply]
  simp only [Ideal.ofBits_def, Cert.LossMath.ofBits_three, Cert.LossMath.ofBits_negThree]
  unfold flag cls Scalar.select
  by_cases h : val_main_v3 (F := Ideal) x1 (ix1 a) = 1#1
  · simp [h]
  · simp [h]

/-- The first comparison, broadcast over the cube, at (i, j, k): the flags of j and k agree. -/
theorem v21_apply (i j k : Fin 512) :
    val_main_v21 (F := Ideal) x1 (ix3 i j k) = BitVec.ofBool (decide (flag x1 j = flag x1 k)) := by
  rw [val_main_v21_apply, val_main_v17_apply, val_main_v16_apply, val_main_v9_apply, val_main_v15_apply, val_main_c_apply,
    val_main_v7_apply, val_main_v5_apply, val_main_v8_apply, val_main_v6_apply]
  have e1 : idx_main_v5 (idx_main_v7 (idx_main_v21 (ix3 i j k))) = ix1 j :=
    funext fun a => by match a with | ⟨0, _⟩ => rfl
  have e2 : idx_main_v6 (idx_main_v8 (idx_main_v21 (ix3 i j k))) = ix1 k :=
    funext fun a => by match a with | ⟨0, _⟩ => rfl
  rw [e1, e2, cls_apply, cls_apply]
  exact bit_eq _ _

/-- The second comparison, broadcast over the cube, at (i, j, k): the flags of j and i agree. -/
theorem v22_apply (i j k : Fin 512) :
    val_main_v22 (F := Ideal) x1 (ix3 i j k) = BitVec.ofBool (decide (flag x1 j = flag x1 i)) := by
  rw [val_main_v22_apply, val_main_v20_apply, val_main_v19_apply, val_main_v14_apply, val_main_v18_apply, val_main_c_2_apply,
    val_main_v12_apply, val_main_v10_apply, val_main_v13_apply, val_main_v11_apply]
  have e1 : idx_main_v10 (idx_main_v12 (idx_main_v22 (ix3 i j k))) = ix1 j :=
    funext fun a => by match a with | ⟨0, _⟩ => rfl
  have e2 : idx_main_v11 (idx_main_v13 (idx_main_v22 (ix3 i j k))) = ix1 i :=
    funext fun a => by match a with | ⟨0, _⟩ => rfl
  rw [e1, e2, cls_apply, cls_apply]
  exact bit_eq _ _

/-- The mask at (i, j, k). -/
theorem mask_apply (i j k : Fin 512) :
    val_main_v24 (F := Ideal) x1 (ix3 i j k) = ((maskR (flag x1) i j k : ℝ) : EReal) := by
  rw [val_main_v24_apply, val_main_v23_apply, v21_apply, v22_apply, mask_val]
  simp only [decide_eq_true_eq, maskR]

/-! ### Indices with one coordinate inserted -/

/-- Inserting r on the middle axis of (i, k). -/
theorem lift_mid3 (h : Shape.Reduces ⟨3, ![512, 512, 512]⟩ [1] ⟨2, ![512, 512]⟩) (i k r : Fin 512) :
    h.lift (ix2 i k) r = ix3 i r k :=
  funext fun d => Fin.ext (by match d with | ⟨0, _⟩ => rfl | ⟨1, _⟩ => rfl | ⟨2, _⟩ => rfl)

/-- Inserting r on the last axis of (i, j). -/
theorem lift_last3 (h : Shape.Reduces ⟨3, ![512, 512, 512]⟩ [2] ⟨2, ![512, 512]⟩) (i j r : Fin 512) :
    h.lift (ix2 i j) r = ix3 i j r :=
  funext fun d => Fin.ext (by match d with | ⟨0, _⟩ => rfl | ⟨1, _⟩ => rfl | ⟨2, _⟩ => rfl)

/-- Inserting r on the leading axis of (j, k). -/
theorem lift_lead3 (h : Shape.Reduces ⟨3, ![512, 512, 512]⟩ [0] ⟨2, ![512, 512]⟩) (j k r : Fin 512) :
    h.lift (ix2 j k) r = ix3 r j k :=
  funext fun d => Fin.ext (by match d with | ⟨0, _⟩ => rfl | ⟨1, _⟩ => rfl | ⟨2, _⟩ => rfl)

/-- A maximum-reduction from −∞ along one axis of the cube, where the line it reads holds real numbers, is a real
    number. -/
theorem reduce_max_coe {a : Fin 3} (h' : Shape.ReducesTo ⟨3, ![512, 512, 512]⟩ [a] ⟨2, ![512, 512]⟩)
    (h : Shape.Reduces ⟨3, ![512, 512, 512]⟩ [a] ⟨2, ![512, 512]⟩)
    (x0 : (⟨3, ![512, 512, 512]⟩ : Shape).Idx → EReal) (init : (⟨0, ![]⟩ : Shape).Idx → EReal) (hu : 0 < (⟨0, ![]⟩ : Shape).numel)
    (hinit : init (Shape.Idx.first hu) = ⊥) (j : (⟨2, ![512, 512]⟩ : Shape).Idx) (f : Fin 512 → ℝ)
    (hs : (⟨3, ![512, 512, 512]⟩ : Shape).size a = 512)
    (hf : ∀ r : Fin ((⟨3, ![512, 512, 512]⟩ : Shape).size a), x0 (h.lift j r) = ((f (Fin.cast hs r) : ℝ) : EReal)) :
    ∃ M : ℝ, Host.reduce (FloatOps.maximumf (F := Ideal) (φ := .f32)) x0 init h' hu j = (M : EReal) := by
  rw [Host.reduce_eq_fold_single (FloatOps.maximumf (F := Ideal) (φ := .f32)) x0 init h' h hu j, hinit]
  have hcomp : x0 ∘ h.lift j = fun r => ((f (Fin.cast hs r) : ℝ) : EReal) := funext hf
  rw [hcomp]
  haveI : Nonempty (Fin ((⟨3, ![512, 512, 512]⟩ : Shape).size a)) := ⟨Fin.cast hs.symm 0⟩
  exact Cert.LossMath.finset_fold_max_coe Finset.univ Finset.univ_nonempty (fun r => f (Fin.cast hs r))

end Classes

/-! ## The loss along the middle axis, at one entry

At the entry (a, b) the program takes the maximum M of the line of the cube along the axis, subtracts it, sums the
exponentials, takes the logarithm, subtracts again, multiplies by the mask, sums, negates, and divides by the mask's
own sum clamped below by ε. Every stage is a real number when the cube holds real numbers, and the quotient is the
specification's loss of that line. -/

section AxisMid

variable (x0 : (⟨S512x512x512, .f32⟩ : BufTy).Contents (Elt Ideal)) (x1 : (⟨S512x1, .f32⟩ : BufTy).Contents (Elt Ideal))
  (xr : Fin 512 → Fin 512 → Fin 512 → ℝ)

/-- The maximum stage at the entry (a, b), as a real number. -/
def M1 (a b : Fin 512) : ℝ := (val_main_call2_v2 (F := Ideal) x0 (ix2 a b)).toReal

/-- The line of the cube through the entry (a, b) along the axis. -/
def line1 (a b : Fin 512) : Fin 512 → ℝ := fun r => xr a r b

/-- The sum of the exponentials of the shifted line. -/
def S1 (a b : Fin 512) : ℝ := ∑ r, Real.exp (line1 xr a b r - M1 x0 a b)

theorem M1_eq (hx : ∀ a b c, x0 (ix3 a b c) = ((xr a b c : ℝ) : EReal)) (a b : Fin 512) :
    val_main_call2_v2 (F := Ideal) x0 (ix2 a b) = ((M1 x0 a b : ℝ) : EReal) := by
  have h : ∃ M : ℝ, val_main_call2_v2 (F := Ideal) x0 (ix2 a b) = (M : EReal) := by
    rw [val_main_call2_v2_apply, val_main_call2_v1_apply, val_main_call2_cst_0_apply]
    unfold val_main_call2_v0
    obtain ⟨M, hM⟩ := reduce_max_coe (a := 1) reducesTo_S512x512x512_S512x512_d1 (by decide) x0 (val_main_call2_cst (F := Ideal)) h_S_
      (by rw [val_main_call2_cst_apply]; exact Cert.LossMath.ofBits_negInf) (ix2 a b) (line1 xr a b) rfl
      (fun r => (congrArg x0 (lift_mid3 _ a b r)).trans (hx _ _ _))
    refine ⟨M, ?_⟩
    rw [hM, Ideal.ofBits_def, Cert.LossMath.ofBits_negInf]
    exact max_eq_right bot_le
  obtain ⟨M, hM⟩ := h
  unfold M1
  rw [hM]
  rfl

variable (hx : ∀ a b c, x0 (ix3 a b c) = ((xr a b c : ℝ) : EReal))
include hx

/-- The shifted cube at (i, j, k). -/
theorem ax1_shift (i j k : Fin 512) :
    val_main_call2_v5 (F := Ideal) x0 (ix3 i j k) = ((xr i j k - M1 x0 i k : ℝ) : EReal) := by
  rw [val_main_call2_v5_apply, val_main_call2_v4_apply, val_main_call2_v3_apply]
  have e : idx_main_call2_v3 (idx_main_call2_v4 (ix3 i j k)) = ix2 i k :=
    funext fun d => by match d with | ⟨0, _⟩ => rfl | ⟨1, _⟩ => rfl
  rw [e, M1_eq x0 xr hx, hx]
  rfl

/-- The sum of exponentials at the entry (a, b). -/
theorem ax1_sumexp (a b : Fin 512) :
    val_main_call2_v7 (F := Ideal) x0 (ix2 a b) = ((S1 x0 xr a b : ℝ) : EReal) := by
  rw [val_main_call2_v7_apply, val_main_call2_cst_1_apply, Ideal.ofBits_def, Cert.LossMath.ofBits_zero, zero_add]
  refine Eq.trans (Finset.sum_congr rfl fun r _ => ?_)
    (Cert.LossMath.coe_finset_sum Finset.univ fun r => Real.exp (line1 xr a b r - M1 x0 a b))
  have e : idx_main_call2_v7 (ix2 a b) r = ix3 a r b :=
    funext fun d => by match d with | ⟨0, _⟩ => rfl | ⟨1, _⟩ => rfl | ⟨2, _⟩ => rfl
  rw [e, val_main_call2_v6_apply, ax1_shift x0 xr hx]
  rfl

theorem S1_pos (a b : Fin 512) : 0 < S1 x0 xr a b :=
  Finset.sum_pos (fun r _ => Real.exp_pos _) Finset.univ_nonempty

/-- The logarithm of the sum, broadcast back over the cube. -/
theorem ax1_logsum (i j k : Fin 512) :
    val_main_call2_v10 (F := Ideal) x0 (ix3 i j k) = ((Real.log (S1 x0 xr i k) : ℝ) : EReal) := by
  rw [val_main_call2_v10_apply, val_main_call2_v9_apply, val_main_call2_v8_apply]
  have e : idx_main_call2_v8 (idx_main_call2_v10 (ix3 i j k)) = ix2 i k :=
    funext fun d => by match d with | ⟨0, _⟩ => rfl | ⟨1, _⟩ => rfl
  rw [e, ax1_sumexp x0 xr hx, Ideal.hostUnary_log_def]
  exact Cert.LossMath.log_coe (S1_pos x0 xr hx _ _)

/-- The masked log-softmax at (i, j, k). -/
theorem ax1_term (i j k : Fin 512) :
    val_main_v26 (F := Ideal) x0 x1 (ix3 i j k)
      = ((((xr i j k - M1 x0 i k) - Real.log (S1 x0 xr i k)) * maskR (flag x1) i j k : ℝ) : EReal) := by
  rw [val_main_v26_apply, val_main_v25_apply, ax1_shift x0 xr hx, ax1_logsum x0 xr hx, mask_apply]
  simp only [Ideal.mulf_def, Ideal.subf_def, ← EReal.coe_sub, ← EReal.coe_mul]

/-- The numerator at the entry (a, b). -/
theorem ax1_num (a b : Fin 512) :
    val_main_v28 (F := Ideal) x0 x1 (ix2 a b)
      = ((-(∑ r, ((line1 xr a b r - M1 x0 a b) - Real.log (S1 x0 xr a b)) * maskR (flag x1) a r b) : ℝ) : EReal) := by
  rw [val_main_v28_apply, val_main_v27_apply, val_main_cst_3_apply, Ideal.ofBits_def, Cert.LossMath.ofBits_zero, zero_add,
    Ideal.hostNegf_def, Ideal.negf_def, EReal.coe_neg]
  refine congrArg Neg.neg ?_
  refine Eq.trans (Finset.sum_congr rfl fun r _ => ?_)
    (Cert.LossMath.coe_finset_sum Finset.univ fun r =>
      ((line1 xr a b r - M1 x0 a b) - Real.log (S1 x0 xr a b)) * maskR (flag x1) a r b)
  have e : idx_main_v27 (ix2 a b) r = ix3 a r b :=
    funext fun d => by match d with | ⟨0, _⟩ => rfl | ⟨1, _⟩ => rfl | ⟨2, _⟩ => rfl
  rw [e, ax1_term x0 x1 xr hx]
  rfl

omit hx in
/-- The mask's own sum at the entry (a, b), clamped below by ε. -/
theorem ax1_den (a b : Fin 512) :
    val_main_v31 (F := Ideal) x1 (ix2 a b)
      = ((max (∑ r, maskR (flag x1) a r b) Cert.LossMath.epsR : ℝ) : EReal) := by
  rw [val_main_v31_apply, val_main_v29_apply, val_main_cst_4_apply, val_main_v30_apply, val_main_cst_5_apply,
    Ideal.ofBits_def, Ideal.ofBits_def, Cert.LossMath.ofBits_zero, Cert.LossMath.ofBits_eps, zero_add, Ideal.maximumf_def]
  refine Eq.trans (congrArg (max · _) ?_) (Cert.LossMath.max_coe _ _)
  refine Eq.trans (Finset.sum_congr rfl fun r _ => ?_)
    (Cert.LossMath.coe_finset_sum Finset.univ fun r => maskR (flag x1) a r b)
  have e : idx_main_v29 (ix2 a b) r = ix3 a r b :=
    funext fun d => by match d with | ⟨0, _⟩ => rfl | ⟨1, _⟩ => rfl | ⟨2, _⟩ => rfl
  rw [e, mask_apply]

/-- The loss along the axis at the entry (a, b) is the specification's. -/
theorem ax1_loss (a b : Fin 512) :
    val_main_v34 (F := Ideal) x0 x1 (ix2 a b)
      = ((famLoss Cert.LossMath.epsR (flag x1) (line1 xr a b) (flag x1 a) (flag x1 b) : ℝ) : EReal) := by
  have hden : max (∑ r, maskR (flag x1) a r b) Cert.LossMath.epsR ≠ 0 :=
    ne_of_gt (lt_of_lt_of_le Cert.LossMath.epsR_pos (le_max_right _ _))
  rw [val_main_v34_apply, val_main_v33_apply, val_main_cst_6_apply, val_main_v32_apply, ax1_num x0 x1 xr hx, ax1_den,
    Ideal.ofBits_def, Cert.LossMath.ofBits_one, Ideal.hostDivf_def, Cert.LossMath.div_coe _ hden, Ideal.mulf_def,
    Cert.LossMath.mul_coe, one_mul]
  refine congrArg _ ?_
  exact Cert.LossMath.ref_family Cert.LossMath.epsR (flag x1) (line1 xr a b) (flag x1 a) (flag x1 b) (M1 x0 a b)
    (fun r => maskR (flag x1) a r b) (fun r => maskR_mid (flag x1) a b r)

end AxisMid

/-! ## The loss along the last axis, at one entry

At the entry (a, b) the program takes the maximum M of the line of the cube along the axis, subtracts it, sums the
exponentials, takes the logarithm, subtracts again, multiplies by the mask, sums, negates, and divides by the mask's
own sum clamped below by ε. Every stage is a real number when the cube holds real numbers, and the quotient is the
specification's loss of that line. -/

section AxisLast

variable (x0 : (⟨S512x512x512, .f32⟩ : BufTy).Contents (Elt Ideal)) (x1 : (⟨S512x1, .f32⟩ : BufTy).Contents (Elt Ideal))
  (xr : Fin 512 → Fin 512 → Fin 512 → ℝ)

/-- The maximum stage at the entry (a, b), as a real number. -/
def M2 (a b : Fin 512) : ℝ := (val_main_call3_v2 (F := Ideal) x0 (ix2 a b)).toReal

/-- The line of the cube through the entry (a, b) along the axis. -/
def line2 (a b : Fin 512) : Fin 512 → ℝ := fun r => xr a b r

/-- The sum of the exponentials of the shifted line. -/
def S2 (a b : Fin 512) : ℝ := ∑ r, Real.exp (line2 xr a b r - M2 x0 a b)

theorem M2_eq (hx : ∀ a b c, x0 (ix3 a b c) = ((xr a b c : ℝ) : EReal)) (a b : Fin 512) :
    val_main_call3_v2 (F := Ideal) x0 (ix2 a b) = ((M2 x0 a b : ℝ) : EReal) := by
  have h : ∃ M : ℝ, val_main_call3_v2 (F := Ideal) x0 (ix2 a b) = (M : EReal) := by
    rw [val_main_call3_v2_apply, val_main_call3_v1_apply, val_main_call3_cst_0_apply]
    unfold val_main_call3_v0
    obtain ⟨M, hM⟩ := reduce_max_coe (a := 2) reducesTo_S512x512x512_S512x512_d2 (by decide) x0 (val_main_call3_cst (F := Ideal)) h_S_
      (by rw [val_main_call3_cst_apply]; exact Cert.LossMath.ofBits_negInf) (ix2 a b) (line2 xr a b) rfl
      (fun r => (congrArg x0 (lift_last3 _ a b r)).trans (hx _ _ _))
    refine ⟨M, ?_⟩
    rw [hM, Ideal.ofBits_def, Cert.LossMath.ofBits_negInf]
    exact max_eq_right bot_le
  obtain ⟨M, hM⟩ := h
  unfold M2
  rw [hM]
  rfl

variable (hx : ∀ a b c, x0 (ix3 a b c) = ((xr a b c : ℝ) : EReal))
include hx

/-- The shifted cube at (i, j, k). -/
theorem ax2_shift (i j k : Fin 512) :
    val_main_call3_v5 (F := Ideal) x0 (ix3 i j k) = ((xr i j k - M2 x0 i j : ℝ) : EReal) := by
  rw [val_main_call3_v5_apply, val_main_call3_v4_apply, val_main_call3_v3_apply]
  have e : idx_main_call3_v3 (idx_main_call3_v4 (ix3 i j k)) = ix2 i j :=
    funext fun d => by match d with | ⟨0, _⟩ => rfl | ⟨1, _⟩ => rfl
  rw [e, M2_eq x0 xr hx, hx]
  rfl

/-- The sum of exponentials at the entry (a, b). -/
theorem ax2_sumexp (a b : Fin 512) :
    val_main_call3_v7 (F := Ideal) x0 (ix2 a b) = ((S2 x0 xr a b : ℝ) : EReal) := by
  rw [val_main_call3_v7_apply, val_main_call3_cst_1_apply, Ideal.ofBits_def, Cert.LossMath.ofBits_zero, zero_add]
  refine Eq.trans (Finset.sum_congr rfl fun r _ => ?_)
    (Cert.LossMath.coe_finset_sum Finset.univ fun r => Real.exp (line2 xr a b r - M2 x0 a b))
  have e : idx_main_call3_v7 (ix2 a b) r = ix3 a b r :=
    funext fun d => by match d with | ⟨0, _⟩ => rfl | ⟨1, _⟩ => rfl | ⟨2, _⟩ => rfl
  rw [e, val_main_call3_v6_apply, ax2_shift x0 xr hx]
  rfl

theorem S2_pos (a b : Fin 512) : 0 < S2 x0 xr a b :=
  Finset.sum_pos (fun r _ => Real.exp_pos _) Finset.univ_nonempty

/-- The logarithm of the sum, broadcast back over the cube. -/
theorem ax2_logsum (i j k : Fin 512) :
    val_main_call3_v10 (F := Ideal) x0 (ix3 i j k) = ((Real.log (S2 x0 xr i j) : ℝ) : EReal) := by
  rw [val_main_call3_v10_apply, val_main_call3_v9_apply, val_main_call3_v8_apply]
  have e : idx_main_call3_v8 (idx_main_call3_v10 (ix3 i j k)) = ix2 i j :=
    funext fun d => by match d with | ⟨0, _⟩ => rfl | ⟨1, _⟩ => rfl
  rw [e, ax2_sumexp x0 xr hx, Ideal.hostUnary_log_def]
  exact Cert.LossMath.log_coe (S2_pos x0 xr hx _ _)

/-- The masked log-softmax at (i, j, k). -/
theorem ax2_term (i j k : Fin 512) :
    val_main_v36 (F := Ideal) x0 x1 (ix3 i j k)
      = ((((xr i j k - M2 x0 i j) - Real.log (S2 x0 xr i j)) * maskR (flag x1) i j k : ℝ) : EReal) := by
  rw [val_main_v36_apply, val_main_v35_apply, ax2_shift x0 xr hx, ax2_logsum x0 xr hx, mask_apply]
  simp only [Ideal.mulf_def, Ideal.subf_def, ← EReal.coe_sub, ← EReal.coe_mul]

/-- The numerator at the entry (a, b). -/
theorem ax2_num (a b : Fin 512) :
    val_main_v38 (F := Ideal) x0 x1 (ix2 a b)
      = ((-(∑ r, ((line2 xr a b r - M2 x0 a b) - Real.log (S2 x0 xr a b)) * maskR (flag x1) a b r) : ℝ) : EReal) := by
  rw [val_main_v38_apply, val_main_v37_apply, val_main_cst_7_apply, Ideal.ofBits_def, Cert.LossMath.ofBits_zero, zero_add,
    Ideal.hostNegf_def, Ideal.negf_def, EReal.coe_neg]
  refine congrArg Neg.neg ?_
  refine Eq.trans (Finset.sum_congr rfl fun r _ => ?_)
    (Cert.LossMath.coe_finset_sum Finset.univ fun r =>
      ((line2 xr a b r - M2 x0 a b) - Real.log (S2 x0 xr a b)) * maskR (flag x1) a b r)
  have e : idx_main_v37 (ix2 a b) r = ix3 a b r :=
    funext fun d => by match d with | ⟨0, _⟩ => rfl | ⟨1, _⟩ => rfl | ⟨2, _⟩ => rfl
  rw [e, ax2_term x0 x1 xr hx]
  rfl

omit hx in
/-- The mask's own sum at the entry (a, b), clamped below by ε. -/
theorem ax2_den (a b : Fin 512) :
    val_main_v41 (F := Ideal) x1 (ix2 a b)
      = ((max (∑ r, maskR (flag x1) a b r) Cert.LossMath.epsR : ℝ) : EReal) := by
  rw [val_main_v41_apply, val_main_v39_apply, val_main_cst_8_apply, val_main_v40_apply, val_main_cst_9_apply,
    Ideal.ofBits_def, Ideal.ofBits_def, Cert.LossMath.ofBits_zero, Cert.LossMath.ofBits_eps, zero_add, Ideal.maximumf_def]
  refine Eq.trans (congrArg (max · _) ?_) (Cert.LossMath.max_coe _ _)
  refine Eq.trans (Finset.sum_congr rfl fun r _ => ?_)
    (Cert.LossMath.coe_finset_sum Finset.univ fun r => maskR (flag x1) a b r)
  have e : idx_main_v39 (ix2 a b) r = ix3 a b r :=
    funext fun d => by match d with | ⟨0, _⟩ => rfl | ⟨1, _⟩ => rfl | ⟨2, _⟩ => rfl
  rw [e, mask_apply]

/-- The loss along the axis at the entry (a, b) is the specification's. -/
theorem ax2_loss (a b : Fin 512) :
    val_main_v44 (F := Ideal) x0 x1 (ix2 a b)
      = ((famLoss Cert.LossMath.epsR (flag x1) (line2 xr a b) (flag x1 a) (flag x1 b) : ℝ) : EReal) := by
  have hden : max (∑ r, maskR (flag x1) a b r) Cert.LossMath.epsR ≠ 0 :=
    ne_of_gt (lt_of_lt_of_le Cert.LossMath.epsR_pos (le_max_right _ _))
  rw [val_main_v44_apply, val_main_v43_apply, val_main_cst_10_apply, val_main_v42_apply, ax2_num x0 x1 xr hx, ax2_den,
    Ideal.ofBits_def, Cert.LossMath.ofBits_one, Ideal.hostDivf_def, Cert.LossMath.div_coe _ hden, Ideal.mulf_def,
    Cert.LossMath.mul_coe, one_mul]
  refine congrArg _ ?_
  exact Cert.LossMath.ref_family Cert.LossMath.epsR (flag x1) (line2 xr a b) (flag x1 a) (flag x1 b) (M2 x0 a b)
    (fun r => maskR (flag x1) a b r) (fun r => maskR_last (flag x1) a b r)

end AxisLast

/-! ## The loss along the leading axis, at one entry

At the entry (a, b) the program takes the maximum M of the line of the cube along the axis, subtracts it, sums the
exponentials, takes the logarithm, subtracts again, multiplies by the mask, sums, negates, and divides by the mask's
own sum clamped below by ε. Every stage is a real number when the cube holds real numbers, and the quotient is the
specification's loss of that line. -/

section AxisLead

variable (x0 : (⟨S512x512x512, .f32⟩ : BufTy).Contents (Elt Ideal)) (x1 : (⟨S512x1, .f32⟩ : BufTy).Contents (Elt Ideal))
  (xr : Fin 512 → Fin 512 → Fin 512 → ℝ)

/-- The maximum stage at the entry (a, b), as a real number. -/
def M0 (a b : Fin 512) : ℝ := (val_main_call4_v2 (F := Ideal) x0 (ix2 a b)).toReal

/-- The line of the cube through the entry (a, b) along the axis. -/
def line0 (a b : Fin 512) : Fin 512 → ℝ := fun r => xr r a b

/-- The sum of the exponentials of the shifted line. -/
def S0 (a b : Fin 512) : ℝ := ∑ r, Real.exp (line0 xr a b r - M0 x0 a b)

theorem M0_eq (hx : ∀ a b c, x0 (ix3 a b c) = ((xr a b c : ℝ) : EReal)) (a b : Fin 512) :
    val_main_call4_v2 (F := Ideal) x0 (ix2 a b) = ((M0 x0 a b : ℝ) : EReal) := by
  have h : ∃ M : ℝ, val_main_call4_v2 (F := Ideal) x0 (ix2 a b) = (M : EReal) := by
    rw [val_main_call4_v2_apply, val_main_call4_v1_apply, val_main_call4_cst_0_apply]
    unfold val_main_call4_v0
    obtain ⟨M, hM⟩ := reduce_max_coe (a := 0) reducesTo_S512x512x512_S512x512_d0 (by decide) x0 (val_main_call4_cst (F := Ideal)) h_S_
      (by rw [val_main_call4_cst_apply]; exact Cert.LossMath.ofBits_negInf) (ix2 a b) (line0 xr a b) rfl
      (fun r => (congrArg x0 (lift_lead3 _ a b r)).trans (hx _ _ _))
    refine ⟨M, ?_⟩
    rw [hM, Ideal.ofBits_def, Cert.LossMath.ofBits_negInf]
    exact max_eq_right bot_le
  obtain ⟨M, hM⟩ := h
  unfold M0
  rw [hM]
  rfl

variable (hx : ∀ a b c, x0 (ix3 a b c) = ((xr a b c : ℝ) : EReal))
include hx

/-- The shifted cube at (i, j, k). -/
theorem ax0_shift (i j k : Fin 512) :
    val_main_call4_v5 (F := Ideal) x0 (ix3 i j k) = ((xr i j k - M0 x0 j k : ℝ) : EReal) := by
  rw [val_main_call4_v5_apply, val_main_call4_v4_apply, val_main_call4_v3_apply]
  have e : idx_main_call4_v3 (idx_main_call4_v4 (ix3 i j k)) = ix2 j k :=
    funext fun d => by match d with | ⟨0, _⟩ => rfl | ⟨1, _⟩ => rfl
  rw [e, M0_eq x0 xr hx, hx]
  rfl

/-- The sum of exponentials at the entry (a, b). -/
theorem ax0_sumexp (a b : Fin 512) :
    val_main_call4_v7 (F := Ideal) x0 (ix2 a b) = ((S0 x0 xr a b : ℝ) : EReal) := by
  rw [val_main_call4_v7_apply, val_main_call4_cst_1_apply, Ideal.ofBits_def, Cert.LossMath.ofBits_zero, zero_add]
  refine Eq.trans (Finset.sum_congr rfl fun r _ => ?_)
    (Cert.LossMath.coe_finset_sum Finset.univ fun r => Real.exp (line0 xr a b r - M0 x0 a b))
  have e : idx_main_call4_v7 (ix2 a b) r = ix3 r a b :=
    funext fun d => by match d with | ⟨0, _⟩ => rfl | ⟨1, _⟩ => rfl | ⟨2, _⟩ => rfl
  rw [e, val_main_call4_v6_apply, ax0_shift x0 xr hx]
  rfl

theorem S0_pos (a b : Fin 512) : 0 < S0 x0 xr a b :=
  Finset.sum_pos (fun r _ => Real.exp_pos _) Finset.univ_nonempty

/-- The logarithm of the sum, broadcast back over the cube. -/
theorem ax0_logsum (i j k : Fin 512) :
    val_main_call4_v10 (F := Ideal) x0 (ix3 i j k) = ((Real.log (S0 x0 xr j k) : ℝ) : EReal) := by
  rw [val_main_call4_v10_apply, val_main_call4_v9_apply, val_main_call4_v8_apply]
  have e : idx_main_call4_v8 (idx_main_call4_v10 (ix3 i j k)) = ix2 j k :=
    funext fun d => by match d with | ⟨0, _⟩ => rfl | ⟨1, _⟩ => rfl
  rw [e, ax0_sumexp x0 xr hx, Ideal.hostUnary_log_def]
  exact Cert.LossMath.log_coe (S0_pos x0 xr hx _ _)

/-- The masked log-softmax at (i, j, k). -/
theorem ax0_term (i j k : Fin 512) :
    val_main_v47 (F := Ideal) x0 x1 (ix3 i j k)
      = ((((xr i j k - M0 x0 j k) - Real.log (S0 x0 xr j k)) * maskR (flag x1) i j k : ℝ) : EReal) := by
  rw [val_main_v47_apply, val_main_v46_apply, ax0_shift x0 xr hx, ax0_logsum x0 xr hx, mask_apply]
  simp only [Ideal.mulf_def, Ideal.subf_def, ← EReal.coe_sub, ← EReal.coe_mul]

/-- The numerator at the entry (a, b). -/
theorem ax0_num (a b : Fin 512) :
    val_main_v49 (F := Ideal) x0 x1 (ix2 a b)
      = ((-(∑ r, ((line0 xr a b r - M0 x0 a b) - Real.log (S0 x0 xr a b)) * maskR (flag x1) r a b) : ℝ) : EReal) := by
  rw [val_main_v49_apply, val_main_v48_apply, val_main_cst_11_apply, Ideal.ofBits_def, Cert.LossMath.ofBits_zero, zero_add,
    Ideal.hostNegf_def, Ideal.negf_def, EReal.coe_neg]
  refine congrArg Neg.neg ?_
  refine Eq.trans (Finset.sum_congr rfl fun r _ => ?_)
    (Cert.LossMath.coe_finset_sum Finset.univ fun r =>
      ((line0 xr a b r - M0 x0 a b) - Real.log (S0 x0 xr a b)) * maskR (flag x1) r a b)
  have e : idx_main_v48 (ix2 a b) r = ix3 r a b :=
    funext fun d => by match d with | ⟨0, _⟩ => rfl | ⟨1, _⟩ => rfl | ⟨2, _⟩ => rfl
  rw [e, ax0_term x0 x1 xr hx]
  rfl

omit hx in
/-- The mask's own sum at the entry (a, b), clamped below by ε. -/
theorem ax0_den (a b : Fin 512) :
    val_main_v52 (F := Ideal) x1 (ix2 a b)
      = ((max (∑ r, maskR (flag x1) r a b) Cert.LossMath.epsR : ℝ) : EReal) := by
  rw [val_main_v52_apply, val_main_v50_apply, val_main_cst_12_apply, val_main_v51_apply, val_main_cst_13_apply,
    Ideal.ofBits_def, Ideal.ofBits_def, Cert.LossMath.ofBits_zero, Cert.LossMath.ofBits_eps, zero_add, Ideal.maximumf_def]
  refine Eq.trans (congrArg (max · _) ?_) (Cert.LossMath.max_coe _ _)
  refine Eq.trans (Finset.sum_congr rfl fun r _ => ?_)
    (Cert.LossMath.coe_finset_sum Finset.univ fun r => maskR (flag x1) r a b)
  have e : idx_main_v50 (ix2 a b) r = ix3 r a b :=
    funext fun d => by match d with | ⟨0, _⟩ => rfl | ⟨1, _⟩ => rfl | ⟨2, _⟩ => rfl
  rw [e, mask_apply]

/-- The loss along the axis at the entry (a, b) is the specification's. -/
theorem ax0_loss (a b : Fin 512) :
    val_main_v55 (F := Ideal) x0 x1 (ix2 a b)
      = ((famLoss Cert.LossMath.epsR (flag x1) (line0 xr a b) (flag x1 a) (flag x1 b) : ℝ) : EReal) := by
  have hden : max (∑ r, maskR (flag x1) r a b) Cert.LossMath.epsR ≠ 0 :=
    ne_of_gt (lt_of_lt_of_le Cert.LossMath.epsR_pos (le_max_right _ _))
  rw [val_main_v55_apply, val_main_v54_apply, val_main_cst_14_apply, val_main_v53_apply, ax0_num x0 x1 xr hx, ax0_den,
    Ideal.ofBits_def, Cert.LossMath.ofBits_one, Ideal.hostDivf_def, Cert.LossMath.div_coe _ hden, Ideal.mulf_def,
    Cert.LossMath.mul_coe, one_mul]
  refine congrArg _ ?_
  exact Cert.LossMath.ref_family Cert.LossMath.epsR (flag x1) (line0 xr a b) (flag x1 a) (flag x1 b) (M0 x0 a b)
    (fun r => maskR (flag x1) r a b) (fun r => maskR_lead (flag x1) a b r)

end AxisLead

/-! ## The three matrices added, summed and divided by the number of entries -/

/-- The sum of the three loss matrices at the entry (a, b). -/
theorem entry (x0 : (⟨S512x512x512, .f32⟩ : BufTy).Contents (Elt Ideal)) (x1 : (⟨S512x1, .f32⟩ : BufTy).Contents (Elt Ideal))
    (xr : Fin 512 → Fin 512 → Fin 512 → ℝ) (hx : ∀ a b c, x0 (ix3 a b c) = ((xr a b c : ℝ) : EReal)) (a b : Fin 512) :
    val_main_v56 (F := Ideal) x0 x1 (ix2 a b)
      = ((((famLoss Cert.LossMath.epsR (flag x1) (fun j => xr a j b) (flag x1 a) (flag x1 b)
            + famLoss Cert.LossMath.epsR (flag x1) (fun k => xr a b k) (flag x1 a) (flag x1 b))
          + famLoss Cert.LossMath.epsR (flag x1) (fun i => xr i a b) (flag x1 a) (flag x1 b)) : ℝ) : EReal) := by
  rw [val_main_v56_apply, val_main_v45_apply, ax1_loss x0 x1 xr hx, ax2_loss x0 x1 xr hx, ax0_loss x0 x1 xr hx,
    Ideal.addf_def, Ideal.addf_def, Cert.LossMath.add_coe, Cert.LossMath.add_coe]
  rfl

theorem ref_value (x0 : (⟨S512x512x512, .f32⟩ : BufTy).Contents (Elt Ideal)) (x1 : (⟨S512x1, .f32⟩ : BufTy).Contents (Elt Ideal))
    (xr : Fin 512 → Fin 512 → Fin 512 → ℝ) (hx : ∀ a b c, x0 (ix3 a b c) = ((xr a b c : ℝ) : EReal)) :
    ReadP.val_main_v58 (F := Ideal) x0 x1 = fun _ => ((Cert.Spec.total Cert.LossMath.epsR (flag x1) xr : ℝ) : EReal) := by
  funext i
  have hsum : (∑ j : S512x512.Idx, val_main_v56 (F := Ideal) x0 x1 j)
      = (((∑ a, ∑ b, ((famLoss Cert.LossMath.epsR (flag x1) (fun j => xr a j b) (flag x1 a) (flag x1 b)
            + famLoss Cert.LossMath.epsR (flag x1) (fun k => xr a b k) (flag x1 a) (flag x1 b))
          + famLoss Cert.LossMath.epsR (flag x1) (fun i => xr i a b) (flag x1 a) (flag x1 b))) : ℝ) : EReal) := by
    rw [sum_idx2, ← Cert.LossMath.coe_finset_sum]
    refine Finset.sum_congr rfl fun a _ => ?_
    rw [← Cert.LossMath.coe_finset_sum]
    exact Finset.sum_congr rfl fun b _ => entry x0 x1 xr hx a b
  rw [val_main_v58_apply, val_main_v57_apply, hsum, val_main_cst_15_apply, val_main_cst_16_apply, Ideal.ofBits_def, Ideal.ofBits_def,
    Cert.LossMath.ofBits_zero, Cert.LossMath.ofBits_262144, zero_add, Ideal.hostDivf_def,
    Cert.LossMath.div_coe _ (by norm_num : (262144 : ℝ) ≠ 0)]
  rfl

end Cert.ReferenceIdeal.RefValue

end
-- ==== Proof.lean ====
/-
  The certificate's five claims.

  Both programs compute the mean, over all pairs (a, b) and the three axes of a [512, 512, 512] cube, of the masked negative
  log-likelihood of the softmax along the axis; an index triple counts when the flags round(target) ≥ 0 of its three indices
  agree. The kernel accumulates, tile by tile, the plain sums, the sums of exponentials and the flag-weighted sums of the
  cube along each axis and combines them on the host with the counts of raised and lowered flags; the reference builds
  the mask and a max-shifted log-softmax on the whole cube. With every cube entry a real number both results are the same
  real number (`Cert.Spec.total`): log Σ exp(x − M) = log Σ exp x − M, and the number of counted positions and the masked
  sum of a line split by the flags of the line's two fixed indices.

  The three frames: each kernel program's region runs point by point (three cases of its body, by the position of the
  point in its run of sixteen), the reference is straight-line host code. The ideal pass rewrote nothing.
-/
import proofs.«124184_j88390426951927_2_alg».proof.Defs
import proofs.«124184_j88390426951927_2_alg».proof.Proof.Gen.Kernel
import proofs.«124184_j88390426951927_2_alg».proof.Proof.Gen.KernelIdeal
import proofs.«124184_j88390426951927_2_alg».proof.Proof.Gen.ReferenceIdeal
import proofs.«124184_j88390426951927_2_alg».proof.Proof.Gen.Pre_finite_inputs
import proofs.«124184_j88390426951927_2_alg».proof.Proof.K.Data
import proofs.«124184_j88390426951927_2_alg».proof.Proof.KI.Value
import proofs.«124184_j88390426951927_2_alg».proof.Proof.RI.Read
import proofs.«124184_j88390426951927_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- The two programs compare the same rounded target with zero: one flag per index. -/
theorem flag_eq (x1 : (⟨Cert.KernelIdeal.S512x1, .f32⟩ : BufTy).Contents (Elt Ideal)) :
    Cert.ReferenceIdeal.RefValue.flag x1 = Cert.KernelIdeal.Body.flagK x1 := rfl

/-- With the cube's entries real (the precondition), the kernel's result and the reference's are both the real number
    `total` of the cube and the flags. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose xr hxr using fun c => Cert.KernelIdeal.Body.cube_real m hpre c
  refine ⟨_, Cert.KernelIdeal.Body.kernel_run m ρ xr hxr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v58_eq, (hagree c).1, (hagree c).2,
    Cert.ReferenceIdeal.RefValue.ref_value _ _ (xr c) (hxr c), flag_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
